-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x1024 : Shape := ⟨4, ![32, 1, 512, 1024]⟩
abbrev S_ : Shape := ⟨0, ![]⟩

class Facts : Prop where
  bcast_S_S32x1x512x1024 : S_.BroadcastsInDim S32x1x512x1024 (![] : Fin 0 → Fin S32x1x512x1024.rank)
  reducesTo_S32x1x512x1024_S_d0_1_2_3 : S32x1x512x1024.ReducesTo [0, 1, 2, 3] S_
  h_S_ : 0 < S_.numel

variable [Facts]

def fn {F : FTy → Type} [FloatOps F] (main_arg0 : FVec F S32x1x512x1024 .f32) (main_arg1 : FVec F S32x1x512x1024 .f32) : IVec S_ 1 :=
  let main_v0 : FVec F S32x1x512x1024 .f32 := Host.absf main_arg0
  let main_cst : FVec F S_ .f32 := constant S_ .f32 0x7F800000#32
  let main_v1 : FVec F S32x1x512x1024 .f32 := broadcastInDim S32x1x512x1024 ![] bcast_S_S32x1x512x1024 main_cst
  let main_v2 : IVec S32x1x512x1024 1 := cmpf .olt main_v0 main_v1
  let main_c : IVec S_ 1 := constantI S_ 1 1#1
  let main_v3 : IVec S_ 1 := (fun x v => Host.reduce IntOp.andi x v reducesTo_S32x1x512x1024_S_d0_1_2_3 h_S_) main_v2 main_c
  let main_v4 : FVec F S32x1x512x1024 .f32 := Host.absf main_arg1
  let main_cst_0 : FVec F S_ .f32 := constant S_ .f32 0x7F800000#32
  let main_v5 : FVec F S32x1x512x1024 .f32 := broadcastInDim S32x1x512x1024 ![] bcast_S_S32x1x512x1024 main_cst_0
  let main_v6 : IVec S32x1x512x1024 1 := cmpf .olt main_v4 main_v5
  let main_c_1 : IVec S_ 1 := constantI S_ 1 1#1
  let main_v7 : IVec S_ 1 := (fun x v => Host.reduce IntOp.andi x v reducesTo_S32x1x512x1024_S_d0_1_2_3 h_S_) main_v6 main_c_1
  let main_v8 : IVec S_ 1 := andi main_v3 main_v7
  main_v8
-- ==== Kernel.lean ====
abbrev S32x1x512x1024 : Shape := ⟨4, ![32, 1, 512, 1024]⟩
abbrev S1x1 : Shape := ⟨2, ![1, 1]⟩
abbrev S1x1x512x1024 : Shape := ⟨4, ![1, 1, 512, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S32x1x512x1024, .f32⟩
  | .hbm, ⟨1, _⟩ => ⟨S32x1x512x1024, .f32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S32x1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  natLt_1_32 : 1 < 32
  slices_S512x1024_o0_1023_S512x1 : S512x1024.Slices ![0, 1023] S512x1
  slices_S512x1024_o0_0_S512x1 : S512x1024.Slices ![0, 0] S512x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S32x1x512x1024.size a
  hwx0_0 : ∀ i : grid0.Coords, EltTy.bits .f32 = 32 ∨ (Rect.block (s := S32x1x512x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1024.size a ≤ S32x1x512x1024.size a
  hwx0_1 : ∀ i : grid0.Coords, EltTy.bits .f32 = 32 ∨ (Rect.block (s := S32x1x512x1024) S1x1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x512x1024 : Shape := ⟨4, ![32, 1, 512, 1024]⟩
abbrev S_ : Shape := ⟨0, ![]⟩
abbrev S32x1x512x1 : Shape := ⟨4, ![32, 1, 512, 1]⟩
abbrev S32x1x512x1025 : Shape := ⟨4, ![32, 1, 512, 1025]⟩
abbrev S32x1x512x1026 : Shape := ⟨4, ![32, 1, 512, 1026]⟩
abbrev S1x512x1024x32 : Shape := ⟨4, ![1, 512, 1024, 32]⟩
abbrev S1x512x1024x1 : Shape := ⟨4, ![1, 512, 1024, 1]⟩
abbrev S1x512x1024x33 : Shape := ⟨4, ![1, 512, 1024, 33]⟩
abbrev S1x512x1024x34 : Shape := ⟨4, ![1, 512, 1024, 34]⟩
abbrev S32x512x1024x1 : Shape := ⟨4, ![32, 512, 1024, 1]⟩
abbrev S32x512x1024x2 : Shape := ⟨4, ![32, 512, 1024, 2]⟩
abbrev S32x512x1024x3 : Shape := ⟨4, ![32, 512, 1024, 3]⟩
abbrev S32x1x1024x512 : Shape := ⟨4, ![32, 1, 1024, 512]⟩
abbrev S32x1x1024x1 : Shape := ⟨4, ![32, 1, 1024, 1]⟩
abbrev S32x1x1024x513 : Shape := ⟨4, ![32, 1, 1024, 513]⟩
abbrev S32x1x1024x514 : Shape := ⟨4, ![32, 1, 1024, 514]⟩

abbrev nBuf : Space → Nat
  | .hbm => 168
  | .vmem => 0
  | .smem => 0
  | _ => 0

abbrev hbmTy0_0 (i : Nat) : BufTy := match i % 128 with
  | 0 => ⟨S32x1x512x1024, .f32⟩
  | 1 => ⟨S32x1x512x1024, .f32⟩
  | 2 => ⟨S_, .f32⟩
  | 3 => ⟨S32x1x512x1024, .f32⟩
  | 4 => ⟨S32x1x512x1024, .i1⟩
  | 5 => ⟨S32x1x512x1024, .f32⟩
  | 6 => ⟨S32x1x512x1024, .i32⟩
  | 7 => ⟨S_, .i32⟩
  | 8 => ⟨S_, .i32⟩
  | 9 => ⟨S32x1x512x1024, .f32⟩
  | 10 => ⟨S_, .f32⟩
  | 11 => ⟨S_, .f32⟩
  | 12 => ⟨S32x1x512x1024, .f32⟩
  | 13 => ⟨S32x1x512x1024, .f32⟩
  | 14 => ⟨S_, .f32⟩
  | 15 => ⟨S_, .f32⟩
  | 16 => ⟨S_, .f32⟩
  | 17 => ⟨S_, .f32⟩
  | 18 => ⟨S_, .i32⟩
  | 19 => ⟨S32x1x512x1, .f32⟩
  | 20 => ⟨S32x1x512x1, .f32⟩
  | 21 => ⟨S32x1x512x1, .f32⟩
  | 22 => ⟨S32x1x512x1025, .f32⟩
  | 23 => ⟨S32x1x512x1, .f32⟩
  | 24 => ⟨S32x1x512x1, .f32⟩
  | 25 => ⟨S32x1x512x1, .f32⟩
  | 26 => ⟨S32x1x512x1026, .f32⟩
  | 27 => ⟨S32x1x512x1024, .f32⟩
  | 28 => ⟨S32x1x512x1024, .f32⟩
  | 29 => ⟨S32x1x512x1024, .f32⟩
  | 30 => ⟨S1x512x1024x32, .f32⟩
  | 31 => ⟨S_, .i32⟩
  | 32 => ⟨S1x512x1024x1, .f32⟩
  | 33 => ⟨S1x512x1024x1, .f32⟩
  | 34 => ⟨S1x512x1024x1, .f32⟩
  | 35 => ⟨S1x512x1024x33, .f32⟩
  | 36 => ⟨S1x512x1024x1, .f32⟩
  | 37 => ⟨S1x512x1024x1, .f32⟩
  | 38 => ⟨S1x512x1024x1, .f32⟩
  | 39 => ⟨S1x512x1024x34, .f32⟩
  | 40 => ⟨S1x512x1024x32, .f32⟩
  | 41 => ⟨S1x512x1024x32, .f32⟩
  | 42 => ⟨S_, .f32⟩
  | 43 => ⟨S1x512x1024x32, .f32⟩
  | 44 => ⟨S1x512x1024x32, .f32⟩
  | 45 => ⟨S1x512x1024x32, .f32⟩
  | 46 => ⟨S1x512x1024x32, .f32⟩
  | 47 => ⟨S1x512x1024x32, .f32⟩
  | 48 => ⟨S32x1x512x1024, .f32⟩
  | 49 => ⟨S32x512x1024x1, .f32⟩
  | 50 => ⟨S_, .i32⟩
  | 51 => ⟨S32x512x1024x1, .f32⟩
  | 52 => ⟨S32x512x1024x1, .f32⟩
  | 53 => ⟨S32x512x1024x1, .f32⟩
  | 54 => ⟨S32x512x1024x2, .f32⟩
  | 55 => ⟨S32x512x1024x1, .f32⟩
  | 56 => ⟨S32x512x1024x1, .f32⟩
  | 57 => ⟨S32x512x1024x1, .f32⟩
  | 58 => ⟨S32x512x1024x3, .f32⟩
  | 59 => ⟨S32x512x1024x1, .f32⟩
  | 60 => ⟨S32x512x1024x1, .f32⟩
  | 61 => ⟨S_, .f32⟩
  | 62 => ⟨S32x512x1024x1, .f32⟩
  | 63 => ⟨S32x512x1024x1, .f32⟩
  | 64 => ⟨S32x512x1024x1, .f32⟩
  | 65 => ⟨S32x512x1024x1, .f32⟩
  | 66 => ⟨S32x512x1024x1, .f32⟩
  | 67 => ⟨S32x1x512x1024, .f32⟩
  | 68 => ⟨S32x1x1024x512, .f32⟩
  | 69 => ⟨S_, .i32⟩
  | 70 => ⟨S32x1x1024x1, .f32⟩
  | 71 => ⟨S32x1x1024x1, .f32⟩
  | 72 => ⟨S32x1x1024x1, .f32⟩
  | 73 => ⟨S32x1x1024x513, .f32⟩
  | 74 => ⟨S32x1x1024x1, .f32⟩
  | 75 => ⟨S32x1x1024x1, .f32⟩
  | 76 => ⟨S32x1x1024x1, .f32⟩
  | 77 => ⟨S32x1x1024x514, .f32⟩
  | 78 => ⟨S32x1x1024x512, .f32⟩
  | 79 => ⟨S32x1x1024x512, .f32⟩
  | 80 => ⟨S_, .f32⟩
  | 81 => ⟨S32x1x1024x512, .f32⟩
  | 82 => ⟨S32x1x1024x512, .f32⟩
  | 83 => ⟨S32x1x1024x512, .f32⟩
  | 84 => ⟨S32x1x1024x512, .f32⟩
  | 85 => ⟨S32x1x1024x512, .f32⟩
  | 86 => ⟨S32x1x512x1024, .f32⟩
  | 87 => ⟨S_, .i32⟩
  | 88 => ⟨S32x1x512x1, .f32⟩
  | 89 => ⟨S32x1x512x1, .f32⟩
  | 90 => ⟨S32x1x512x1, .f32⟩
  | 91 => ⟨S32x1x512x1025, .f32⟩
  | 92 => ⟨S32x1x512x1, .f32⟩
  | 93 => ⟨S32x1x512x1, .f32⟩
  | 94 => ⟨S32x1x512x1, .f32⟩
  | 95 => ⟨S32x1x512x1026, .f32⟩
  | 96 => ⟨S32x1x512x1024, .f32⟩
  | 97 => ⟨S32x1x512x1024, .f32⟩
  | 98 => ⟨S32x1x512x1024, .f32⟩
  | 99 => ⟨S1x512x1024x32, .f32⟩
  | 100 => ⟨S_, .i32⟩
  | 101 => ⟨S1x512x1024x1, .f32⟩
  | 102 => ⟨S1x512x1024x1, .f32⟩
  | 103 => ⟨S1x512x1024x1, .f32⟩
  | 104 => ⟨S1x512x1024x33, .f32⟩
  | 105 => ⟨S1x512x1024x1, .f32⟩
  | 106 => ⟨S1x512x1024x1, .f32⟩
  | 107 => ⟨S1x512x1024x1, .f32⟩
  | 108 => ⟨S1x512x1024x34, .f32⟩
  | 109 => ⟨S1x512x1024x32, .f32⟩
  | 110 => ⟨S1x512x1024x32, .f32⟩
  | 111 => ⟨S_, .f32⟩
  | 112 => ⟨S1x512x1024x32, .f32⟩
  | 113 => ⟨S1x512x1024x32, .f32⟩
  | 114 => ⟨S1x512x1024x32, .f32⟩
  | 115 => ⟨S1x512x1024x32, .f32⟩
  | 116 => ⟨S1x512x1024x32, .f32⟩
  | 117 => ⟨S32x1x512x1024, .f32⟩
  | 118 => ⟨S32x512x1024x1, .f32⟩
  | 119 => ⟨S_, .i32⟩
  | 120 => ⟨S32x512x1024x1, .f32⟩
  | 121 => ⟨S32x512x1024x1, .f32⟩
  | 122 => ⟨S32x512x1024x1, .f32⟩
  | 123 => ⟨S32x512x1024x2, .f32⟩
  | 124 => ⟨S32x512x1024x1, .f32⟩
  | 125 => ⟨S32x512x1024x1, .f32⟩
  | 126 => ⟨S32x512x1024x1, .f32⟩
  | 127 => ⟨S32x512x1024x3, .f32⟩
  | _ => ⟨S32x1x512x1024, .f32⟩

abbrev hbmTy0_1 (i : Nat) : BufTy := match i % 128 with
  | 0 => ⟨S32x512x1024x1, .f32⟩
  | 1 => ⟨S32x512x1024x1, .f32⟩
  | 2 => ⟨S_, .f32⟩
  | 3 => ⟨S32x512x1024x1, .f32⟩
  | 4 => ⟨S32x512x1024x1, .f32⟩
  | 5 => ⟨S32x512x1024x1, .f32⟩
  | 6 => ⟨S32x512x1024x1, .f32⟩
  | 7 => ⟨S32x512x1024x1, .f32⟩
  | 8 => ⟨S32x1x512x1024, .f32⟩
  | 9 => ⟨S32x1x1024x512, .f32⟩
  | 10 => ⟨S_, .i32⟩
  | 11 => ⟨S32x1x1024x1, .f32⟩
  | 12 => ⟨S32x1x1024x1, .f32⟩
  | 13 => ⟨S32x1x1024x1, .f32⟩
  | 14 => ⟨S32x1x1024x513, .f32⟩
  | 15 => ⟨S32x1x1024x1, .f32⟩
  | 16 => ⟨S32x1x1024x1, .f32⟩
  | 17 => ⟨S32x1x1024x1, .f32⟩
  | 18 => ⟨S32x1x1024x514, .f32⟩
  | 19 => ⟨S32x1x1024x512, .f32⟩
  | 20 => ⟨S32x1x1024x512, .f32⟩
  | 21 => ⟨S_, .f32⟩
  | 22 => ⟨S32x1x1024x512, .f32⟩
  | 23 => ⟨S32x1x1024x512, .f32⟩
  | 24 => ⟨S32x1x1024x512, .f32⟩
  | 25 => ⟨S32x1x1024x512, .f32⟩
  | 26 => ⟨S32x1x1024x512, .f32⟩
  | 27 => ⟨S32x1x512x1024, .f32⟩
  | 28 => ⟨S32x1x512x1024, .f32⟩
  | 29 => ⟨S_, .f32⟩
  | 30 => ⟨S32x1x512x1024, .f32⟩
  | 31 => ⟨S32x1x512x1024, .f32⟩
  | 32 => ⟨S_, .f32⟩
  | 33 => ⟨S_, .f32⟩
  | 34 => ⟨S32x1x512x1024, .f32⟩
  | 35 => ⟨S32x1x512x1024, .f32⟩
  | 36 => ⟨S_, .f32⟩
  | 37 => ⟨S_, .f32⟩
  | 38 => ⟨S_, .f32⟩
  | 39 => ⟨S_, .f32⟩
  | _ => ⟨S32x1x512x1024, .f32⟩

abbrev hbmTy (i : Nat) : BufTy := match i / 128 with
  | 0 => hbmTy0_0 i
  | 1 => hbmTy0_1 i
  | _ => ⟨S32x1x512x1024, .f32⟩

abbrev bufTy : (tb : Table) → Fin (tcTables nBuf tb) → BufTy
  | .hbm, ⟨i, _⟩ => hbmTy i
  | _, _ => ⟨S32x1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_7 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_8 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_9 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_10 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_v5 : Ref sig .tc := ⟨.hbm, 106, rfl⟩
abbrev main_call6_v6 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_11 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_c_12 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_call7_v3 : Ref sig .tc := ⟨.hbm, 123, rfl⟩
abbrev main_call7_v4 : Ref sig .tc := ⟨.hbm, 124, rfl⟩
abbrev main_call7_v5 : Ref sig .tc := ⟨.hbm, 125, rfl⟩
abbrev main_call7_v6 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_13 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_c_14 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_call8_v3 : Ref sig .tc := ⟨.hbm, 142, rfl⟩
abbrev main_call8_v4 : Ref sig .tc := ⟨.hbm, 143, rfl⟩
abbrev main_call8_v5 : Ref sig .tc := ⟨.hbm, 144, rfl⟩
abbrev main_call8_v6 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_cst_15 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_cst_16 : Ref sig .tc := ⟨.hbm, 157, rfl⟩
abbrev main_v79 : Ref sig .tc := ⟨.hbm, 158, rfl⟩
abbrev main_v80 : Ref sig .tc := ⟨.hbm, 159, rfl⟩
abbrev main_cst_17 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_cst_18 : Ref sig .tc := ⟨.hbm, 164, rfl⟩
abbrev main_v84 : Ref sig .tc := ⟨.hbm, 165, rfl⟩
abbrev main_cst_19 : Ref sig .tc := ⟨.hbm, 166, rfl⟩
abbrev main_v85 : Ref sig .tc := ⟨.hbm, 167, rfl⟩

abbrev nD : Nat := 1
abbrev τ : Topo := Topo.v7x

variable {F : FTy → Type} [FloatOps F]

class Facts₀ : Prop where
  bcast_S_S32x1x512x1024 : S_.BroadcastsInDim S32x1x512x1024 (![] : Fin 0 → Fin S32x1x512x1024.rank)
  natLt_1_32 : 1 < 32
  reducesTo_S32x1x512x1024_S_d0_1_2_3 : S32x1x512x1024.ReducesTo [0, 1, 2, 3] S_
  h_S_ : 0 < S_.numel
  slices_S32x1x512x1024_S32x1x512x1_0_0_0_0 : S32x1x512x1024.Slices ![0, 0, 0, 0] S32x1x512x1
  concatenates_S32x1x512x1_S32x1x512x1024_S32x1x512x1025_d3 : Shape.Concatenates [S32x1x512x1, S32x1x512x1024] S32x1x512x1025 3
  slices_S32x1x512x1025_S32x1x512x1_0_0_0_1024 : S32x1x512x1025.Slices ![0, 0, 0, 1024] S32x1x512x1
  concatenates_S32x1x512x1025_S32x1x512x1_S32x1x512x1026_d3 : Shape.Concatenates [S32x1x512x1025, S32x1x512x1] S32x1x512x1026 3
  slices_S32x1x512x1026_S32x1x512x1024_0_0_0_2 : S32x1x512x1026.Slices ![0, 0, 0, 2] S32x1x512x1024
  slices_S32x1x512x1026_S32x1x512x1024_0_0_0_0 : S32x1x512x1026.Slices ![0, 0, 0, 0] S32x1x512x1024
  transposes_S32x1x512x1024_S1x512x1024x32_1_2_3_0 : S32x1x512x1024.Transposes [1, 2, 3, 0] S1x512x1024x32
  slices_S1x512x1024x32_S1x512x1024x1_0_0_0_0 : S1x512x1024x32.Slices ![0, 0, 0, 0] S1x512x1024x1
  concatenates_S1x512x1024x1_S1x512x1024x32_S1x512x1024x33_d3 : Shape.Concatenates [S1x512x1024x1, S1x512x1024x32] S1x512x1024x33 3
  slices_S1x512x1024x33_S1x512x1024x1_0_0_0_32 : S1x512x1024x33.Slices ![0, 0, 0, 32] S1x512x1024x1
  concatenates_S1x512x1024x33_S1x512x1024x1_S1x512x1024x34_d3 : Shape.Concatenates [S1x512x1024x33, S1x512x1024x1] S1x512x1024x34 3
  slices_S1x512x1024x34_S1x512x1024x32_0_0_0_0 : S1x512x1024x34.Slices ![0, 0, 0, 0] S1x512x1024x32
  slices_S1x512x1024x34_S1x512x1024x32_0_0_0_1 : S1x512x1024x34.Slices ![0, 0, 0, 1] S1x512x1024x32
  bcast_S_S1x512x1024x32 : S_.BroadcastsInDim S1x512x1024x32 (![] : Fin 0 → Fin S1x512x1024x32.rank)
  slices_S1x512x1024x34_S1x512x1024x32_0_0_0_2 : S1x512x1024x34.Slices ![0, 0, 0, 2] S1x512x1024x32
  transposes_S1x512x1024x32_S32x1x512x1024_3_0_1_2 : S1x512x1024x32.Transposes [3, 0, 1, 2] S32x1x512x1024
  transposes_S32x1x512x1024_S32x512x1024x1_0_2_3_1 : S32x1x512x1024.Transposes [0, 2, 3, 1] S32x512x1024x1
  slices_S32x512x1024x1_S32x512x1024x1_0_0_0_0 : S32x512x1024x1.Slices ![0, 0, 0, 0] S32x512x1024x1
  concatenates_S32x512x1024x1_S32x512x1024x1_S32x512x1024x2_d3 : Shape.Concatenates [S32x512x1024x1, S32x512x1024x1] S32x512x1024x2 3
  slices_S32x512x1024x2_S32x512x1024x1_0_0_0_1 : S32x512x1024x2.Slices ![0, 0, 0, 1] S32x512x1024x1
  concatenates_S32x512x1024x2_S32x512x1024x1_S32x512x1024x3_d3 : Shape.Concatenates [S32x512x1024x2, S32x512x1024x1] S32x512x1024x3 3
  slices_S32x512x1024x3_S32x512x1024x1_0_0_0_0 : S32x512x1024x3.Slices ![0, 0, 0, 0] S32x512x1024x1
  slices_S32x512x1024x3_S32x512x1024x1_0_0_0_1 : S32x512x1024x3.Slices ![0, 0, 0, 1] S32x512x1024x1
  bcast_S_S32x512x1024x1 : S_.BroadcastsInDim S32x512x1024x1 (![] : Fin 0 → Fin S32x512x1024x1.rank)
  slices_S32x512x1024x3_S32x512x1024x1_0_0_0_2 : S32x512x1024x3.Slices ![0, 0, 0, 2] S32x512x1024x1
  transposes_S32x512x1024x1_S32x1x512x1024_0_3_1_2 : S32x512x1024x1.Transposes [0, 3, 1, 2] S32x1x512x1024
  transposes_S32x1x512x1024_S32x1x1024x512_0_1_3_2 : S32x1x512x1024.Transposes [0, 1, 3, 2] S32x1x1024x512
  slices_S32x1x1024x512_S32x1x1024x1_0_0_0_0 : S32x1x1024x512.Slices ![0, 0, 0, 0] S32x1x1024x1
  concatenates_S32x1x1024x1_S32x1x1024x512_S32x1x1024x513_d3 : Shape.Concatenates [S32x1x1024x1, S32x1x1024x512] S32x1x1024x513 3
  slices_S32x1x1024x513_S32x1x1024x1_0_0_0_512 : S32x1x1024x513.Slices ![0, 0, 0, 512] S32x1x1024x1
  concatenates_S32x1x1024x513_S32x1x1024x1_S32x1x1024x514_d3 : Shape.Concatenates [S32x1x1024x513, S32x1x1024x1] S32x1x1024x514 3
  slices_S32x1x1024x514_S32x1x1024x512_0_0_0_0 : S32x1x1024x514.Slices ![0, 0, 0, 0] S32x1x1024x512
  slices_S32x1x1024x514_S32x1x1024x512_0_0_0_1 : S32x1x1024x514.Slices ![0, 0, 0, 1] S32x1x1024x512
  bcast_S_S32x1x1024x512 : S_.BroadcastsInDim S32x1x1024x512 (![] : Fin 0 → Fin S32x1x1024x512.rank)
  slices_S32x1x1024x514_S32x1x1024x512_0_0_0_2 : S32x1x1024x514.Slices ![0, 0, 0, 2] S32x1x1024x512
  transposes_S32x1x1024x512_S32x1x512x1024_0_1_3_2 : S32x1x1024x512.Transposes [0, 1, 3, 2] S32x1x512x1024

variable [Facts₀]

class Facts : Prop extends Facts₀ where

variable [Facts]
-- ==== Proof.KPieces.lean ====
/-
  What one run of the body leaves in each of its three accumulators and in each of its three
  outputs, as a pure function of the two input blocks and of what the accumulators held before.

  Write `x0` for the block of the first argument (the prediction) and `x1` for the block of the
  second (the target). The body computes three block totals, each a 1×1 value:
    the count of valid elements   `k0_pay9 x1`,
    the edge difference total     `k0_pay10 x0 x1`,
    the masked sum of squares     (inside `k0_pay11 x0 x1 ·`, which also adds the old value),
  adds each to its accumulator and copies the three accumulators to the three outputs. At the
  first grid point the accumulators are first set to the zero block (`k0_pay3`, `k0_pay4`,
  `k0_pay5`), so the old values there are those; at every other point they are what the point
  before left (`xs0`, `xs1`, `xs2`). Every store and load is of a whole 1×1 (or whole block)
  buffer at zero offsets, so what a buffer ends with is the payload of the last store into it, and
  a load after a store reads that payload.
-/
import proofs.«163007_j23742579212666_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The two zero offsets of a rank-2 buffer, as the constant function. -/
theorem hz2 : (![0, 0] : Fin 2 → Nat) = fun _ => 0 := funext fun a => by fin_cases a <;> rfl
/-- The four zero offsets of a rank-4 buffer, as the constant function. -/
theorem hz4 : (![0, 0, 0, 0] : Fin 4 → Nat) = fun _ => 0 := funext fun a => by fin_cases a <;> rfl

/-- A load of the whole buffer after a list of stores whose LAST one stored the whole buffer reads
    that store's payload, whatever the earlier stores were. -/
theorem readCov_cons_unit_zero {Val : EltTy → Type} [∀ e, Nonempty (Val e)] {S : Shape} {e : EltTy}
    {sig : RefSig} {κ : Kind} {sp : Space} (v : View sig κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## Every grid point but the first: the accumulators start at what the point before left -/

/-- The count accumulator ends at its old value plus the block's count of valid elements. -/
theorem acc_count_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    sout0_B_0 c i a1 h1 a2 h2 a3 h3 a4 h4 a5 h5 a6 h6 a7 h7 a8 h8 hc x0 x1 xs0 xs1 xs2 = k0_pay1 (k0_pay9 x1) xs0 := by
  unfold sout0_B_0
  rw [View.read_writes_eq_canon _ _ _ (scover0_B_0 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The sum-of-squares accumulator ends at its old value plus the block's masked sum of squares. -/
theorem acc_sumsq_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    sout0_B_1 c i a1 h1 a2 h2 a3 h3 a4 h4 a5 h5 a6 h6 a7 h7 a8 h8 hc x0 x1 xs0 xs1 xs2 = k0_pay11 x0 x1 xs1 := by
  unfold sout0_B_1
  rw [View.read_writes_eq_canon _ _ _ (scover0_B_1 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The edge accumulator ends at its old value plus the block's edge difference total. -/
theorem acc_edge_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    sout0_B_2 c i a1 h1 a2 h2 a3 h3 a4 h4 a5 h5 a6 h6 a7 h7 a8 h8 hc x0 x1 xs0 xs1 xs2 = k0_pay2 (k0_pay10 x0 x1) xs2 := by
  unfold sout0_B_2
  rw [View.read_writes_eq_canon _ _ _ (scover0_B_2 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The first output is a copy of the count accumulator's new value. -/
theorem out_count_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    out0_B_2 c i a1 h1 a2 h2 a3 h3 a4 h4 a5 h5 a6 h6 a7 h7 a8 h8 hc x0 x1 xs0 xs1 xs2 = k0_pay1 (k0_pay9 x1) xs0 := by
  unfold out0_B_2
  rw [View.read_writes_eq_canon _ _ _ (cover0_B_2 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The second output is a copy of the sum-of-squares accumulator's new value. -/
theorem out_sumsq_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    out0_B_3 c i a1 h1 a2 h2 a3 h3 a4 h4 a5 h5 a6 h6 a7 h7 a8 h8 hc x0 x1 xs0 xs1 xs2 = k0_pay11 x0 x1 xs1 := by
  unfold out0_B_3
  rw [View.read_writes_eq_canon _ _ _ (cover0_B_3 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The third output is a copy of the edge accumulator's new value. -/
theorem out_edge_B (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 x1 : Vec F S1x1x512x1024 .f32) (xs0 xs1 xs2 : Vec F S1x1 .f32) :
    out0_B_4 c i a1 h1 a2 h2 a3 h3 a4 h4 a5 h5 a6 h6 a7 h7 a8 h8 hc x0 x1 xs0 xs1 xs2 = k0_pay2 (k0_pay10 x0 x1) xs2 := by
  unfold out0_B_4
  rw [View.read_writes_eq_canon _ _ _ (cover0_B_4 c i a1 h1 a2 h2 a3 h3 a4 h4 a5 h5 a6 h6 a7 h7 a8 h8 hc x0 x1 xs0 xs1 xs2)]
  unfold kernelRun0_B
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-! ## The first grid point: the accumulators start at the zero block -/

/-- The count accumulator ends at the zero block plus the block's count of valid elements. -/
theorem acc_count_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    sout0_A_0 c i a1 h1 a2 h2 a3 h3 a4 h4 a5 h5 a6 h6 a7 h7 a8 h8 hc x0 x1 = k0_pay1 (k0_pay9 x1) k0_pay3 := by
  unfold sout0_A_0
  rw [View.read_writes_eq_canon _ _ _ (scover0_A_0 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The sum-of-squares accumulator ends at the zero block plus the block's masked sum of squares. -/
theorem acc_sumsq_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    sout0_A_1 c i a1 h1 a2 h2 a3 h3 a4 h4 a5 h5 a6 h6 a7 h7 a8 h8 hc x0 x1 = k0_pay11 x0 x1 k0_pay4 := by
  unfold sout0_A_1
  rw [View.read_writes_eq_canon _ _ _ (scover0_A_1 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The edge accumulator ends at the zero block plus the block's edge difference total. -/
theorem acc_edge_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    sout0_A_2 c i a1 h1 a2 h2 a3 h3 a4 h4 a5 h5 a6 h6 a7 h7 a8 h8 hc x0 x1 = k0_pay2 (k0_pay10 x0 x1) k0_pay5 := by
  unfold sout0_A_2
  rw [View.read_writes_eq_canon _ _ _ (scover0_A_2 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The first output is a copy of the count accumulator's new value. -/
theorem out_count_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    out0_A_2 c i a1 h1 a2 h2 a3 h3 a4 h4 a5 h5 a6 h6 a7 h7 a8 h8 hc x0 x1 = k0_pay1 (k0_pay9 x1) k0_pay3 := by
  unfold out0_A_2
  rw [View.read_writes_eq_canon _ _ _ (cover0_A_2 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The second output is a copy of the sum-of-squares accumulator's new value. -/
theorem out_sumsq_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    out0_A_3 c i a1 h1 a2 h2 a3 h3 a4 h4 a5 h5 a6 h6 a7 h7 a8 h8 hc x0 x1 = k0_pay11 x0 x1 k0_pay4 := by
  unfold out0_A_3
  rw [View.read_writes_eq_canon _ _ _ (cover0_A_3 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

/-- The third output is a copy of the edge accumulator's new value. -/
theorem out_edge_A (c : Dev nD) (i : grid0.Coords) (a1 : Memref sig .tc .vmem S1x1x512x1024 .f32) (h1 : a1.IsWhole) (a2 : Memref sig .tc .vmem S1x1x512x1024 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 x1 : Vec F S1x1x512x1024 .f32) :
    out0_A_4 c i a1 h1 a2 h2 a3 h3 a4 h4 a5 h5 a6 h6 a7 h7 a8 h8 hc x0 x1 = k0_pay2 (k0_pay10 x0 x1) k0_pay5 := by
  unfold out0_A_4
  rw [View.read_writes_eq_canon _ _ _ (cover0_A_4 c i a1 h1 a2 h2 a3 h3 a4 h4 a5 h5 a6 h6 a7 h7 a8 h8 hc x0 x1)]
  unfold kernelRun0_A
  dsimp only
  sl_unfold_words
  simp only [View.canon_cons_unit_zero (S := S1x1) hz2, View.canon_unit_zero (S := S1x1) hz2,
    readCov_cons_unit_zero (S := S1x1) _ hz2, View.readCov_unit_zero (S := S1x1) _ hz2, View.readAt_eq_ld,
    h1.read_unread, h2.read_unread, h6.read_unread, h7.read_unread, h8.read_unread,
    View.ld_unit_zero (S := S1x1x512x1024) hz4, View.ld_unit_zero (S := S1x1) hz2]

end Cert.KernelIdeal.KValue

end
-- ==== Proof.KRead.lean ====
/-
  The layout operations and the two one-axis sums of the body, each read at an index over explicit
  coordinates, at the extended reals.

  A block is a [1, 1, 512, 1024] slab viewed as 512 rows of 1024 lanes. The body sums a
  [512, 1024] value over its lanes to a [512] value, views that as a [512, 1] column, and sums the
  column over its rows to a single value viewed as [1, 1]. The edge total slices lane 1023 and
  lane 0 out of the [512, 1024] value as [512, 1] columns. At the extended reals a one-axis sum is
  the finite sum over that axis's coordinates, whatever the accumulator word.
-/
import proofs.«163007_j23742579212666_1_alg».proof.Proof.Gen.KernelIdeal.Skeleton
import Idealize.ShloMosaic.Lib.Pipeline.Value
import Idealize.ShloMosaic.Lib.IdealHost

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen

open Idealize.ShloMosaic.ValueIdx

/-- The source index of a lane sum: row `k` of the result with lane `w` inserted. -/
theorem lift_lane (k : Fin 512) (w : Fin 1024) : reduces_S512x1024_S512.lift (ix1 k) w = ix2 k w := by
  funext c; apply Fin.ext
  match c with
  | ⟨0, _⟩ => rfl
  | ⟨1, _⟩ => rfl

/-- The source index of a row sum of a column: the one result index with row `k` inserted. -/
theorem lift_row (k : Fin 512) : reduces_S512x1_S1.lift (ix1 (0 : Fin 1)) k = ix2 k (0 : Fin 1) := by
  funext c; apply Fin.ext
  match c with
  | ⟨0, _⟩ => rfl
  | ⟨1, _⟩ => rfl

/-- A sum over the lanes, read at row `k`: the sum of the row's 1024 entries. -/
theorem laneSum_apply (v : FVec Ideal S512x1024 .f32) (hφ : FKind.Formats .f32)
    (hacc : (0x00000000#32 : BitVec 32) = FKind.add.neutral .f32 hφ) (k : Fin 512) :
    multiReduction .add [1] S512 v 0x00000000#32 reduces_S512x1024_S512 hφ hacc (ix1 k)
      = ∑ w : Fin 1024, v (ix2 k w) := by
  refine (Ideal.multiReduction_add_single v 0x00000000#32 reduces_S512x1024_S512 hφ hacc (ix1 k)).trans ?_
  exact Finset.sum_congr rfl fun w _ => congrArg v (lift_lane k w)

/-- A sum of a column over its rows, read at its one index: the sum of the 512 entries. -/
theorem rowSum_apply (v : FVec Ideal S512x1 .f32) (hφ : FKind.Formats .f32)
    (hacc : (0x00000000#32 : BitVec 32) = FKind.add.neutral .f32 hφ) :
    multiReduction .add [0] S1 v 0x00000000#32 reduces_S512x1_S1 hφ hacc (ix1 (0 : Fin 1))
      = ∑ k : Fin 512, v (ix2 k (0 : Fin 1)) := by
  refine (Ideal.multiReduction_add_single v 0x00000000#32 reduces_S512x1_S1 hφ hacc (ix1 (0 : Fin 1))).trans ?_
  exact Finset.sum_congr rfl fun k _ => congrArg v (lift_row k)

/-- A [512] value viewed as a [512, 1] column reads row `k` at `(k, 0)`. -/
theorem castCol_apply {α : Type} (v : S512.Idx → α) (k : Fin 512) :
    shapeCast S512x1 v shapeCasts_S512_S512x1 (ix2 k (0 : Fin 1)) = v (ix1 k) := by
  refine shapeCast_apply v shapeCasts_S512_S512x1 (ix2 k (0 : Fin 1)) (ix1 k) ?_
  rw [Shape.rowMajor_val_one, Shape.rowMajor_val_two]
  show k.val = k.val * 1 + 0
  omega

/-- A single value viewed as [1, 1] reads it at its one index. -/
theorem castOne_apply {α : Type} (v : S1.Idx → α) (j : S1x1.Idx) :
    shapeCast S1x1 v shapeCasts_S1_S1x1 j = v (ix1 (0 : Fin 1)) := by
  refine shapeCast_apply v shapeCasts_S1_S1x1 j (ix1 (0 : Fin 1)) ?_
  rw [Shape.rowMajor_val_one, Shape.rowMajor_val_two]
  have h0 : (j 0).val < 1 := (j 0).isLt
  have h1 : (j 1).val < 1 := (j 1).isLt
  show (0 : Nat) = (j 0).val * 1 + (j 1).val
  omega

/-- A [1, 1, 512, 1024] block viewed as [512, 1024] reads `(0, 0, k, w)` at `(k, w)`. -/
theorem castBlk_apply {α : Type} (x : S1x1x512x1024.Idx → α) (k : Fin 512) (w : Fin 1024) :
    shapeCast S512x1024 x shapeCasts_S1x1x512x1024_S512x1024 (ix2 k w) = x (ix4 (0 : Fin 1) (0 : Fin 1) k w) := by
  refine shapeCast_apply x shapeCasts_S1x1x512x1024_S512x1024 (ix2 k w) (ix4 (0 : Fin 1) (0 : Fin 1) k w) ?_
  rw [Shape.rowMajor_val_four, Shape.rowMajor_val_two]
  show ((0 * 1 + 0) * 512 + k.val) * 1024 + w.val = k.val * 1024 + w.val
  omega

/-- The last lane sliced out as a column reads `(k, 1023)` at `(k, 0)`. -/
theorem sliceLast_apply {α : Type} (v : S512x1024.Idx → α) (k : Fin 512) :
    extractStridedSlice S512x1 ![0, 1023] v slices_S512x1024_o0_1023_S512x1 (ix2 k (0 : Fin 1))
      = v (ix2 k (1023 : Fin 1024)) := by
  refine extractStridedSlice_apply ![0, 1023] v slices_S512x1024_o0_1023_S512x1 (ix2 k (0 : Fin 1)) (ix2 k (1023 : Fin 1024)) ?_
  intro a
  match a with
  | ⟨0, _⟩ => show k.val = 0 + k.val; omega
  | ⟨1, _⟩ => rfl

/-- The first lane sliced out as a column reads `(k, 0)` at `(k, 0)`. -/
theorem sliceFirst_apply {α : Type} (v : S512x1024.Idx → α) (k : Fin 512) :
    extractStridedSlice S512x1 ![0, 0] v slices_S512x1024_o0_0_S512x1 (ix2 k (0 : Fin 1))
      = v (ix2 k (0 : Fin 1024)) := by
  refine extractStridedSlice_apply ![0, 0] v slices_S512x1024_o0_0_S512x1 (ix2 k (0 : Fin 1)) (ix2 k (0 : Fin 1024)) ?_
  intro a
  match a with
  | ⟨0, _⟩ => show k.val = 0 + k.val; omega
  | ⟨1, _⟩ => rfl

end Cert.KernelIdeal.KValue

end
-- ==== Proof.KSpec.lean ====
/-
  The value the program computes, as a closed form of its two argument arrays.

  Both arguments have shape [32, 1, 512, 1024]: `p` the prediction, `t` the target. Write
  d = t - p for the difference and call an element valid when its target is above zero. Three
  scalars are taken over all 32 · 512 · 1024 elements (blocks b, rows h, lanes w):

    nvalid = the number of valid elements (each counted as the real number 1),
    sumsq  = the sum of d² over the valid elements,
    bdiff  = the sum over blocks and rows of d at the last lane minus d at the first lane.

  The result is 0.3 · ((128 · bdiff) / 2^24) + 0.7 · (sumsq / nvalid), the four literals kept as
  the words the program prints and never evaluated. Every sum is over a literal index type and the
  extended reals' addition needs no finiteness to commute or associate, so the nesting below
  (lanes inside rows inside blocks) is only one of the equal arrangements.
-/
import Idealize.ShloMosaic.Lib.IdealHost

noncomputable section

open scoped BigOperators

namespace Cert.KernelIdeal.KValue

open Idealize.ShloMosaic Idealize.ShloMosaic.ValueIdx

/-- The shape of each argument array. -/
abbrev SIn : Shape := ⟨4, ![32, 1, 512, 1024]⟩
/-- The scalar shape of the result. -/
abbrev SOut : Shape := ⟨0, ![]⟩

/-- The validity bit of a target element: it is above the zero word's value. -/
def validBit (y : EReal) : BitVec 1 := Ideal.cmp .ogt y (Ideal.ofBits .f32 0x00000000#32)

/-- A valid element counts as one, an invalid one as zero: the bit widened to 32 bits and read as a
    signed integer. -/
def validF (y : EReal) : EReal := ((((validBit y).setWidth 32).toInt : ℝ) : EReal)

/-- The squared difference of a valid element, and the zero word's value otherwise. -/
def sqF (x y : EReal) : EReal :=
  Scalar.select (validBit y) ((y - x) * (y - x)) (Ideal.ofBits .f32 0x00000000#32)

/-- The number of valid elements. -/
def nvalid (p t : FVec Ideal SIn .f32) : EReal :=
  ∑ b : Fin 32, ∑ h : Fin 512, ∑ w : Fin 1024, validF (t (ix4 b (0 : Fin 1) h w))

/-- The sum of the squared differences over the valid elements. -/
def sumsq (p t : FVec Ideal SIn .f32) : EReal :=
  ∑ b : Fin 32, ∑ h : Fin 512, ∑ w : Fin 1024,
    sqF (p (ix4 b (0 : Fin 1) h w)) (t (ix4 b (0 : Fin 1) h w))

/-- The sum over blocks and rows of the difference at the last lane minus the difference at the
    first lane. -/
def bdiff (p t : FVec Ideal SIn .f32) : EReal :=
  ∑ b : Fin 32, ∑ h : Fin 512,
    ((t (ix4 b (0 : Fin 1) h (1023 : Fin 1024)) - p (ix4 b (0 : Fin 1) h (1023 : Fin 1024)))
      - (t (ix4 b (0 : Fin 1) h (0 : Fin 1024)) - p (ix4 b (0 : Fin 1) h (0 : Fin 1024))))

/-- The scalar combination the program ends with, of the three totals as scalars:
    0.3 · ((128 · bd) / 2^24) + 0.7 · (sq / nv), each literal the printed word. -/
def tail (nv sq bd : FVec Ideal SOut .f32) : FVec Ideal SOut .f32 :=
  addf (F := Ideal)
    (mulf (F := Ideal) (constant (F := Ideal) SOut .f32 0x3E99999A#32)
      (Host.divf (F := Ideal)
        (mulf (F := Ideal) (constant (F := Ideal) SOut .f32 0x43000000#32) bd)
        (constant (F := Ideal) SOut .f32 0x4B800000#32)))
    (mulf (F := Ideal) (constant (F := Ideal) SOut .f32 0x3F333333#32)
      (Host.divf (F := Ideal) sq nv))

/-- The program's result as a function of its two arguments. -/
def result (p t : FVec Ideal SIn .f32) : FVec Ideal SOut .f32 :=
  tail (fun _ => nvalid p t) (fun _ => sumsq p t) (fun _ => bdiff p t)

/-- The combination read at the scalar's one index, on the extended reals. -/
theorem tail_apply (nv sq bd : FVec Ideal SOut .f32) (i : SOut.Idx) :
    tail nv sq bd i
      = Ideal.ofBits .f32 0x3E99999A#32
          * Ideal.div (Ideal.ofBits .f32 0x43000000#32 * bd i) (Ideal.ofBits .f32 0x4B800000#32)
        + Ideal.ofBits .f32 0x3F333333#32 * Ideal.div (sq i) (nv i) := rfl

/-- The validity bit is one exactly when the target is above zero. -/
theorem validBit_eq (y : EReal) : validBit y = if 0 < y then 1#1 else 0#1 := by
  unfold validBit Ideal.cmp
  rw [Ideal.ofBits_zero_f32]
  by_cases h : 0 < y <;> simp [h]

/-- A valid element counts as the real number one, an invalid one as zero. -/
theorem validF_eq (y : EReal) : validF y = if 0 < y then 1 else 0 := by
  unfold validF
  rw [validBit_eq]
  by_cases h : 0 < y
  · rw [if_pos h, if_pos h]; norm_num
  · rw [if_neg h, if_neg h]; norm_num

/-- The summand of the squared differences: the square where the target is above zero, else
    zero. -/
theorem sqF_eq (x y : EReal) : sqF x y = if 0 < y then (y - x) * (y - x) else 0 := by
  unfold sqF Scalar.select
  rw [validBit_eq, Ideal.ofBits_zero_f32]
  by_cases h : 0 < y
  · rw [if_pos h, if_pos h]; exact if_pos (by decide)
  · rw [if_neg h, if_neg h]; exact if_neg (by decide)

end Cert.KernelIdeal.KValue

end
-- ==== Proof.KPay.lean ====
/-
  The body's payloads read at an index, at the extended reals.

  For a block `x0` of the first argument and `x1` of the second, the three block totals are
    blkCount x1     = Σ rows Σ lanes (1 where the second argument's entry is above zero, else 0),
    blkSumsq x0 x1  = Σ rows Σ lanes (the squared difference where that entry is above zero, else the zero word's value),
    blkEdge x0 x1   = Σ rows (difference at lane 1023 − difference at lane 0),
  and each accumulator update is "old value + block total" at the accumulator's one index.
-/
import proofs.«163007_j23742579212666_1_alg».proof.Proof.KRead
import proofs.«163007_j23742579212666_1_alg».proof.Proof.KSpec

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen

open Idealize.ShloMosaic.ValueIdx

/-- The number of valid elements of a block. -/
def blkCount (x1 : FVec Ideal S1x1x512x1024 .f32) : EReal :=
  ∑ k : Fin 512, ∑ w : Fin 1024, validF (x1 (ix4 (0 : Fin 1) (0 : Fin 1) k w))

/-- The sum of the squared differences over the valid elements of a block. -/
def blkSumsq (x0 x1 : FVec Ideal S1x1x512x1024 .f32) : EReal :=
  ∑ k : Fin 512, ∑ w : Fin 1024,
    sqF (x0 (ix4 (0 : Fin 1) (0 : Fin 1) k w)) (x1 (ix4 (0 : Fin 1) (0 : Fin 1) k w))

/-- The sum over a block's rows of the difference at the last lane minus the difference at the first. -/
def blkEdge (x0 x1 : FVec Ideal S1x1x512x1024 .f32) : EReal :=
  ∑ k : Fin 512,
    ((x1 (ix4 (0 : Fin 1) (0 : Fin 1) k (1023 : Fin 1024)) - x0 (ix4 (0 : Fin 1) (0 : Fin 1) k (1023 : Fin 1024)))
      - (x1 (ix4 (0 : Fin 1) (0 : Fin 1) k (0 : Fin 1024)) - x0 (ix4 (0 : Fin 1) (0 : Fin 1) k (0 : Fin 1024))))

/-- The block's count payload is the block's count of valid elements. -/
theorem pay9_apply (x1 : FVec Ideal S1x1x512x1024 .f32) (j : S1x1.Idx) :
    k0_pay9 (F := Ideal) x1 j = blkCount x1 := by
  unfold k0_pay9 k0_pay8 k0_pay6
  dsimp only
  refine (castOne_apply _ j).trans ?_
  refine (rowSum_apply _ _ _).trans ?_
  refine Finset.sum_congr rfl fun k _ => ?_
  refine (castCol_apply _ k).trans ?_
  refine (laneSum_apply _ _ _ k).trans ?_
  refine Finset.sum_congr rfl fun w _ => ?_
  show ((((Ideal.cmp .ogt (shapeCast S512x1024 x1 shapeCasts_S1x1x512x1024_S512x1024 (ix2 k w)) (Ideal.ofBits .f32 0x00000000#32)).setWidth 32).toInt : ℝ) : EReal) = _
  rw [castBlk_apply]
  rfl

/-- The block's edge payload is the block's edge difference total. -/
theorem pay10_apply (x0 x1 : FVec Ideal S1x1x512x1024 .f32) (j : S1x1.Idx) :
    k0_pay10 (F := Ideal) x0 x1 j = blkEdge x0 x1 := by
  unfold k0_pay10 k0_pay7 k0_pay6
  dsimp only
  refine (castOne_apply _ j).trans ?_
  refine (rowSum_apply _ _ _).trans ?_
  refine Finset.sum_congr rfl fun k _ => ?_
  refine (subf_apply _ _ _).trans ?_
  rw [sliceLast_apply, sliceFirst_apply]
  show (shapeCast S512x1024 x1 shapeCasts_S1x1x512x1024_S512x1024 (ix2 k (1023 : Fin 1024))
        - shapeCast S512x1024 x0 shapeCasts_S1x1x512x1024_S512x1024 (ix2 k (1023 : Fin 1024)))
      - (shapeCast S512x1024 x1 shapeCasts_S1x1x512x1024_S512x1024 (ix2 k (0 : Fin 1024))
        - shapeCast S512x1024 x0 shapeCasts_S1x1x512x1024_S512x1024 (ix2 k (0 : Fin 1024))) = _
  rw [castBlk_apply, castBlk_apply, castBlk_apply, castBlk_apply]

/-- The sum-of-squares update is the old value plus the block's masked sum of squares. -/
theorem pay11_apply (x0 x1 : FVec Ideal S1x1x512x1024 .f32) (a : FVec Ideal S1x1 .f32) (j : S1x1.Idx) :
    k0_pay11 (F := Ideal) x0 x1 a j = a j + blkSumsq x0 x1 := by
  unfold k0_pay11 k0_pay7 k0_pay8 k0_pay6
  dsimp only
  refine (congrFun (shapeCast_self _ _) j).trans ?_
  refine (addf_apply _ _ j).trans ?_
  refine congrArg (fun z => a j + z) ?_
  refine (castOne_apply _ j).trans ?_
  refine (rowSum_apply _ _ _).trans ?_
  refine Finset.sum_congr rfl fun k _ => ?_
  refine (castCol_apply _ k).trans ?_
  refine (laneSum_apply _ _ _ k).trans ?_
  refine Finset.sum_congr rfl fun w _ => ?_
  show Scalar.select
      (Ideal.cmp .ogt (shapeCast S512x1024 x1 shapeCasts_S1x1x512x1024_S512x1024 (ix2 k w)) (Ideal.ofBits .f32 0x00000000#32))
      ((shapeCast S512x1024 x1 shapeCasts_S1x1x512x1024_S512x1024 (ix2 k w)
          - shapeCast S512x1024 x0 shapeCasts_S1x1x512x1024_S512x1024 (ix2 k w))
        * (shapeCast S512x1024 x1 shapeCasts_S1x1x512x1024_S512x1024 (ix2 k w)
          - shapeCast S512x1024 x0 shapeCasts_S1x1x512x1024_S512x1024 (ix2 k w)))
      (Ideal.ofBits .f32 0x00000000#32) = _
  rw [castBlk_apply, castBlk_apply]
  rfl

/-- The count update is the old value plus the block total it is given. -/
theorem pay1_apply (v a : FVec Ideal S1x1 .f32) (j : S1x1.Idx) : k0_pay1 (F := Ideal) v a j = a j + v j := by
  unfold k0_pay1
  exact (congrFun (shapeCast_self _ _) j).trans (addf_apply _ _ j)

/-- The edge update is the old value plus the block total it is given. -/
theorem pay2_apply (v a : FVec Ideal S1x1 .f32) (j : S1x1.Idx) : k0_pay2 (F := Ideal) v a j = a j + v j := by
  unfold k0_pay2
  exact (congrFun (shapeCast_self _ _) j).trans (addf_apply _ _ j)

/-- The three zero blocks the first grid point stores are the extended real zero. -/
theorem pay3_apply (j : S1x1.Idx) : k0_pay3 (F := Ideal) j = 0 := by
  unfold k0_pay3
  exact (congrFun (shapeCast_self _ _) j).trans Ideal.ofBits_zero_f32
theorem pay4_apply (j : S1x1.Idx) : k0_pay4 (F := Ideal) j = 0 := by
  unfold k0_pay4
  exact (congrFun (shapeCast_self _ _) j).trans Ideal.ofBits_zero_f32
theorem pay5_apply (j : S1x1.Idx) : k0_pay5 (F := Ideal) j = 0 := by
  unfold k0_pay5
  exact (congrFun (shapeCast_self _ _) j).trans Ideal.ofBits_zero_f32

end Cert.KernelIdeal.KValue

end
-- ==== Proof.KBlock.lean ====
/-
  What the two input windows read: the block of an argument at grid point `t` is slab `t` of
  that argument, so its entry at row `k`, lane `w` is the argument's entry at `(t, 0, k, w)`.
-/
import proofs.«163007_j23742579212666_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx

variable {F : FTy → Type} [FloatOps F]
variable (m : (ℓ : Loc nD τ sig) → Buf (Elt F) ℓ)

/-- Both input windows step along the leading axis only: at point `t` the block index is `(t, 0, 0, 0)`. -/
theorem idx_in : ∀ t : Fin cfg0.N,
    (win0_0.index t (0 : Fin 4) = t.val ∧ win0_0.index t (1 : Fin 4) = 0 ∧ win0_0.index t (2 : Fin 4) = 0
        ∧ win0_0.index t (3 : Fin 4) = 0)
      ∧ (win0_1.index t (0 : Fin 4) = t.val ∧ win0_1.index t (1 : Fin 4) = 0 ∧ win0_1.index t (2 : Fin 4) = 0
        ∧ win0_1.index t (3 : Fin 4) = 0) :=
  (by decide +kernel : ∀ t : Fin grid0.N,
    (win0_0.index t (0 : Fin 4) = t.val ∧ win0_0.index t (1 : Fin 4) = 0 ∧ win0_0.index t (2 : Fin 4) = 0
        ∧ win0_0.index t (3 : Fin 4) = 0)
      ∧ (win0_1.index t (0 : Fin 4) = t.val ∧ win0_1.index t (1 : Fin 4) = 0 ∧ win0_1.index t (2 : Fin 4) = 0
        ∧ win0_1.index t (3 : Fin 4) = 0))

/-- A grid point as a slab number. -/
def slab (t : Fin cfg0.N) : Fin 32 := ⟨t.val, lt_of_lt_of_eq t.isLt N_0⟩

/-- The first argument's block at point `t`, read at row `k`, lane `w`. -/
theorem blk0_apply (c : Dev nD) (t : Fin cfg0.N) (k : Fin 512) (w : Fin 1024) :
    (iblk m c 0 t : FVec F S1x1x512x1024 .f32) (ix4 (0 : Fin 1) (0 : Fin 1) k w)
      = (m ((c : Thread nD τ).loc main_arg0) : FVec F S32x1x512x1024 .f32) (ix4 (slab t) (0 : Fin 1) k w) := by
  obtain ⟨⟨h0, h1, h2, h3⟩, -⟩ := idx_in t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 4) * 1 + 1 * 0 = t.val; rw [h0]; omega
  | ⟨1, _⟩ => show win0_0.index t (1 : Fin 4) * 1 + 1 * 0 = 0; rw [h1]
  | ⟨2, _⟩ => show win0_0.index t (2 : Fin 4) * 512 + 1 * k.val = k.val; rw [h2]; omega
  | ⟨3, _⟩ => show win0_0.index t (3 : Fin 4) * 1024 + 1 * w.val = w.val; rw [h3]; omega

/-- The second argument's block at point `t`, read at row `k`, lane `w`. -/
theorem blk1_apply (c : Dev nD) (t : Fin cfg0.N) (k : Fin 512) (w : Fin 1024) :
    (iblk m c 1 t : FVec F S1x1x512x1024 .f32) (ix4 (0 : Fin 1) (0 : Fin 1) k w)
      = (m ((c : Thread nD τ).loc main_arg1) : FVec F S32x1x512x1024 .f32) (ix4 (slab t) (0 : Fin 1) k w) := by
  obtain ⟨-, ⟨h0, h1, h2, h3⟩⟩ := idx_in t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t (0 : Fin 4) * 1 + 1 * 0 = t.val; rw [h0]; omega
  | ⟨1, _⟩ => show win0_1.index t (1 : Fin 4) * 1 + 1 * 0 = 0; rw [h1]
  | ⟨2, _⟩ => show win0_1.index t (2 : Fin 4) * 512 + 1 * k.val = k.val; rw [h2]; omega
  | ⟨3, _⟩ => show win0_1.index t (3 : Fin 4) * 1024 + 1 * w.val = w.val; rw [h3]; omega

end Cert.KernelIdeal.KValue

end
-- ==== Proof.KInvariant.lean ====
/-
  What the three accumulators and the three outputs hold after each grid point.

  Grid point `n` reads slab `n` of both arguments. Write, for a slab number `b`,
    cntAt t b    for the slab's count of valid elements,
    sqAt p t b   for its masked sum of squares,
    edAt p t b   for its edge difference total,
  and `C t n`, `Q p t n`, `E p t n` for their sums over the slabs below `n`. After point `n` the
  count accumulator and the first output hold `C t (n + 1)`, the sum-of-squares accumulator and the
  second output `Q p t (n + 1)`, the edge accumulator and the third output `E p t (n + 1)`: at the
  first point each accumulator is zeroed and the slab's total added (0 + x = x), at every later
  point the slab's total is added to what the point before left, and the outputs are copies.
-/
import proofs.«163007_j23742579212666_1_alg».proof.Proof.KPieces
import proofs.«163007_j23742579212666_1_alg».proof.Proof.KPay
import proofs.«163007_j23742579212666_1_alg».proof.Proof.KBlock

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen

open Idealize.ShloMosaic.ValueIdx

/-! ## Slab totals and their running sums -/

/-- Slab `b`'s count of valid elements (zero past the last slab). -/
def cntAt (t : FVec Ideal S32x1x512x1024 .f32) (b : ℕ) : EReal :=
  if h : b < 32 then ∑ k : Fin 512, ∑ w : Fin 1024, validF (t (ix4 (⟨b, h⟩ : Fin 32) (0 : Fin 1) k w)) else 0

/-- Slab `b`'s masked sum of squares (zero past the last slab). -/
def sqAt (p t : FVec Ideal S32x1x512x1024 .f32) (b : ℕ) : EReal :=
  if h : b < 32 then ∑ k : Fin 512, ∑ w : Fin 1024,
    sqF (p (ix4 (⟨b, h⟩ : Fin 32) (0 : Fin 1) k w)) (t (ix4 (⟨b, h⟩ : Fin 32) (0 : Fin 1) k w)) else 0

/-- Slab `b`'s edge difference total (zero past the last slab). -/
def edAt (p t : FVec Ideal S32x1x512x1024 .f32) (b : ℕ) : EReal :=
  if h : b < 32 then ∑ k : Fin 512,
    ((t (ix4 (⟨b, h⟩ : Fin 32) (0 : Fin 1) k (1023 : Fin 1024)) - p (ix4 (⟨b, h⟩ : Fin 32) (0 : Fin 1) k (1023 : Fin 1024)))
      - (t (ix4 (⟨b, h⟩ : Fin 32) (0 : Fin 1) k (0 : Fin 1024)) - p (ix4 (⟨b, h⟩ : Fin 32) (0 : Fin 1) k (0 : Fin 1024)))) else 0

/-- The count over the slabs below `n`. -/
def C (t : FVec Ideal S32x1x512x1024 .f32) (n : ℕ) : EReal := ∑ b ∈ Finset.range n, cntAt t b
/-- The masked sum of squares over the slabs below `n`. -/
def Q (p t : FVec Ideal S32x1x512x1024 .f32) (n : ℕ) : EReal := ∑ b ∈ Finset.range n, sqAt p t b
/-- The edge difference total over the slabs below `n`. -/
def E (p t : FVec Ideal S32x1x512x1024 .f32) (n : ℕ) : EReal := ∑ b ∈ Finset.range n, edAt p t b

theorem C_succ (t : FVec Ideal S32x1x512x1024 .f32) (n : ℕ) : C t (n + 1) = C t n + cntAt t n :=
  Finset.sum_range_succ _ _
theorem Q_succ (p t : FVec Ideal S32x1x512x1024 .f32) (n : ℕ) : Q p t (n + 1) = Q p t n + sqAt p t n :=
  Finset.sum_range_succ _ _
theorem E_succ (p t : FVec Ideal S32x1x512x1024 .f32) (n : ℕ) : E p t (n + 1) = E p t n + edAt p t n :=
  Finset.sum_range_succ _ _
theorem C_one (t : FVec Ideal S32x1x512x1024 .f32) : C t 1 = cntAt t 0 := Finset.sum_range_one _
theorem Q_one (p t : FVec Ideal S32x1x512x1024 .f32) : Q p t 1 = sqAt p t 0 := Finset.sum_range_one _
theorem E_one (p t : FVec Ideal S32x1x512x1024 .f32) : E p t 1 = edAt p t 0 := Finset.sum_range_one _

/-! ## One point's updates over variables -/

/-- Adding a block's count to an accumulator that holds `A`. -/
theorem count_step (X1 : FVec Ideal S1x1x512x1024 .f32) (a : FVec Ideal S1x1 .f32) (A B : EReal)
    (ha : a = fun _ => A) (hX : blkCount X1 = B) :
    k0_pay1 (F := Ideal) (k0_pay9 X1) a = fun _ => A + B := by
  funext j; rw [pay1_apply, pay9_apply, ha, hX]
/-- Adding a block's count to the zeroed accumulator. -/
theorem count_first (X1 : FVec Ideal S1x1x512x1024 .f32) (B : EReal) (hX : blkCount X1 = B) :
    k0_pay1 (F := Ideal) (k0_pay9 X1) (k0_pay3 (F := Ideal)) = fun _ => B := by
  funext j; rw [pay1_apply, pay3_apply, pay9_apply, hX, zero_add]
/-- Adding a block's masked sum of squares to an accumulator that holds `A`. -/
theorem sumsq_step (X0 X1 : FVec Ideal S1x1x512x1024 .f32) (a : FVec Ideal S1x1 .f32) (A B : EReal)
    (ha : a = fun _ => A) (hX : blkSumsq X0 X1 = B) :
    k0_pay11 (F := Ideal) X0 X1 a = fun _ => A + B := by
  funext j; rw [pay11_apply, ha, hX]
/-- Adding a block's masked sum of squares to the zeroed accumulator. -/
theorem sumsq_first (X0 X1 : FVec Ideal S1x1x512x1024 .f32) (B : EReal) (hX : blkSumsq X0 X1 = B) :
    k0_pay11 (F := Ideal) X0 X1 (k0_pay4 (F := Ideal)) = fun _ => B := by
  funext j; rw [pay11_apply, pay4_apply, hX, zero_add]
/-- Adding a block's edge total to an accumulator that holds `A`. -/
theorem edge_step (X0 X1 : FVec Ideal S1x1x512x1024 .f32) (a : FVec Ideal S1x1 .f32) (A B : EReal)
    (ha : a = fun _ => A) (hX : blkEdge X0 X1 = B) :
    k0_pay2 (F := Ideal) (k0_pay10 X0 X1) a = fun _ => A + B := by
  funext j; rw [pay2_apply, pay10_apply, ha, hX]
/-- Adding a block's edge total to the zeroed accumulator. -/
theorem edge_first (X0 X1 : FVec Ideal S1x1x512x1024 .f32) (B : EReal) (hX : blkEdge X0 X1 = B) :
    k0_pay2 (F := Ideal) (k0_pay10 X0 X1) (k0_pay5 (F := Ideal)) = fun _ => B := by
  funext j; rw [pay2_apply, pay5_apply, pay10_apply, hX, zero_add]

variable (m : (ℓ : Loc nD τ sig) → Buf (Elt Ideal) ℓ)

/-! ## A point's block totals are its slab's -/

theorem blkCount_iblk (c : Dev nD) (t : Fin cfg0.N) :
    blkCount (iblk m c 1 t) = cntAt (m ((c : Thread nD τ).loc main_arg1)) t.val := by
  unfold blkCount cntAt
  rw [dif_pos (lt_of_lt_of_eq t.isLt N_0)]
  refine Finset.sum_congr rfl fun k _ => Finset.sum_congr rfl fun w _ => ?_
  exact congrArg validF (blk1_apply m c t k w)

theorem blkSumsq_iblk (c : Dev nD) (t : Fin cfg0.N) :
    blkSumsq (iblk m c 0 t) (iblk m c 1 t)
      = sqAt (m ((c : Thread nD τ).loc main_arg0)) (m ((c : Thread nD τ).loc main_arg1)) t.val := by
  unfold blkSumsq sqAt
  rw [dif_pos (lt_of_lt_of_eq t.isLt N_0)]
  refine Finset.sum_congr rfl fun k _ => Finset.sum_congr rfl fun w _ => ?_
  exact congrArg₂ sqF (blk0_apply m c t k w) (blk1_apply m c t k w)

theorem blkEdge_iblk (c : Dev nD) (t : Fin cfg0.N) :
    blkEdge (iblk m c 0 t) (iblk m c 1 t)
      = edAt (m ((c : Thread nD τ).loc main_arg0)) (m ((c : Thread nD τ).loc main_arg1)) t.val := by
  unfold blkEdge edAt
  rw [dif_pos (lt_of_lt_of_eq t.isLt N_0)]
  refine Finset.sum_congr rfl fun k _ => ?_
  exact congrArg₂ (fun x y => x - y)
    (congrArg₂ (fun x y => x - y) (blk1_apply m c t k (1023 : Fin 1024)) (blk0_apply m c t k (1023 : Fin 1024)))
    (congrArg₂ (fun x y => x - y) (blk1_apply m c t k (0 : Fin 1024)) (blk0_apply m c t k (0 : Fin 1024)))

/-! ## The invariant -/

/-- The six values after the slabs below `n`: the three outputs, then the three accumulators. -/
def totals (p t : FVec Ideal S32x1x512x1024 .f32) (n : ℕ) :
    Vec Ideal S1x1 .f32 × Vec Ideal S1x1 .f32 × Vec Ideal S1x1 .f32 × Vec Ideal S1x1 .f32 × Vec Ideal S1x1 .f32 × Vec Ideal S1x1 .f32 :=
  (fun _ => C t n, fun _ => Q p t n, fun _ => E p t n, fun _ => C t n, fun _ => Q p t n, fun _ => E p t n)

/-- The first point (any point where the accumulators are reset): everything holds the point's own slab totals. -/
theorem outsAt_first (c : Dev nD) (t : Fin cfg0.N) (h0 : t.val % 32 = 0) :
    outsAt0 m c t.val t.isLt
      = ((fun _ => cntAt (m ((c : Thread nD τ).loc main_arg1)) t.val : Vec Ideal S1x1 .f32),
         (fun _ => sqAt (m ((c : Thread nD τ).loc main_arg0)) (m ((c : Thread nD τ).loc main_arg1)) t.val : Vec Ideal S1x1 .f32),
         (fun _ => edAt (m ((c : Thread nD τ).loc main_arg0)) (m ((c : Thread nD τ).loc main_arg1)) t.val : Vec Ideal S1x1 .f32),
         (fun _ => cntAt (m ((c : Thread nD τ).loc main_arg1)) t.val : Vec Ideal S1x1 .f32),
         (fun _ => sqAt (m ((c : Thread nD τ).loc main_arg0)) (m ((c : Thread nD τ).loc main_arg1)) t.val : Vec Ideal S1x1 .f32),
         (fun _ => edAt (m ((c : Thread nD τ).loc main_arg0)) (m ((c : Thread nD τ).loc main_arg1)) t.val : Vec Ideal S1x1 .f32)) := by
  rw [outsAt0_A m c t h0]
  refine Prod.ext ?_ (Prod.ext ?_ (Prod.ext ?_ (Prod.ext ?_ (Prod.ext ?_ ?_))))
  · exact (out_count_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (count_first (iblk m c 1 t) _ (blkCount_iblk m c t))
  · exact (out_sumsq_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (sumsq_first (iblk m c 0 t) (iblk m c 1 t) _ (blkSumsq_iblk m c t))
  · exact (out_edge_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (edge_first (iblk m c 0 t) (iblk m c 1 t) _ (blkEdge_iblk m c t))
  · exact (acc_count_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (count_first (iblk m c 1 t) _ (blkCount_iblk m c t))
  · exact (acc_sumsq_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (sumsq_first (iblk m c 0 t) (iblk m c 1 t) _ (blkSumsq_iblk m c t))
  · exact (acc_edge_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t)).trans
      (edge_first (iblk m c 0 t) (iblk m c 1 t) _ (blkEdge_iblk m c t))

/-- Any other point: each accumulator's old value plus the point's slab total, and the outputs copies. -/
theorem outsAt_next (c : Dev nD) (t : Fin cfg0.N) (hB : ¬t.val % 32 = 0) (A0 A1 A2 : EReal)
    (i0 : (outsAt0 m c (t.val - 1) (Nat.lt_of_le_of_lt (Nat.sub_le _ _) t.isLt)).2.2.2.1 = fun _ => A0)
    (i1 : (outsAt0 m c (t.val - 1) (Nat.lt_of_le_of_lt (Nat.sub_le _ _) t.isLt)).2.2.2.2.1 = fun _ => A1)
    (i2 : (outsAt0 m c (t.val - 1) (Nat.lt_of_le_of_lt (Nat.sub_le _ _) t.isLt)).2.2.2.2.2 = fun _ => A2) :
    outsAt0 m c t.val t.isLt
      = ((fun _ => A0 + cntAt (m ((c : Thread nD τ).loc main_arg1)) t.val : Vec Ideal S1x1 .f32),
         (fun _ => A1 + sqAt (m ((c : Thread nD τ).loc main_arg0)) (m ((c : Thread nD τ).loc main_arg1)) t.val : Vec Ideal S1x1 .f32),
         (fun _ => A2 + edAt (m ((c : Thread nD τ).loc main_arg0)) (m ((c : Thread nD τ).loc main_arg1)) t.val : Vec Ideal S1x1 .f32),
         (fun _ => A0 + cntAt (m ((c : Thread nD τ).loc main_arg1)) t.val : Vec Ideal S1x1 .f32),
         (fun _ => A1 + sqAt (m ((c : Thread nD τ).loc main_arg0)) (m ((c : Thread nD τ).loc main_arg1)) t.val : Vec Ideal S1x1 .f32),
         (fun _ => A2 + edAt (m ((c : Thread nD τ).loc main_arg0)) (m ((c : Thread nD τ).loc main_arg1)) t.val : Vec Ideal S1x1 .f32)) := by
  rw [outsAt0_B m c t hB]
  refine Prod.ext ?_ (Prod.ext ?_ (Prod.ext ?_ (Prod.ext ?_ (Prod.ext ?_ ?_))))
  · exact (out_count_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (count_step (iblk m c 1 t) _ _ _ i0 (blkCount_iblk m c t))
  · exact (out_sumsq_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (sumsq_step (iblk m c 0 t) (iblk m c 1 t) _ _ _ i1 (blkSumsq_iblk m c t))
  · exact (out_edge_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (edge_step (iblk m c 0 t) (iblk m c 1 t) _ _ _ i2 (blkEdge_iblk m c t))
  · exact (acc_count_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (count_step (iblk m c 1 t) _ _ _ i0 (blkCount_iblk m c t))
  · exact (acc_sumsq_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (sumsq_step (iblk m c 0 t) (iblk m c 1 t) _ _ _ i1 (blkSumsq_iblk m c t))
  · exact (acc_edge_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => hB ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (edge_step (iblk m c 0 t) (iblk m c 1 t) _ _ _ i2 (blkEdge_iblk m c t))

/-- After grid point `n` the outputs and the accumulators hold the totals over slabs `0 … n`. -/
theorem outsAt_eq (c : Dev nD) : ∀ (n : ℕ) (hn : n < cfg0.N),
    outsAt0 m c n hn = totals (m ((c : Thread nD τ).loc main_arg0)) (m ((c : Thread nD τ).loc main_arg1)) (n + 1)
  | 0, hn => by
    refine (outsAt_first m c ⟨0, hn⟩ rfl).trans ?_
    unfold totals
    rw [C_one, Q_one, E_one]
  | n + 1, hn => by
    have hN : cfg0.N = 32 := N_0
    have ih := outsAt_eq c n (Nat.lt_of_succ_lt hn)
    refine (outsAt_next m c ⟨n + 1, hn⟩ (by dsimp only; omega)
      (C (m ((c : Thread nD τ).loc main_arg1)) (n + 1))
      (Q (m ((c : Thread nD τ).loc main_arg0)) (m ((c : Thread nD τ).loc main_arg1)) (n + 1))
      (E (m ((c : Thread nD τ).loc main_arg0)) (m ((c : Thread nD τ).loc main_arg1)) (n + 1))
      (congrArg (fun z => z.2.2.2.1) ih) (congrArg (fun z => z.2.2.2.2.1) ih) (congrArg (fun z => z.2.2.2.2.2) ih)).trans ?_
    unfold totals
    rw [C_succ _ (n + 1), Q_succ _ _ (n + 1), E_succ _ _ (n + 1)]

end Cert.KernelIdeal.KValue

end
-- ==== Proof.KFinal.lean ====
/-
  What the three 1×1 output arrays hold when the grid has been run.

  After the last grid point each output's staging buffer holds its running sum over all 32 slabs,
  which is the corresponding total of the specification (the sum over `Finset.range 32` of the
  per-slab totals is the sum over `Fin 32`). Each output's one block is written back once, after
  the last point, and that block is the whole array; a block of a constant array is that constant.
-/
import proofs.«163007_j23742579212666_1_alg».proof.Proof.KInvariant
import proofs.«163007_j23742579212666_1_alg».proof.Proof.KSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen

open Idealize.ShloMosaic.ValueIdx

/-! ## The running sums over all slabs are the specification's totals -/

theorem C_total (p t : FVec Ideal S32x1x512x1024 .f32) : C t 32 = nvalid p t := by
  unfold C nvalid
  rw [Finset.sum_range]
  refine Finset.sum_congr rfl fun b _ => ?_
  unfold cntAt
  rw [dif_pos b.isLt]

theorem Q_total (p t : FVec Ideal S32x1x512x1024 .f32) : Q p t 32 = sumsq p t := by
  unfold Q sumsq
  rw [Finset.sum_range]
  refine Finset.sum_congr rfl fun b _ => ?_
  unfold sqAt
  rw [dif_pos b.isLt]

theorem E_total (p t : FVec Ideal S32x1x512x1024 .f32) : E p t 32 = bdiff p t := by
  unfold E bdiff
  rw [Finset.sum_range]
  refine Finset.sum_congr rfl fun b _ => ?_
  unfold edAt
  rw [dif_pos b.isLt]

variable (m : (ℓ : Loc nD τ sig) → Buf (Elt Ideal) ℓ) (ρ : Dev nD → PrngReg)

/-! ## What the three output arrays end with -/

/-- The first output array ends with the number of valid elements, at its one index. -/
abbrev G2 (c : Dev nD) : Buf (Elt Ideal) ((c : Thread nD τ).loc main_v0_0) :=
  fun _ => nvalid (m ((c : Thread nD τ).loc main_arg0)) (m ((c : Thread nD τ).loc main_arg1))
/-- The second output array ends with the masked sum of squares. -/
abbrev G3 (c : Dev nD) : Buf (Elt Ideal) ((c : Thread nD τ).loc main_v0_1) :=
  fun _ => sumsq (m ((c : Thread nD τ).loc main_arg0)) (m ((c : Thread nD τ).loc main_arg1))
/-- The third output array ends with the edge difference total. -/
abbrev G4 (c : Dev nD) : Buf (Elt Ideal) ((c : Thread nD τ).loc main_v0_2) :=
  fun _ => bdiff (m ((c : Thread nD τ).loc main_arg0)) (m ((c : Thread nD τ).loc main_arg1))

/-- The last grid point. -/
abbrev tLast : Fin cfg0.N := ⟨31, by rw [show cfg0.N = 32 from N_0]; decide⟩

/-- The one write-back of the first output, after the last point, writes the total: the body left
    the running sum over slabs `0 … 31` there, and a block of a constant array is that constant. -/
theorem flushed2_eq (c : Dev nD) (t : Fin cfg0.N) (hf : (cfg0.win 2).flush t = true) :
    (dats m 0 c).flushed 2 t = ((cfg0.win 2).blk t).view.read (Elt Ideal) (G2 m c) := by
  have hN : cfg0.N = 32 := N_0
  have h31 : t.val + 1 = 32 := by have := (flush0_2 t).mp hf; have := t.isLt; omega
  show (cfg0.win 2).cut (grid0.coords t) ((dats m 0 c).after 2 t) = _
  rw [after0_2, outsAt_eq m c t.val t.isLt]
  have hG : G2 m c = fun _ => C (m ((c : Thread nD τ).loc main_arg1)) (t.val + 1) := by
    rw [h31]; exact funext fun _ => (C_total _ _).symm
  rw [hG]
  funext y
  rw [View.read_apply]
  rfl

theorem flushed3_eq (c : Dev nD) (t : Fin cfg0.N) (hf : (cfg0.win 3).flush t = true) :
    (dats m 0 c).flushed 3 t = ((cfg0.win 3).blk t).view.read (Elt Ideal) (G3 m c) := by
  have hN : cfg0.N = 32 := N_0
  have h31 : t.val + 1 = 32 := by have := (flush0_3 t).mp hf; have := t.isLt; omega
  show (cfg0.win 3).cut (grid0.coords t) ((dats m 0 c).after 3 t) = _
  rw [after0_3, outsAt_eq m c t.val t.isLt]
  have hG : G3 m c = fun _ => Q (m ((c : Thread nD τ).loc main_arg0)) (m ((c : Thread nD τ).loc main_arg1)) (t.val + 1) := by
    rw [h31]; exact funext fun _ => (Q_total _ _).symm
  rw [hG]
  funext y
  rw [View.read_apply]
  rfl

theorem flushed4_eq (c : Dev nD) (t : Fin cfg0.N) (hf : (cfg0.win 4).flush t = true) :
    (dats m 0 c).flushed 4 t = ((cfg0.win 4).blk t).view.read (Elt Ideal) (G4 m c) := by
  have hN : cfg0.N = 32 := N_0
  have h31 : t.val + 1 = 32 := by have := (flush0_4 t).mp hf; have := t.isLt; omega
  show (cfg0.win 4).cut (grid0.coords t) ((dats m 0 c).after 4 t) = _
  rw [after0_4, outsAt_eq m c t.val t.isLt]
  have hG : G4 m c = fun _ => E (m ((c : Thread nD τ).loc main_arg0)) (m ((c : Thread nD τ).loc main_arg1)) (t.val + 1) := by
    rw [h31]; exact funext fun _ => (E_total _ _).symm
  rw [hG]
  funext y
  rw [View.read_apply]
  rfl

/-- Output 1's one block, written back after the last point, is the whole 1×1 array. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨tLast, (flush0_2 tLast).mpr rfl, ?_⟩
  show i ∈ ((View.whole main_v0_0).slice (win0_2.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index tLast 0 * win0_2.size 0 ≤ (i 0 : Nat) ∧ (i 0 : Nat) < win0_2.index tLast 0 * win0_2.size 0 + win0_2.xsize (grid0.coords tLast) 0
    rw [show win0_2.index tLast 0 * win0_2.size 0 = 0 from by decide +kernel, show win0_2.xsize (grid0.coords tLast) 0 = 1 from by decide +kernel]; omega
  | ⟨1, _⟩ =>
    show win0_2.index tLast 1 * win0_2.size 1 ≤ (i 1 : Nat) ∧ (i 1 : Nat) < win0_2.index tLast 1 * win0_2.size 1 + win0_2.xsize (grid0.coords tLast) 1
    rw [show win0_2.index tLast 1 * win0_2.size 1 = 0 from by decide +kernel, show win0_2.xsize (grid0.coords tLast) 1 = 1 from by decide +kernel]; omega

/-- So output 1 ends holding its total. -/
theorem final2 (c : Dev nD) : (dats m 0 c).arrAt 2 cfg0.N = G2 m c :=
  (dats m 0 c).arrAt_eq_of_cover 2 (G2 m c) (flushed2_eq m c) (cover2 c)

/-- Output 2's one block, written back after the last point, is the whole 1×1 array. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨tLast, (flush0_3 tLast).mpr rfl, ?_⟩
  show i ∈ ((View.whole main_v0_1).slice (win0_3.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index tLast 0 * win0_3.size 0 ≤ (i 0 : Nat) ∧ (i 0 : Nat) < win0_3.index tLast 0 * win0_3.size 0 + win0_3.xsize (grid0.coords tLast) 0
    rw [show win0_3.index tLast 0 * win0_3.size 0 = 0 from by decide +kernel, show win0_3.xsize (grid0.coords tLast) 0 = 1 from by decide +kernel]; omega
  | ⟨1, _⟩ =>
    show win0_3.index tLast 1 * win0_3.size 1 ≤ (i 1 : Nat) ∧ (i 1 : Nat) < win0_3.index tLast 1 * win0_3.size 1 + win0_3.xsize (grid0.coords tLast) 1
    rw [show win0_3.index tLast 1 * win0_3.size 1 = 0 from by decide +kernel, show win0_3.xsize (grid0.coords tLast) 1 = 1 from by decide +kernel]; omega

/-- So output 2 ends holding its total. -/
theorem final3 (c : Dev nD) : (dats m 0 c).arrAt 3 cfg0.N = G3 m c :=
  (dats m 0 c).arrAt_eq_of_cover 3 (G3 m c) (flushed3_eq m c) (cover3 c)

/-- Output 3's one block, written back after the last point, is the whole 1×1 array. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨tLast, (flush0_4 tLast).mpr rfl, ?_⟩
  show i ∈ ((View.whole main_v0_2).slice (win0_4.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index tLast 0 * win0_4.size 0 ≤ (i 0 : Nat) ∧ (i 0 : Nat) < win0_4.index tLast 0 * win0_4.size 0 + win0_4.xsize (grid0.coords tLast) 0
    rw [show win0_4.index tLast 0 * win0_4.size 0 = 0 from by decide +kernel, show win0_4.xsize (grid0.coords tLast) 0 = 1 from by decide +kernel]; omega
  | ⟨1, _⟩ =>
    show win0_4.index tLast 1 * win0_4.size 1 ≤ (i 1 : Nat) ∧ (i 1 : Nat) < win0_4.index tLast 1 * win0_4.size 1 + win0_4.xsize (grid0.coords tLast) 1
    rw [show win0_4.index tLast 1 * win0_4.size 1 = 0 from by decide +kernel, show win0_4.xsize (grid0.coords tLast) 1 = 1 from by decide +kernel]; omega

/-- So output 3 ends holding its total. -/
theorem final4 (c : Dev nD) : (dats m 0 c).arrAt 4 cfg0.N = G4 m c :=
  (dats m 0 c).arrAt_eq_of_cover 4 (G4 m c) (flushed4_eq m c) (cover4 c)

end Cert.KernelIdeal.KValue

end
-- ==== Proof.KValue.lean ====
/-
  The value of the whole program: its scalar result is the closed form `result` of the two
  argument arrays, which it leaves unchanged.

  The host lines after the region view each 1×1 output array as a scalar and combine the three
  scalars as 0.3 · ((128 · bdiff) / 2^24) + 0.7 · (sumsq / nvalid). The region leaves the three
  output arrays at their totals, a constant array viewed at another shape is the same constant,
  and the combination is the specification's own.
-/
import proofs.«163007_j23742579212666_1_alg».proof.Proof.KFinal
import Idealize.ShloMosaic.Lib.StableHlo.Run

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen

open Idealize.ShloMosaic.ValueIdx

/-- The three output arrays as the host lines after the region find them. -/
theorem arr2 (m : (ℓ : Loc nD τ sig) → Buf (Elt Ideal) ℓ) (c : Dev nD) :
    Pipeline.withArrays (cfgs 0).spec c (V0 m c) (fun w => (dats m 0 c).arrAt w (cfgs 0).N) (Proc.devRef .tc main_v0_0)
      = fun _ => nvalid (m ((c : Thread nD τ).loc main_arg0)) (m ((c : Thread nD τ).loc main_arg1)) :=
  (Pipeline.withArrays_arr spec0 launch0.win.arr_inj c _ _ 2).trans (final2 m c)
theorem arr3 (m : (ℓ : Loc nD τ sig) → Buf (Elt Ideal) ℓ) (c : Dev nD) :
    Pipeline.withArrays (cfgs 0).spec c (V0 m c) (fun w => (dats m 0 c).arrAt w (cfgs 0).N) (Proc.devRef .tc main_v0_1)
      = fun _ => sumsq (m ((c : Thread nD τ).loc main_arg0)) (m ((c : Thread nD τ).loc main_arg1)) :=
  (Pipeline.withArrays_arr spec0 launch0.win.arr_inj c _ _ 3).trans (final3 m c)
theorem arr4 (m : (ℓ : Loc nD τ sig) → Buf (Elt Ideal) ℓ) (c : Dev nD) :
    Pipeline.withArrays (cfgs 0).spec c (V0 m c) (fun w => (dats m 0 c).arrAt w (cfgs 0).N) (Proc.devRef .tc main_v0_2)
      = fun _ => bdiff (m ((c : Thread nD τ).loc main_arg0)) (m ((c : Thread nD τ).loc main_arg1)) :=
  (Pipeline.withArrays_arr spec0 launch0.win.arr_inj c _ _ 4).trans (final4 m c)

/-- The scalar the host lines end with is the specification's combination of the three totals. -/
theorem tail_eq (m : (ℓ : Loc nD τ sig) → Buf (Elt Ideal) ℓ) (c : Dev nD) :
    Pipeline.afterTail₀ cfgs (dats m) 0 (V0 m) [hostOps1] c main_v9 = result (m ((c : Thread nD τ).loc main_arg0)) (m ((c : Thread nD τ).loc main_arg1)) := by
  unfold Pipeline.afterTail₀
  show StableHlo.after hostOps1 _ (Proc.devRef .tc main_v9) = _
  after_results
  rw [arr2 m c, arr3 m c, arr4 m c]
  unfold result
  generalize nvalid (m ((c : Thread nD τ).loc main_arg0)) (m ((c : Thread nD τ).loc main_arg1)) = NV
  generalize sumsq (m ((c : Thread nD τ).loc main_arg0)) (m ((c : Thread nD τ).loc main_arg1)) = SQ
  generalize bdiff (m ((c : Thread nD τ).loc main_arg0)) (m ((c : Thread nD τ).loc main_arg1)) = BD
  rfl

/-- The scalar result is no array of the region and is unscoped, so the run's post speaks of it. -/
theorem mem_v9 : main_v9 ∈ Pipeline.restRefs sig (cfgs 0).spec :=
  Pipeline.mem_restRefs_of main_v9 (by decide) (by decide)

/-- Every weakly fair execution of the program ends with its scalar result at the closed form of
    the two arguments and with the arguments unchanged. -/
theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread _ _).loc main_v9) = result (m ((c.tc : Thread _ _).loc main_arg0)) (m ((c.tc : Thread _ _).loc main_arg1))
        ∧ r.2.mem ((c.tc : Thread _ _).loc main_arg0) = m ((c.tc : Thread _ _).loc main_arg0)
        ∧ r.2.mem ((c.tc : Thread _ _).loc main_arg1) = m ((c.tc : Thread _ _).loc main_arg1)) :=
  (θ_run defs _ _).mono (fun _ h c =>
    ⟨((h c).2 main_v9 mem_v9).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefSpec.lean ====
/-
  The reference's result as ONE function of its two argument arrays, stage by stage.

  With `p` the prediction and `t` the target, both [32, 1, 512, 1024]:
    * `mae p t`   = (Σ over the entries with t > 0 of (t - p)²) / #{entries with t > 0};
    * `sobel x`   = the difference filter (x (w + 1) - x (w - 1)) along the last axis followed by the smoothing filter
                    (y (k - 1) + 2 y (k) + y (k + 1)) along each of the three other axes in turn, every filter taken
                    on the axis extended by its own end entries; an axis is brought last by a transposition, filtered,
                    and taken back;
    * `out p t`   = (0 + Σ over all entries of (0.3 · (sobel t - sobel p) + 0.7 · mae p t)) / 2²⁴.
  Every stage is spelt with the operation the printed program applies at that line, so that the program's run
  ends at this term by unfolding.
-/
import proofs.«163007_j23742579212666_1_alg».proof.Proof.Gen.ReferenceIdeal

noncomputable section

namespace Cert.ReferenceIdeal.RefSpec

open Cert.ReferenceIdeal Cert.ReferenceIdeal.Gen Idealize.ShloMosaic

variable {F : FTy → Type} [FloatOps F]

/-! ## The masked mean of squares -/

/-- The scalar zero. -/
def zeroS : FVec F S_ .f32 := constant S_ .f32 0x00000000#32

/-- Where the target is positive. -/
def valid (t : FVec F S32x1x512x1024 .f32) :=
  cmpf .ogt t (broadcastInDim S32x1x512x1024 ![] bcast_S_S32x1x512x1024 (zeroS (F := F)))

/-- The number of positive targets, counted in 32-bit words. -/
def count (t : FVec F S32x1x512x1024 .f32) :=
  Host.reduce IntOp.addi (extui 32 (valid t) natLt_1_32) (constantI S_ 32 0#32) reducesTo_S32x1x512x1024_S_d0_1_2_3 h_S_

/-- `(t - p)²` where the target is positive, zero elsewhere. -/
def masked (p t : FVec F S32x1x512x1024 .f32) : FVec F S32x1x512x1024 .f32 :=
  select (valid t) (mulf (subf t p) (subf t p))
    (broadcastInDim S32x1x512x1024 ![] bcast_S_S32x1x512x1024 (id (zeroS (F := F))))

/-- The masked sum of squares over the count. -/
def mae (p t : FVec F S32x1x512x1024 .f32) : FVec F S_ .f32 :=
  Host.divf (Host.reduceAdd (masked p t) zeroS reducesTo_S32x1x512x1024_S_d0_1_2_3 h_S_) (sitofp .f32 (count t))

/-! ## The four extensions of a last axis by its end entries -/

/-- The left half of `padA`: the array with its first entry along the last axis repeated in front. -/
def padAL (x : FVec F S32x1x512x1024 .f32) : FVec F S32x1x512x1025 .f32 :=
  concatenate S32x1x512x1025 3
    [⟨S32x1x512x1, Host.reverse (s := S32x1x512x1) [3] (extractStridedSlice S32x1x512x1 ![0, 0, 0, 0] x slices_S32x1x512x1024_S32x1x512x1_0_0_0_0)⟩, ⟨S32x1x512x1024, x⟩]
    concatenates_S32x1x512x1_S32x1x512x1024_S32x1x512x1025_d3

/-- The last axis extended on both sides by its own end entries: position `0` repeats entry `0`, positions `1 … n`
    are the entries, position `n + 1` repeats entry `n - 1` (n = 1024). -/
def padA (x : FVec F S32x1x512x1024 .f32) : FVec F S32x1x512x1026 .f32 :=
  concatenate S32x1x512x1026 3
    [⟨S32x1x512x1025, padAL x⟩, ⟨S32x1x512x1, Host.reverse (s := S32x1x512x1) [3] (extractStridedSlice S32x1x512x1 ![0, 0, 0, 1024] (padAL x) slices_S32x1x512x1025_S32x1x512x1_0_0_0_1024)⟩]
    concatenates_S32x1x512x1025_S32x1x512x1_S32x1x512x1026_d3

/-- The left half of `padB`: the array with its first entry along the last axis repeated in front. -/
def padBL (x : FVec F S1x512x1024x32 .f32) : FVec F S1x512x1024x33 .f32 :=
  concatenate S1x512x1024x33 3
    [⟨S1x512x1024x1, Host.reverse (s := S1x512x1024x1) [3] (extractStridedSlice S1x512x1024x1 ![0, 0, 0, 0] x slices_S1x512x1024x32_S1x512x1024x1_0_0_0_0)⟩, ⟨S1x512x1024x32, x⟩]
    concatenates_S1x512x1024x1_S1x512x1024x32_S1x512x1024x33_d3

/-- The last axis extended on both sides by its own end entries: position `0` repeats entry `0`, positions `1 … n`
    are the entries, position `n + 1` repeats entry `n - 1` (n = 32). -/
def padB (x : FVec F S1x512x1024x32 .f32) : FVec F S1x512x1024x34 .f32 :=
  concatenate S1x512x1024x34 3
    [⟨S1x512x1024x33, padBL x⟩, ⟨S1x512x1024x1, Host.reverse (s := S1x512x1024x1) [3] (extractStridedSlice S1x512x1024x1 ![0, 0, 0, 32] (padBL x) slices_S1x512x1024x33_S1x512x1024x1_0_0_0_32)⟩]
    concatenates_S1x512x1024x33_S1x512x1024x1_S1x512x1024x34_d3

/-- The left half of `padC`: the array with its first entry along the last axis repeated in front. -/
def padCL (x : FVec F S32x512x1024x1 .f32) : FVec F S32x512x1024x2 .f32 :=
  concatenate S32x512x1024x2 3
    [⟨S32x512x1024x1, Host.reverse (s := S32x512x1024x1) [3] (extractStridedSlice S32x512x1024x1 ![0, 0, 0, 0] x slices_S32x512x1024x1_S32x512x1024x1_0_0_0_0)⟩, ⟨S32x512x1024x1, x⟩]
    concatenates_S32x512x1024x1_S32x512x1024x1_S32x512x1024x2_d3

/-- The last axis extended on both sides by its own end entries: position `0` repeats entry `0`, positions `1 … n`
    are the entries, position `n + 1` repeats entry `n - 1` (n = 1). -/
def padC (x : FVec F S32x512x1024x1 .f32) : FVec F S32x512x1024x3 .f32 :=
  concatenate S32x512x1024x3 3
    [⟨S32x512x1024x2, padCL x⟩, ⟨S32x512x1024x1, Host.reverse (s := S32x512x1024x1) [3] (extractStridedSlice S32x512x1024x1 ![0, 0, 0, 1] (padCL x) slices_S32x512x1024x2_S32x512x1024x1_0_0_0_1)⟩]
    concatenates_S32x512x1024x2_S32x512x1024x1_S32x512x1024x3_d3

/-- The left half of `padD`: the array with its first entry along the last axis repeated in front. -/
def padDL (x : FVec F S32x1x1024x512 .f32) : FVec F S32x1x1024x513 .f32 :=
  concatenate S32x1x1024x513 3
    [⟨S32x1x1024x1, Host.reverse (s := S32x1x1024x1) [3] (extractStridedSlice S32x1x1024x1 ![0, 0, 0, 0] x slices_S32x1x1024x512_S32x1x1024x1_0_0_0_0)⟩, ⟨S32x1x1024x512, x⟩]
    concatenates_S32x1x1024x1_S32x1x1024x512_S32x1x1024x513_d3

/-- The last axis extended on both sides by its own end entries: position `0` repeats entry `0`, positions `1 … n`
    are the entries, position `n + 1` repeats entry `n - 1` (n = 512). -/
def padD (x : FVec F S32x1x1024x512 .f32) : FVec F S32x1x1024x514 .f32 :=
  concatenate S32x1x1024x514 3
    [⟨S32x1x1024x513, padDL x⟩, ⟨S32x1x1024x1, Host.reverse (s := S32x1x1024x1) [3] (extractStridedSlice S32x1x1024x1 ![0, 0, 0, 512] (padDL x) slices_S32x1x1024x513_S32x1x1024x1_0_0_0_512)⟩]
    concatenates_S32x1x1024x513_S32x1x1024x1_S32x1x1024x514_d3

/-! ## The filters -/

/-- The difference filter along the width: entry `w` becomes `e (w + 2) - e (w)` of the extended axis, that is
    `x (w + 1) - x (w - 1)` with the end entries repeated. -/
def derivW (x : FVec F S32x1x512x1024 .f32) : FVec F S32x1x512x1024 .f32 :=
  subf (extractStridedSlice S32x1x512x1024 ![0, 0, 0, 2] (padA x) slices_S32x1x512x1026_S32x1x512x1024_0_0_0_2)
    (extractStridedSlice S32x1x512x1024 ![0, 0, 0, 0] (padA x) slices_S32x1x512x1026_S32x1x512x1024_0_0_0_0)

/-- The smoothing filter along the batch axis (brought last, 32 entries): entry `j` of the last axis becomes `e (j) + 2 · e (j + 1) + e (j + 2)` of the extended axis, that is
    `x (j - 1) + 2 · x (j) + x (j + 1)` with the end entries repeated. -/
def smoothB (x : FVec F S1x512x1024x32 .f32) : FVec F S1x512x1024x32 .f32 :=
  addf
    (addf (extractStridedSlice S1x512x1024x32 ![0, 0, 0, 0] (padB x) slices_S1x512x1024x34_S1x512x1024x32_0_0_0_0)
      (mulf (broadcastInDim S1x512x1024x32 ![] bcast_S_S1x512x1024x32 (constant S_ .f32 0x40000000#32))
        (extractStridedSlice S1x512x1024x32 ![0, 0, 0, 1] (padB x) slices_S1x512x1024x34_S1x512x1024x32_0_0_0_1)))
    (extractStridedSlice S1x512x1024x32 ![0, 0, 0, 2] (padB x) slices_S1x512x1024x34_S1x512x1024x32_0_0_0_2)

/-- The smoothing filter along the channel axis (brought last, one entry): entry `j` of the last axis becomes `e (j) + 2 · e (j + 1) + e (j + 2)` of the extended axis, that is
    `x (j - 1) + 2 · x (j) + x (j + 1)` with the end entries repeated. -/
def smoothC (x : FVec F S32x512x1024x1 .f32) : FVec F S32x512x1024x1 .f32 :=
  addf
    (addf (extractStridedSlice S32x512x1024x1 ![0, 0, 0, 0] (padC x) slices_S32x512x1024x3_S32x512x1024x1_0_0_0_0)
      (mulf (broadcastInDim S32x512x1024x1 ![] bcast_S_S32x512x1024x1 (constant S_ .f32 0x40000000#32))
        (extractStridedSlice S32x512x1024x1 ![0, 0, 0, 1] (padC x) slices_S32x512x1024x3_S32x512x1024x1_0_0_0_1)))
    (extractStridedSlice S32x512x1024x1 ![0, 0, 0, 2] (padC x) slices_S32x512x1024x3_S32x512x1024x1_0_0_0_2)

/-- The smoothing filter along the height axis (brought last, 512 entries): entry `j` of the last axis becomes `e (j) + 2 · e (j + 1) + e (j + 2)` of the extended axis, that is
    `x (j - 1) + 2 · x (j) + x (j + 1)` with the end entries repeated. -/
def smoothD (x : FVec F S32x1x1024x512 .f32) : FVec F S32x1x1024x512 .f32 :=
  addf
    (addf (extractStridedSlice S32x1x1024x512 ![0, 0, 0, 0] (padD x) slices_S32x1x1024x514_S32x1x1024x512_0_0_0_0)
      (mulf (broadcastInDim S32x1x1024x512 ![] bcast_S_S32x1x1024x512 (constant S_ .f32 0x40000000#32))
        (extractStridedSlice S32x1x1024x512 ![0, 0, 0, 1] (padD x) slices_S32x1x1024x514_S32x1x1024x512_0_0_0_1)))
    (extractStridedSlice S32x1x1024x512 ![0, 0, 0, 2] (padD x) slices_S32x1x1024x514_S32x1x1024x512_0_0_0_2)

/-- The difference filter along the width, then the smoothing filter along batch, channel and height, each axis
    brought last by a transposition and taken back. -/
def sobel (x : FVec F S32x1x512x1024 .f32) : FVec F S32x1x512x1024 .f32 :=
  transpose S32x1x512x1024 [0, 1, 3, 2]
    (smoothD
      (transpose S32x1x1024x512 [0, 1, 3, 2]
        (transpose S32x1x512x1024 [0, 3, 1, 2]
          (smoothC
            (transpose S32x512x1024x1 [0, 2, 3, 1]
              (transpose S32x1x512x1024 [3, 0, 1, 2]
                (smoothB
                  (transpose S1x512x1024x32 [1, 2, 3, 0] (derivW x) transposes_S32x1x512x1024_S1x512x1024x32_1_2_3_0))
                transposes_S1x512x1024x32_S32x1x512x1024_3_0_1_2)
              transposes_S32x1x512x1024_S32x512x1024x1_0_2_3_1))
          transposes_S32x512x1024x1_S32x1x512x1024_0_3_1_2)
        transposes_S32x1x512x1024_S32x1x1024x512_0_1_3_2))
    transposes_S32x1x1024x512_S32x1x512x1024_0_1_3_2

/-! ## The result -/

/-- Entry by entry `0.3 · (sobel t - sobel p) + 0.7 · mae p t`. -/
def loss (p t : FVec F S32x1x512x1024 .f32) : FVec F S32x1x512x1024 .f32 :=
  addf
    (mulf (broadcastInDim S32x1x512x1024 ![] bcast_S_S32x1x512x1024 (constant S_ .f32 0x3E99999A#32))
      (subf (sobel t) (sobel p)))
    (broadcastInDim S32x1x512x1024 ![] bcast_S_S32x1x512x1024 (mulf (constant S_ .f32 0x3F333333#32) (mae p t)))

/-- The mean of the loss: its sum from zero, over 2²⁴. -/
def out (p t : FVec F S32x1x512x1024 .f32) : FVec F S_ .f32 :=
  Host.divf (Host.reduceAdd (loss p t) zeroS reducesTo_S32x1x512x1024_S_d0_1_2_3 h_S_) (constant S_ .f32 0x4B800000#32)

end Cert.ReferenceIdeal.RefSpec

end
-- ==== Proof.RefOps.lean ====
/-
  The reference's operations, in the program's order, as literal lists: @main's own lines as printed, and at each
  call the callee's lines over the call's buffers (a callee's own calls likewise). The list is cut into ten stages,
  each ending at the array the next stage reads; `ops0` and `ops1` are the two printed windows of @main, `ops` the whole.
  With each stage: every operation touches TensorCore buffers only. Tables, no argument.
-/
import proofs.«163007_j23742579212666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 1 (16 operations): the masked mean of squares, ending at `main_v9`. -/
abbrev W1 : List (HloOp τ sig (Elt F)) :=
  [ nullary main_cst (constant S_ .f32 0x00000000#32),
    unary main_cst main_v0 (broadcastInDim S32x1x512x1024 ![] bcast_S_S32x1x512x1024 : (⟨S_, .f32⟩ : BufTy).Contents (Elt F) → (⟨S32x1x512x1024, .f32⟩ : BufTy).Contents (Elt F)),
    binary main_arg1 main_v0 main_v1 (cmpf .ogt : (⟨S32x1x512x1024, .f32⟩ : BufTy).Contents (Elt F) → (⟨S32x1x512x1024, .f32⟩ : BufTy).Contents (Elt F) → (⟨S32x1x512x1024, .i1⟩ : BufTy).Contents (Elt F)),
    binary main_arg1 main_arg0 main_v2 (subf : (⟨S32x1x512x1024, .f32⟩ : BufTy).Contents (Elt F) → (⟨S32x1x512x1024, .f32⟩ : BufTy).Contents (Elt F) → (⟨S32x1x512x1024, .f32⟩ : BufTy).Contents (Elt F)),
    unary main_v1 main_v3 ((extui 32 · natLt_1_32) : (⟨S32x1x512x1024, .i1⟩ : BufTy).Contents (Elt F) → (⟨S32x1x512x1024, .i32⟩ : BufTy).Contents (Elt F)),
    nullary main_c (constantI S_ 32 0#32),
    binary main_v3 main_c main_v4 ((fun x v => Host.reduce IntOp.addi x v reducesTo_S32x1x512x1024_S_d0_1_2_3 h_S_) : (⟨S32x1x512x1024, .i32⟩ : BufTy).Contents (Elt F) → (⟨S_, .i32⟩ : BufTy).Contents (Elt F) → (⟨S_, .i32⟩ : BufTy).Contents (Elt F)),
    binary main_v2 main_v2 main_v5 (mulf : (⟨S32x1x512x1024, .f32⟩ : BufTy).Contents (Elt F) → (⟨S32x1x512x1024, .f32⟩ : BufTy).Contents (Elt F) → (⟨S32x1x512x1024, .f32⟩ : BufTy).Contents (Elt F)),
    nullary main_cst_0 (constant S_ .f32 0x00000000#32),
    TRef.unary (.of main_cst_0 : TRef sig ⟨S_, .f32⟩) main_call0.v0 id,
    TRef.unary main_call0.v0 main_call0.v1 (broadcastInDim S32x1x512x1024 ![] bcast_S_S32x1x512x1024),
    TRef.ternary (.of main_v1 : TRef sig ⟨S32x1x512x1024, .i1⟩) (.of main_v5 : TRef sig ⟨S32x1x512x1024, .f32⟩) main_call0.v1 main_call0.v2 select,
    nullary main_cst_1 (constant S_ .f32 0x00000000#32),
    binary main_v6 main_cst_1 main_v7 ((fun x v => Host.reduceAdd x v reducesTo_S32x1x512x1024_S_d0_1_2_3 h_S_) : (⟨S32x1x512x1024, .f32⟩ : BufTy).Contents (Elt F) → (⟨S_, .f32⟩ : BufTy).Contents (Elt F) → (⟨S_, .f32⟩ : BufTy).Contents (Elt F)),
    unary main_v4 main_v8 (sitofp .f32 : (⟨S_, .i32⟩ : BufTy).Contents (Elt F) → (⟨S_, .f32⟩ : BufTy).Contents (Elt F)),
    binary main_v7 main_v8 main_v9 (Host.divf : (⟨S_, .f32⟩ : BufTy).Contents (Elt F) → (⟨S_, .f32⟩ : BufTy).Contents (Elt F) → (⟨S_, .f32⟩ : BufTy).Contents (Elt F)) ]

theorem W1_sub : (W1 : List (HloOp τ sig (Elt F))).Forall fun op => op.bufs ⊆ tcRefs τ sig :=
  ⟨nullary_bufs_sub .., unary_bufs_sub .., binary_bufs_sub .., binary_bufs_sub .., unary_bufs_sub .., nullary_bufs_sub .., binary_bufs_sub .., binary_bufs_sub .., nullary_bufs_sub .., unary_bufs_sub .., unary_bufs_sub .., ternary_bufs_sub .., nullary_bufs_sub .., binary_bufs_sub .., unary_bufs_sub .., binary_bufs_sub ..⟩

/-- Stage 2 (13 operations): the target's width differences, batch axis last, ending at `main_v14`. -/
abbrev W2 : List (HloOp τ sig (Elt F)) :=
  [ nullary main_c_2 (constantI S_ 32 0#32),
    TRef.unary (.of main_arg1 : TRef sig ⟨S32x1x512x1024, .f32⟩) main_call1.v0 (extractStridedSlice S32x1x512x1 ![0, 0, 0, 0] · slices_S32x1x512x1024_S32x1x512x1_0_0_0_0),
    TRef.unary (.of main_arg1 : TRef sig ⟨S32x1x512x1024, .f32⟩) main_call1.v1 (extractStridedSlice S32x1x512x1 ![0, 0, 0, 0] · slices_S32x1x512x1024_S32x1x512x1_0_0_0_0),
    TRef.unary main_call1.v1 main_call1.call0.v0 (Host.reverse [3]),
    TRef.binary main_call1.call0.v0 (.of main_arg1 : TRef sig ⟨S32x1x512x1024, .f32⟩) main_call1.v3 (fun a b => concatenate S32x1x512x1025 3 [⟨S32x1x512x1, a⟩, ⟨S32x1x512x1024, b⟩] concatenates_S32x1x512x1_S32x1x512x1024_S32x1x512x1025_d3),
    TRef.unary main_call1.v3 main_call1.v4 (extractStridedSlice S32x1x512x1 ![0, 0, 0, 1024] · slices_S32x1x512x1025_S32x1x512x1_0_0_0_1024),
    TRef.unary main_call1.v3 main_call1.v5 (extractStridedSlice S32x1x512x1 ![0, 0, 0, 1024] · slices_S32x1x512x1025_S32x1x512x1_0_0_0_1024),
    TRef.unary main_call1.v5 main_call1.call1.v0 (Host.reverse [3]),
    TRef.binary main_call1.v3 main_call1.call1.v0 main_call1.v7 (fun a b => concatenate S32x1x512x1026 3 [⟨S32x1x512x1025, a⟩, ⟨S32x1x512x1, b⟩] concatenates_S32x1x512x1025_S32x1x512x1_S32x1x512x1026_d3),
    unary main_v10 main_v11 ((extractStridedSlice S32x1x512x1024 ![0, 0, 0, 2] · slices_S32x1x512x1026_S32x1x512x1024_0_0_0_2) : (⟨S32x1x512x1026, .f32⟩ : BufTy).Contents (Elt F) → (⟨S32x1x512x1024, .f32⟩ : BufTy).Contents (Elt F)),
    unary main_v10 main_v12 ((extractStridedSlice S32x1x512x1024 ![0, 0, 0, 0] · slices_S32x1x512x1026_S32x1x512x1024_0_0_0_0) : (⟨S32x1x512x1026, .f32⟩ : BufTy).Contents (Elt F) → (⟨S32x1x512x1024, .f32⟩ : BufTy).Contents (Elt F)),
    binary main_v11 main_v12 main_v13 (subf : (⟨S32x1x512x1024, .f32⟩ : BufTy).Contents (Elt F) → (⟨S32x1x512x1024, .f32⟩ : BufTy).Contents (Elt F) → (⟨S32x1x512x1024, .f32⟩ : BufTy).Contents (Elt F)),
    unary main_v13 main_v14 ((transpose S1x512x1024x32 [1, 2, 3, 0] · transposes_S32x1x512x1024_S1x512x1024x32_1_2_3_0) : (⟨S32x1x512x1024, .f32⟩ : BufTy).Contents (Elt F) → (⟨S1x512x1024x32, .f32⟩ : BufTy).Contents (Elt F)) ]

theorem W2_sub : (W2 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub ..⟩

/-- Stage 3 (19 operations): the target smoothed along the batch axis, channel axis last, ending at `main_v24`. -/
abbrev W3 : List (HloOp τ sig (Elt F)) :=
  [ nullary main_c_3 (constantI S_ 32 0#32),
    TRef.unary (.of main_v14 : TRef sig ⟨S1x512x1024x32, .f32⟩) main_call2.v0 (extractStridedSlice S1x512x1024x1 ![0, 0, 0, 0] · slices_S1x512x1024x32_S1x512x1024x1_0_0_0_0),
    TRef.unary (.of main_v14 : TRef sig ⟨S1x512x1024x32, .f32⟩) main_call2.v1 (extractStridedSlice S1x512x1024x1 ![0, 0, 0, 0] · slices_S1x512x1024x32_S1x512x1024x1_0_0_0_0),
    TRef.unary main_call2.v1 main_call2.call0.v0 (Host.reverse [3]),
    TRef.binary main_call2.call0.v0 (.of main_v14 : TRef sig ⟨S1x512x1024x32, .f32⟩) main_call2.v3 (fun a b => concatenate S1x512x1024x33 3 [⟨S1x512x1024x1, a⟩, ⟨S1x512x1024x32, b⟩] concatenates_S1x512x1024x1_S1x512x1024x32_S1x512x1024x33_d3),
    TRef.unary main_call2.v3 main_call2.v4 (extractStridedSlice S1x512x1024x1 ![0, 0, 0, 32] · slices_S1x512x1024x33_S1x512x1024x1_0_0_0_32),
    TRef.unary main_call2.v3 main_call2.v5 (extractStridedSlice S1x512x1024x1 ![0, 0, 0, 32] · slices_S1x512x1024x33_S1x512x1024x1_0_0_0_32),
    TRef.unary main_call2.v5 main_call2.call1.v0 (Host.reverse [3]),
    TRef.binary main_call2.v3 main_call2.call1.v0 main_call2.v7 (fun a b => concatenate S1x512x1024x34 3 [⟨S1x512x1024x33, a⟩, ⟨S1x512x1024x1, b⟩] concatenates_S1x512x1024x33_S1x512x1024x1_S1x512x1024x34_d3),
    unary main_v15 main_v16 ((extractStridedSlice S1x512x1024x32 ![0, 0, 0, 0] · slices_S1x512x1024x34_S1x512x1024x32_0_0_0_0) : (⟨S1x512x1024x34, .f32⟩ : BufTy).Contents (Elt F) → (⟨S1x512x1024x32, .f32⟩ : BufTy).Contents (Elt F)),
    unary main_v15 main_v17 ((extractStridedSlice S1x512x1024x32 ![0, 0, 0, 1] · slices_S1x512x1024x34_S1x512x1024x32_0_0_0_1) : (⟨S1x512x1024x34, .f32⟩ : BufTy).Contents (Elt F) → (⟨S1x512x1024x32, .f32⟩ : BufTy).Contents (Elt F)),
    nullary main_cst_4 (constant S_ .f32 0x40000000#32),
    unary main_cst_4 main_v18 (broadcastInDim S1x512x1024x32 ![] bcast_S_S1x512x1024x32 : (⟨S_, .f32⟩ : BufTy).Contents (Elt F) → (⟨S1x512x1024x32, .f32⟩ : BufTy).Contents (Elt F)),
    binary main_v18 main_v17 main_v19 (mulf : (⟨S1x512x1024x32, .f32⟩ : BufTy).Contents (Elt F) → (⟨S1x512x1024x32, .f32⟩ : BufTy).Contents (Elt F) → (⟨S1x512x1024x32, .f32⟩ : BufTy).Contents (Elt F)),
    binary main_v16 main_v19 main_v20 (addf : (⟨S1x512x1024x32, .f32⟩ : BufTy).Contents (Elt F) → (⟨S1x512x1024x32, .f32⟩ : BufTy).Contents (Elt F) → (⟨S1x512x1024x32, .f32⟩ : BufTy).Contents (Elt F)),
    unary main_v15 main_v21 ((extractStridedSlice S1x512x1024x32 ![0, 0, 0, 2] · slices_S1x512x1024x34_S1x512x1024x32_0_0_0_2) : (⟨S1x512x1024x34, .f32⟩ : BufTy).Contents (Elt F) → (⟨S1x512x1024x32, .f32⟩ : BufTy).Contents (Elt F)),
    binary main_v20 main_v21 main_v22 (addf : (⟨S1x512x1024x32, .f32⟩ : BufTy).Contents (Elt F) → (⟨S1x512x1024x32, .f32⟩ : BufTy).Contents (Elt F) → (⟨S1x512x1024x32, .f32⟩ : BufTy).Contents (Elt F)),
    unary main_v22 main_v23 ((transpose S32x1x512x1024 [3, 0, 1, 2] · transposes_S1x512x1024x32_S32x1x512x1024_3_0_1_2) : (⟨S1x512x1024x32, .f32⟩ : BufTy).Contents (Elt F) → (⟨S32x1x512x1024, .f32⟩ : BufTy).Contents (Elt F)),
    unary main_v23 main_v24 ((transpose S32x512x1024x1 [0, 2, 3, 1] · transposes_S32x1x512x1024_S32x512x1024x1_0_2_3_1) : (⟨S32x1x512x1024, .f32⟩ : BufTy).Contents (Elt F) → (⟨S32x512x1024x1, .f32⟩ : BufTy).Contents (Elt F)) ]

theorem W3_sub : (W3 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub ..⟩

/-- Stage 4 (19 operations): the target smoothed along the channel axis, height axis last, ending at `main_v34`. -/
abbrev W4 : List (HloOp τ sig (Elt F)) :=
  [ nullary main_c_5 (constantI S_ 32 0#32),
    TRef.unary (.of main_v24 : TRef sig ⟨S32x512x1024x1, .f32⟩) main_call3.v0 (extractStridedSlice S32x512x1024x1 ![0, 0, 0, 0] · slices_S32x512x1024x1_S32x512x1024x1_0_0_0_0),
    TRef.unary (.of main_v24 : TRef sig ⟨S32x512x1024x1, .f32⟩) main_call3.v1 (extractStridedSlice S32x512x1024x1 ![0, 0, 0, 0] · slices_S32x512x1024x1_S32x512x1024x1_0_0_0_0),
    TRef.unary main_call3.v1 main_call3.call0.v0 (Host.reverse [3]),
    TRef.binary main_call3.call0.v0 (.of main_v24 : TRef sig ⟨S32x512x1024x1, .f32⟩) main_call3.v3 (fun a b => concatenate S32x512x1024x2 3 [⟨S32x512x1024x1, a⟩, ⟨S32x512x1024x1, b⟩] concatenates_S32x512x1024x1_S32x512x1024x1_S32x512x1024x2_d3),
    TRef.unary main_call3.v3 main_call3.v4 (extractStridedSlice S32x512x1024x1 ![0, 0, 0, 1] · slices_S32x512x1024x2_S32x512x1024x1_0_0_0_1),
    TRef.unary main_call3.v3 main_call3.v5 (extractStridedSlice S32x512x1024x1 ![0, 0, 0, 1] · slices_S32x512x1024x2_S32x512x1024x1_0_0_0_1),
    TRef.unary main_call3.v5 main_call3.call1.v0 (Host.reverse [3]),
    TRef.binary main_call3.v3 main_call3.call1.v0 main_call3.v7 (fun a b => concatenate S32x512x1024x3 3 [⟨S32x512x1024x2, a⟩, ⟨S32x512x1024x1, b⟩] concatenates_S32x512x1024x2_S32x512x1024x1_S32x512x1024x3_d3),
    unary main_v25 main_v26 ((extractStridedSlice S32x512x1024x1 ![0, 0, 0, 0] · slices_S32x512x1024x3_S32x512x1024x1_0_0_0_0) : (⟨S32x512x1024x3, .f32⟩ : BufTy).Contents (Elt F) → (⟨S32x512x1024x1, .f32⟩ : BufTy).Contents (Elt F)),
    unary main_v25 main_v27 ((extractStridedSlice S32x512x1024x1 ![0, 0, 0, 1] · slices_S32x512x1024x3_S32x512x1024x1_0_0_0_1) : (⟨S32x512x1024x3, .f32⟩ : BufTy).Contents (Elt F) → (⟨S32x512x1024x1, .f32⟩ : BufTy).Contents (Elt F)),
    nullary main_cst_6 (constant S_ .f32 0x40000000#32),
    unary main_cst_6 main_v28 (broadcastInDim S32x512x1024x1 ![] bcast_S_S32x512x1024x1 : (⟨S_, .f32⟩ : BufTy).Contents (Elt F) → (⟨S32x512x1024x1, .f32⟩ : BufTy).Contents (Elt F)),
    binary main_v28 main_v27 main_v29 (mulf : (⟨S32x512x1024x1, .f32⟩ : BufTy).Contents (Elt F) → (⟨S32x512x1024x1, .f32⟩ : BufTy).Contents (Elt F) → (⟨S32x512x1024x1, .f32⟩ : BufTy).Contents (Elt F)),
    binary main_v26 main_v29 main_v30 (addf : (⟨S32x512x1024x1, .f32⟩ : BufTy).Contents (Elt F) → (⟨S32x512x1024x1, .f32⟩ : BufTy).Contents (Elt F) → (⟨S32x512x1024x1, .f32⟩ : BufTy).Contents (Elt F)),
    unary main_v25 main_v31 ((extractStridedSlice S32x512x1024x1 ![0, 0, 0, 2] · slices_S32x512x1024x3_S32x512x1024x1_0_0_0_2) : (⟨S32x512x1024x3, .f32⟩ : BufTy).Contents (Elt F) → (⟨S32x512x1024x1, .f32⟩ : BufTy).Contents (Elt F)),
    binary main_v30 main_v31 main_v32 (addf : (⟨S32x512x1024x1, .f32⟩ : BufTy).Contents (Elt F) → (⟨S32x512x1024x1, .f32⟩ : BufTy).Contents (Elt F) → (⟨S32x512x1024x1, .f32⟩ : BufTy).Contents (Elt F)),
    unary main_v32 main_v33 ((transpose S32x1x512x1024 [0, 3, 1, 2] · transposes_S32x512x1024x1_S32x1x512x1024_0_3_1_2) : (⟨S32x512x1024x1, .f32⟩ : BufTy).Contents (Elt F) → (⟨S32x1x512x1024, .f32⟩ : BufTy).Contents (Elt F)),
    unary main_v33 main_v34 ((transpose S32x1x1024x512 [0, 1, 3, 2] · transposes_S32x1x512x1024_S32x1x1024x512_0_1_3_2) : (⟨S32x1x512x1024, .f32⟩ : BufTy).Contents (Elt F) → (⟨S32x1x1024x512, .f32⟩ : BufTy).Contents (Elt F)) ]

theorem W4_sub : (W4 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub ..⟩

/-- Stage 5 (18 operations): the target's filter, ending at `main_v43`. -/
abbrev W5 : List (HloOp τ sig (Elt F)) :=
  [ nullary main_c_7 (constantI S_ 32 0#32),
    TRef.unary (.of main_v34 : TRef sig ⟨S32x1x1024x512, .f32⟩) main_call4.v0 (extractStridedSlice S32x1x1024x1 ![0, 0, 0, 0] · slices_S32x1x1024x512_S32x1x1024x1_0_0_0_0),
    TRef.unary (.of main_v34 : TRef sig ⟨S32x1x1024x512, .f32⟩) main_call4.v1 (extractStridedSlice S32x1x1024x1 ![0, 0, 0, 0] · slices_S32x1x1024x512_S32x1x1024x1_0_0_0_0),
    TRef.unary main_call4.v1 main_call4.call0.v0 (Host.reverse [3]),
    TRef.binary main_call4.call0.v0 (.of main_v34 : TRef sig ⟨S32x1x1024x512, .f32⟩) main_call4.v3 (fun a b => concatenate S32x1x1024x513 3 [⟨S32x1x1024x1, a⟩, ⟨S32x1x1024x512, b⟩] concatenates_S32x1x1024x1_S32x1x1024x512_S32x1x1024x513_d3),
    TRef.unary main_call4.v3 main_call4.v4 (extractStridedSlice S32x1x1024x1 ![0, 0, 0, 512] · slices_S32x1x1024x513_S32x1x1024x1_0_0_0_512),
    TRef.unary main_call4.v3 main_call4.v5 (extractStridedSlice S32x1x1024x1 ![0, 0, 0, 512] · slices_S32x1x1024x513_S32x1x1024x1_0_0_0_512),
    TRef.unary main_call4.v5 main_call4.call1.v0 (Host.reverse [3]),
    TRef.binary main_call4.v3 main_call4.call1.v0 main_call4.v7 (fun a b => concatenate S32x1x1024x514 3 [⟨S32x1x1024x513, a⟩, ⟨S32x1x1024x1, b⟩] concatenates_S32x1x1024x513_S32x1x1024x1_S32x1x1024x514_d3),
    unary main_v35 main_v36 ((extractStridedSlice S32x1x1024x512 ![0, 0, 0, 0] · slices_S32x1x1024x514_S32x1x1024x512_0_0_0_0) : (⟨S32x1x1024x514, .f32⟩ : BufTy).Contents (Elt F) → (⟨S32x1x1024x512, .f32⟩ : BufTy).Contents (Elt F)),
    unary main_v35 main_v37 ((extractStridedSlice S32x1x1024x512 ![0, 0, 0, 1] · slices_S32x1x1024x514_S32x1x1024x512_0_0_0_1) : (⟨S32x1x1024x514, .f32⟩ : BufTy).Contents (Elt F) → (⟨S32x1x1024x512, .f32⟩ : BufTy).Contents (Elt F)),
    nullary main_cst_8 (constant S_ .f32 0x40000000#32),
    unary main_cst_8 main_v38 (broadcastInDim S32x1x1024x512 ![] bcast_S_S32x1x1024x512 : (⟨S_, .f32⟩ : BufTy).Contents (Elt F) → (⟨S32x1x1024x512, .f32⟩ : BufTy).Contents (Elt F)),
    binary main_v38 main_v37 main_v39 (mulf : (⟨S32x1x1024x512, .f32⟩ : BufTy).Contents (Elt F) → (⟨S32x1x1024x512, .f32⟩ : BufTy).Contents (Elt F) → (⟨S32x1x1024x512, .f32⟩ : BufTy).Contents (Elt F)),
    binary main_v36 main_v39 main_v40 (addf : (⟨S32x1x1024x512, .f32⟩ : BufTy).Contents (Elt F) → (⟨S32x1x1024x512, .f32⟩ : BufTy).Contents (Elt F) → (⟨S32x1x1024x512, .f32⟩ : BufTy).Contents (Elt F)),
    unary main_v35 main_v41 ((extractStridedSlice S32x1x1024x512 ![0, 0, 0, 2] · slices_S32x1x1024x514_S32x1x1024x512_0_0_0_2) : (⟨S32x1x1024x514, .f32⟩ : BufTy).Contents (Elt F) → (⟨S32x1x1024x512, .f32⟩ : BufTy).Contents (Elt F)),
    binary main_v40 main_v41 main_v42 (addf : (⟨S32x1x1024x512, .f32⟩ : BufTy).Contents (Elt F) → (⟨S32x1x1024x512, .f32⟩ : BufTy).Contents (Elt F) → (⟨S32x1x1024x512, .f32⟩ : BufTy).Contents (Elt F)),
    unary main_v42 main_v43 ((transpose S32x1x512x1024 [0, 1, 3, 2] · transposes_S32x1x1024x512_S32x1x512x1024_0_1_3_2) : (⟨S32x1x1024x512, .f32⟩ : BufTy).Contents (Elt F) → (⟨S32x1x512x1024, .f32⟩ : BufTy).Contents (Elt F)) ]

theorem W5_sub : (W5 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub ..⟩

/-- Stage 6 (12 operations): the prediction's width differences, ending at `main_v47`. -/
abbrev W6 : List (HloOp τ sig (Elt F)) :=
  [ nullary main_c_9 (constantI S_ 32 0#32),
    TRef.unary (.of main_arg0 : TRef sig ⟨S32x1x512x1024, .f32⟩) main_call5.v0 (extractStridedSlice S32x1x512x1 ![0, 0, 0, 0] · slices_S32x1x512x1024_S32x1x512x1_0_0_0_0),
    TRef.unary (.of main_arg0 : TRef sig ⟨S32x1x512x1024, .f32⟩) main_call5.v1 (extractStridedSlice S32x1x512x1 ![0, 0, 0, 0] · slices_S32x1x512x1024_S32x1x512x1_0_0_0_0),
    TRef.unary main_call5.v1 main_call5.call0.v0 (Host.reverse [3]),
    TRef.binary main_call5.call0.v0 (.of main_arg0 : TRef sig ⟨S32x1x512x1024, .f32⟩) main_call5.v3 (fun a b => concatenate S32x1x512x1025 3 [⟨S32x1x512x1, a⟩, ⟨S32x1x512x1024, b⟩] concatenates_S32x1x512x1_S32x1x512x1024_S32x1x512x1025_d3),
    TRef.unary main_call5.v3 main_call5.v4 (extractStridedSlice S32x1x512x1 ![0, 0, 0, 1024] · slices_S32x1x512x1025_S32x1x512x1_0_0_0_1024),
    TRef.unary main_call5.v3 main_call5.v5 (extractStridedSlice S32x1x512x1 ![0, 0, 0, 1024] · slices_S32x1x512x1025_S32x1x512x1_0_0_0_1024),
    TRef.unary main_call5.v5 main_call5.call1.v0 (Host.reverse [3]),
    TRef.binary main_call5.v3 main_call5.call1.v0 main_call5.v7 (fun a b => concatenate S32x1x512x1026 3 [⟨S32x1x512x1025, a⟩, ⟨S32x1x512x1, b⟩] concatenates_S32x1x512x1025_S32x1x512x1_S32x1x512x1026_d3),
    unary main_v44 main_v45 ((extractStridedSlice S32x1x512x1024 ![0, 0, 0, 2] · slices_S32x1x512x1026_S32x1x512x1024_0_0_0_2) : (⟨S32x1x512x1026, .f32⟩ : BufTy).Contents (Elt F) → (⟨S32x1x512x1024, .f32⟩ : BufTy).Contents (Elt F)),
    unary main_v44 main_v46 ((extractStridedSlice S32x1x512x1024 ![0, 0, 0, 0] · slices_S32x1x512x1026_S32x1x512x1024_0_0_0_0) : (⟨S32x1x512x1026, .f32⟩ : BufTy).Contents (Elt F) → (⟨S32x1x512x1024, .f32⟩ : BufTy).Contents (Elt F)),
    binary main_v45 main_v46 main_v47 (subf : (⟨S32x1x512x1024, .f32⟩ : BufTy).Contents (Elt F) → (⟨S32x1x512x1024, .f32⟩ : BufTy).Contents (Elt F) → (⟨S32x1x512x1024, .f32⟩ : BufTy).Contents (Elt F)) ]

theorem W6_sub : (W6 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub ..⟩

/-- Stage 7 (20 operations): the prediction smoothed along the batch axis, channel axis last, ending at `main_v58`. -/
abbrev W7 : List (HloOp τ sig (Elt F)) :=
  [ unary main_v47 main_v48 ((transpose S1x512x1024x32 [1, 2, 3, 0] · transposes_S32x1x512x1024_S1x512x1024x32_1_2_3_0) : (⟨S32x1x512x1024, .f32⟩ : BufTy).Contents (Elt F) → (⟨S1x512x1024x32, .f32⟩ : BufTy).Contents (Elt F)),
    nullary main_c_10 (constantI S_ 32 0#32),
    TRef.unary (.of main_v48 : TRef sig ⟨S1x512x1024x32, .f32⟩) main_call6.v0 (extractStridedSlice S1x512x1024x1 ![0, 0, 0, 0] · slices_S1x512x1024x32_S1x512x1024x1_0_0_0_0),
    TRef.unary (.of main_v48 : TRef sig ⟨S1x512x1024x32, .f32⟩) main_call6.v1 (extractStridedSlice S1x512x1024x1 ![0, 0, 0, 0] · slices_S1x512x1024x32_S1x512x1024x1_0_0_0_0),
    TRef.unary main_call6.v1 main_call6.call0.v0 (Host.reverse [3]),
    TRef.binary main_call6.call0.v0 (.of main_v48 : TRef sig ⟨S1x512x1024x32, .f32⟩) main_call6.v3 (fun a b => concatenate S1x512x1024x33 3 [⟨S1x512x1024x1, a⟩, ⟨S1x512x1024x32, b⟩] concatenates_S1x512x1024x1_S1x512x1024x32_S1x512x1024x33_d3),
    TRef.unary main_call6.v3 main_call6.v4 (extractStridedSlice S1x512x1024x1 ![0, 0, 0, 32] · slices_S1x512x1024x33_S1x512x1024x1_0_0_0_32),
    TRef.unary main_call6.v3 main_call6.v5 (extractStridedSlice S1x512x1024x1 ![0, 0, 0, 32] · slices_S1x512x1024x33_S1x512x1024x1_0_0_0_32),
    TRef.unary main_call6.v5 main_call6.call1.v0 (Host.reverse [3]),
    TRef.binary main_call6.v3 main_call6.call1.v0 main_call6.v7 (fun a b => concatenate S1x512x1024x34 3 [⟨S1x512x1024x33, a⟩, ⟨S1x512x1024x1, b⟩] concatenates_S1x512x1024x33_S1x512x1024x1_S1x512x1024x34_d3),
    unary main_v49 main_v50 ((extractStridedSlice S1x512x1024x32 ![0, 0, 0, 0] · slices_S1x512x1024x34_S1x512x1024x32_0_0_0_0) : (⟨S1x512x1024x34, .f32⟩ : BufTy).Contents (Elt F) → (⟨S1x512x1024x32, .f32⟩ : BufTy).Contents (Elt F)),
    unary main_v49 main_v51 ((extractStridedSlice S1x512x1024x32 ![0, 0, 0, 1] · slices_S1x512x1024x34_S1x512x1024x32_0_0_0_1) : (⟨S1x512x1024x34, .f32⟩ : BufTy).Contents (Elt F) → (⟨S1x512x1024x32, .f32⟩ : BufTy).Contents (Elt F)),
    nullary main_cst_11 (constant S_ .f32 0x40000000#32),
    unary main_cst_11 main_v52 (broadcastInDim S1x512x1024x32 ![] bcast_S_S1x512x1024x32 : (⟨S_, .f32⟩ : BufTy).Contents (Elt F) → (⟨S1x512x1024x32, .f32⟩ : BufTy).Contents (Elt F)),
    binary main_v52 main_v51 main_v53 (mulf : (⟨S1x512x1024x32, .f32⟩ : BufTy).Contents (Elt F) → (⟨S1x512x1024x32, .f32⟩ : BufTy).Contents (Elt F) → (⟨S1x512x1024x32, .f32⟩ : BufTy).Contents (Elt F)),
    binary main_v50 main_v53 main_v54 (addf : (⟨S1x512x1024x32, .f32⟩ : BufTy).Contents (Elt F) → (⟨S1x512x1024x32, .f32⟩ : BufTy).Contents (Elt F) → (⟨S1x512x1024x32, .f32⟩ : BufTy).Contents (Elt F)),
    unary main_v49 main_v55 ((extractStridedSlice S1x512x1024x32 ![0, 0, 0, 2] · slices_S1x512x1024x34_S1x512x1024x32_0_0_0_2) : (⟨S1x512x1024x34, .f32⟩ : BufTy).Contents (Elt F) → (⟨S1x512x1024x32, .f32⟩ : BufTy).Contents (Elt F)),
    binary main_v54 main_v55 main_v56 (addf : (⟨S1x512x1024x32, .f32⟩ : BufTy).Contents (Elt F) → (⟨S1x512x1024x32, .f32⟩ : BufTy).Contents (Elt F) → (⟨S1x512x1024x32, .f32⟩ : BufTy).Contents (Elt F)),
    unary main_v56 main_v57 ((transpose S32x1x512x1024 [3, 0, 1, 2] · transposes_S1x512x1024x32_S32x1x512x1024_3_0_1_2) : (⟨S1x512x1024x32, .f32⟩ : BufTy).Contents (Elt F) → (⟨S32x1x512x1024, .f32⟩ : BufTy).Contents (Elt F)),
    unary main_v57 main_v58 ((transpose S32x512x1024x1 [0, 2, 3, 1] · transposes_S32x1x512x1024_S32x512x1024x1_0_2_3_1) : (⟨S32x1x512x1024, .f32⟩ : BufTy).Contents (Elt F) → (⟨S32x512x1024x1, .f32⟩ : BufTy).Contents (Elt F)) ]

theorem W7_sub : (W7 : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub ..⟩

/-- Stage 8 (19 operations): the prediction smoothed along the channel axis, height axis last, ending at `main_v68`. -/
abbrev W8 : List (HloOp τ sig (Elt F)) :=
  [ nullary main_c_12 (constantI S_ 32 0#32),
    TRef.unary (.of main_v58 : TRef sig ⟨S32x512x1024x1, .f32⟩) main_call7.v0 (extractStridedSlice S32x512x1024x1 ![0, 0, 0, 0] · slices_S32x512x1024x1_S32x512x1024x1_0_0_0_0),
    TRef.unary (.of main_v58 : TRef sig ⟨S32x512x1024x1, .f32⟩) main_call7.v1 (extractStridedSlice S32x512x1024x1 ![0, 0, 0, 0] · slices_S32x512x1024x1_S32x512x1024x1_0_0_0_0),
    TRef.unary main_call7.v1 main_call7.call0.v0 (Host.reverse [3]),
    TRef.binary main_call7.call0.v0 (.of main_v58 : TRef sig ⟨S32x512x1024x1, .f32⟩) main_call7.v3 (fun a b => concatenate S32x512x1024x2 3 [⟨S32x512x1024x1, a⟩, ⟨S32x512x1024x1, b⟩] concatenates_S32x512x1024x1_S32x512x1024x1_S32x512x1024x2_d3),
    TRef.unary main_call7.v3 main_call7.v4 (extractStridedSlice S32x512x1024x1 ![0, 0, 0, 1] · slices_S32x512x1024x2_S32x512x1024x1_0_0_0_1),
    TRef.unary main_call7.v3 main_call7.v5 (extractStridedSlice S32x512x1024x1 ![0, 0, 0, 1] · slices_S32x512x1024x2_S32x512x1024x1_0_0_0_1),
    TRef.unary main_call7.v5 main_call7.call1.v0 (Host.reverse [3]),
    TRef.binary main_call7.v3 main_call7.call1.v0 main_call7.v7 (fun a b => concatenate S32x512x1024x3 3 [⟨S32x512x1024x2, a⟩, ⟨S32x512x1024x1, b⟩] concatenates_S32x512x1024x2_S32x512x1024x1_S32x512x1024x3_d3),
    unary main_v59 main_v60 ((extractStridedSlice S32x512x1024x1 ![0, 0, 0, 0] · slices_S32x512x1024x3_S32x512x1024x1_0_0_0_0) : (⟨S32x512x1024x3, .f32⟩ : BufTy).Contents (Elt F) → (⟨S32x512x1024x1, .f32⟩ : BufTy).Contents (Elt F)),
    unary main_v59 main_v61 ((extractStridedSlice S32x512x1024x1 ![0, 0, 0, 1] · slices_S32x512x1024x3_S32x512x1024x1_0_0_0_1) : (⟨S32x512x1024x3, .f32⟩ : BufTy).Contents (Elt F) → (⟨S32x512x1024x1, .f32⟩ : BufTy).Contents (Elt F)),
    nullary main_cst_13 (constant S_ .f32 0x40000000#32),
    unary main_cst_13 main_v62 (broadcastInDim S32x512x1024x1 ![] bcast_S_S32x512x1024x1 : (⟨S_, .f32⟩ : BufTy).Contents (Elt F) → (⟨S32x512x1024x1, .f32⟩ : BufTy).Contents (Elt F)),
    binary main_v62 main_v61 main_v63 (mulf : (⟨S32x512x1024x1, .f32⟩ : BufTy).Contents (Elt F) → (⟨S32x512x1024x1, .f32⟩ : BufTy).Contents (Elt F) → (⟨S32x512x1024x1, .f32⟩ : BufTy).Contents (Elt F)),
    binary main_v60 main_v63 main_v64 (addf : (⟨S32x512x1024x1, .f32⟩ : BufTy).Contents (Elt F) → (⟨S32x512x1024x1, .f32⟩ : BufTy).Contents (Elt F) → (⟨S32x512x1024x1, .f32⟩ : BufTy).Contents (Elt F)),
    unary main_v59 main_v65 ((extractStridedSlice S32x512x1024x1 ![0, 0, 0, 2] · slices_S32x512x1024x3_S32x512x1024x1_0_0_0_2) : (⟨S32x512x1024x3, .f32⟩ : BufTy).Contents (Elt F) → (⟨S32x512x1024x1, .f32⟩ : BufTy).Contents (Elt F)),
    binary main_v64 main_v65 main_v66 (addf : (⟨S32x512x1024x1, .f32⟩ : BufTy).Contents (Elt F) → (⟨S32x512x1024x1, .f32⟩ : BufTy).Contents (Elt F) → (⟨S32x512x1024x1, .f32⟩ : BufTy).Contents (Elt F)),
    unary main_v66 main_v67 ((transpose S32x1x512x1024 [0, 3, 1, 2] · transposes_S32x512x1024x1_S32x1x512x1024_0_3_1_2) : (⟨S32x512x1024x1, .f32⟩ : BufTy).Contents (Elt F) → (⟨S32x1x512x1024, .f32⟩ : BufTy).Contents (Elt F)),
    unary main_v67 main_v68 ((transpose S32x1x1024x512 [0, 1, 3, 2] · transposes_S32x1x512x1024_S32x1x1024x512_0_1_3_2) : (⟨S32x1x512x1024, .f32⟩ : BufTy).Contents (Elt F) → (⟨S32x1x1024x512, .f32⟩ : BufTy).Contents (Elt F)) ]

theorem W8_sub : (W8 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub ..⟩

/-- Stage 9 (18 operations): the prediction's filter, ending at `main_v77`. -/
abbrev W9 : List (HloOp τ sig (Elt F)) :=
  [ nullary main_c_14 (constantI S_ 32 0#32),
    TRef.unary (.of main_v68 : TRef sig ⟨S32x1x1024x512, .f32⟩) main_call8.v0 (extractStridedSlice S32x1x1024x1 ![0, 0, 0, 0] · slices_S32x1x1024x512_S32x1x1024x1_0_0_0_0),
    TRef.unary (.of main_v68 : TRef sig ⟨S32x1x1024x512, .f32⟩) main_call8.v1 (extractStridedSlice S32x1x1024x1 ![0, 0, 0, 0] · slices_S32x1x1024x512_S32x1x1024x1_0_0_0_0),
    TRef.unary main_call8.v1 main_call8.call0.v0 (Host.reverse [3]),
    TRef.binary main_call8.call0.v0 (.of main_v68 : TRef sig ⟨S32x1x1024x512, .f32⟩) main_call8.v3 (fun a b => concatenate S32x1x1024x513 3 [⟨S32x1x1024x1, a⟩, ⟨S32x1x1024x512, b⟩] concatenates_S32x1x1024x1_S32x1x1024x512_S32x1x1024x513_d3),
    TRef.unary main_call8.v3 main_call8.v4 (extractStridedSlice S32x1x1024x1 ![0, 0, 0, 512] · slices_S32x1x1024x513_S32x1x1024x1_0_0_0_512),
    TRef.unary main_call8.v3 main_call8.v5 (extractStridedSlice S32x1x1024x1 ![0, 0, 0, 512] · slices_S32x1x1024x513_S32x1x1024x1_0_0_0_512),
    TRef.unary main_call8.v5 main_call8.call1.v0 (Host.reverse [3]),
    TRef.binary main_call8.v3 main_call8.call1.v0 main_call8.v7 (fun a b => concatenate S32x1x1024x514 3 [⟨S32x1x1024x513, a⟩, ⟨S32x1x1024x1, b⟩] concatenates_S32x1x1024x513_S32x1x1024x1_S32x1x1024x514_d3),
    unary main_v69 main_v70 ((extractStridedSlice S32x1x1024x512 ![0, 0, 0, 0] · slices_S32x1x1024x514_S32x1x1024x512_0_0_0_0) : (⟨S32x1x1024x514, .f32⟩ : BufTy).Contents (Elt F) → (⟨S32x1x1024x512, .f32⟩ : BufTy).Contents (Elt F)),
    unary main_v69 main_v71 ((extractStridedSlice S32x1x1024x512 ![0, 0, 0, 1] · slices_S32x1x1024x514_S32x1x1024x512_0_0_0_1) : (⟨S32x1x1024x514, .f32⟩ : BufTy).Contents (Elt F) → (⟨S32x1x1024x512, .f32⟩ : BufTy).Contents (Elt F)),
    nullary main_cst_15 (constant S_ .f32 0x40000000#32),
    unary main_cst_15 main_v72 (broadcastInDim S32x1x1024x512 ![] bcast_S_S32x1x1024x512 : (⟨S_, .f32⟩ : BufTy).Contents (Elt F) → (⟨S32x1x1024x512, .f32⟩ : BufTy).Contents (Elt F)),
    binary main_v72 main_v71 main_v73 (mulf : (⟨S32x1x1024x512, .f32⟩ : BufTy).Contents (Elt F) → (⟨S32x1x1024x512, .f32⟩ : BufTy).Contents (Elt F) → (⟨S32x1x1024x512, .f32⟩ : BufTy).Contents (Elt F)),
    binary main_v70 main_v73 main_v74 (addf : (⟨S32x1x1024x512, .f32⟩ : BufTy).Contents (Elt F) → (⟨S32x1x1024x512, .f32⟩ : BufTy).Contents (Elt F) → (⟨S32x1x1024x512, .f32⟩ : BufTy).Contents (Elt F)),
    unary main_v69 main_v75 ((extractStridedSlice S32x1x1024x512 ![0, 0, 0, 2] · slices_S32x1x1024x514_S32x1x1024x512_0_0_0_2) : (⟨S32x1x1024x514, .f32⟩ : BufTy).Contents (Elt F) → (⟨S32x1x1024x512, .f32⟩ : BufTy).Contents (Elt F)),
    binary main_v74 main_v75 main_v76 (addf : (⟨S32x1x1024x512, .f32⟩ : BufTy).Contents (Elt F) → (⟨S32x1x1024x512, .f32⟩ : BufTy).Contents (Elt F) → (⟨S32x1x1024x512, .f32⟩ : BufTy).Contents (Elt F)),
    unary main_v76 main_v77 ((transpose S32x1x512x1024 [0, 1, 3, 2] · transposes_S32x1x1024x512_S32x1x512x1024_0_1_3_2) : (⟨S32x1x1024x512, .f32⟩ : BufTy).Contents (Elt F) → (⟨S32x1x512x1024, .f32⟩ : BufTy).Contents (Elt F)) ]

theorem W9_sub : (W9 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., binary_bufs_sub .., unary_bufs_sub ..⟩

/-- Stage 10 (12 operations): the mean of the loss, ending at `main_v85`. -/
abbrev W10 : List (HloOp τ sig (Elt F)) :=
  [ binary main_v43 main_v77 main_v78 (subf : (⟨S32x1x512x1024, .f32⟩ : BufTy).Contents (Elt F) → (⟨S32x1x512x1024, .f32⟩ : BufTy).Contents (Elt F) → (⟨S32x1x512x1024, .f32⟩ : BufTy).Contents (Elt F)),
    nullary main_cst_16 (constant S_ .f32 0x3E99999A#32),
    unary main_cst_16 main_v79 (broadcastInDim S32x1x512x1024 ![] bcast_S_S32x1x512x1024 : (⟨S_, .f32⟩ : BufTy).Contents (Elt F) → (⟨S32x1x512x1024, .f32⟩ : BufTy).Contents (Elt F)),
    binary main_v79 main_v78 main_v80 (mulf : (⟨S32x1x512x1024, .f32⟩ : BufTy).Contents (Elt F) → (⟨S32x1x512x1024, .f32⟩ : BufTy).Contents (Elt F) → (⟨S32x1x512x1024, .f32⟩ : BufTy).Contents (Elt F)),
    nullary main_cst_17 (constant S_ .f32 0x3F333333#32),
    binary main_cst_17 main_v9 main_v81 (mulf : (⟨S_, .f32⟩ : BufTy).Contents (Elt F) → (⟨S_, .f32⟩ : BufTy).Contents (Elt F) → (⟨S_, .f32⟩ : BufTy).Contents (Elt F)),
    unary main_v81 main_v82 (broadcastInDim S32x1x512x1024 ![] bcast_S_S32x1x512x1024 : (⟨S_, .f32⟩ : BufTy).Contents (Elt F) → (⟨S32x1x512x1024, .f32⟩ : BufTy).Contents (Elt F)),
    binary main_v80 main_v82 main_v83 (addf : (⟨S32x1x512x1024, .f32⟩ : BufTy).Contents (Elt F) → (⟨S32x1x512x1024, .f32⟩ : BufTy).Contents (Elt F) → (⟨S32x1x512x1024, .f32⟩ : BufTy).Contents (Elt F)),
    nullary main_cst_18 (constant S_ .f32 0x00000000#32),
    binary main_v83 main_cst_18 main_v84 ((fun x v => Host.reduceAdd x v reducesTo_S32x1x512x1024_S_d0_1_2_3 h_S_) : (⟨S32x1x512x1024, .f32⟩ : BufTy).Contents (Elt F) → (⟨S_, .f32⟩ : BufTy).Contents (Elt F) → (⟨S_, .f32⟩ : BufTy).Contents (Elt F)),
    nullary main_cst_19 (constant S_ .f32 0x4B800000#32),
    binary main_v84 main_cst_19 main_v85 (Host.divf : (⟨S_, .f32⟩ : BufTy).Contents (Elt F) → (⟨S_, .f32⟩ : BufTy).Contents (Elt F) → (⟨S_, .f32⟩ : BufTy).Contents (Elt F)) ]

theorem W10_sub : (W10 : List (HloOp τ sig (Elt F))).Forall fun op => op.bufs ⊆ tcRefs τ sig :=
  ⟨binary_bufs_sub .., nullary_bufs_sub .., unary_bufs_sub .., binary_bufs_sub .., nullary_bufs_sub .., binary_bufs_sub .., unary_bufs_sub .., binary_bufs_sub .., nullary_bufs_sub .., binary_bufs_sub .., nullary_bufs_sub .., binary_bufs_sub ..⟩

/-- The first printed window of @main: stages 1 to 6. -/
abbrev ops0 : List (HloOp τ sig (Elt F)) := W1 ++ (W2 ++ (W3 ++ (W4 ++ (W5 ++ W6))))
/-- The second printed window of @main: stages 7 to 10. -/
abbrev ops1 : List (HloOp τ sig (Elt F)) := W7 ++ (W8 ++ (W9 ++ W10))
/-- @main's 166 operations, in order. -/
abbrev ops : List (HloOp τ sig (Elt F)) := ops0 ++ ops1

end Cert.ReferenceIdeal.RefRun

end
-- ==== Proof.RefRun.lean ====
/-
  The reference's run, read back.

  @main is the straight line of its operations, each call unfolded at the call's buffers; so every weakly fair
  execution terminates with each buffer at the fold of the operations over the launch contents. The fold is read stage
  by stage — each stage from ANY contents, at the one array it hands on and at the arrays it keeps — and the stages
  compose to: the result buffer holds RefSpec.out of the two argument arrays, which end unchanged.
-/
import proofs.«163007_j23742579212666_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

set_option maxRecDepth 8192 in
set_option maxHeartbeats 4000000 in
/-- The first printed window is its operations run in order: the callees' definitions unfolded at their calls and the
    records at their fields, both sides are one chain of steps once sequencing is reassociated. -/
theorem main_part0_eq (c : Dev nD) : main_part0 (F := F) c = seq ops0 := by
  simp only [main_part0, fn_where.body, fn_flip.body, fn_pad.body, fn_flip_1.body, fn_pad_0.body, fn_flip_3.body, fn_pad_2.body,
    fn_flip_5.body, fn_pad_4.body, ops0, W1, W2, W3, W4, W5, W6, seq_append, seq, bind_assoc, pure_bind]
  rfl

set_option maxRecDepth 8192 in
set_option maxHeartbeats 4000000 in
/-- The second printed window likewise. -/
theorem main_part1_eq (c : Dev nD) : main_part1 (F := F) c = seq ops1 := by
  simp only [main_part1, fn_flip_1.body, fn_pad_0.body, fn_flip_3.body, fn_pad_2.body,
    fn_flip_5.body, fn_pad_4.body, ops1, W7, W8, W9, W10, seq_append, seq, bind_assoc, pure_bind]

/-- @main runs its two windows in order: the whole list. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: stage by stage. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h) | (h | h | h | h)
    exacts [List.forall_iff_forall_mem.mp W1_sub op h, List.forall_iff_forall_mem.mp W2_sub op h,
      List.forall_iff_forall_mem.mp W3_sub op h, List.forall_iff_forall_mem.mp W4_sub op h,
      List.forall_iff_forall_mem.mp W5_sub op h, List.forall_iff_forall_mem.mp W6_sub op h,
      List.forall_iff_forall_mem.mp W7_sub op h, List.forall_iff_forall_mem.mp W8_sub op h,
      List.forall_iff_forall_mem.mp W9_sub op h, List.forall_iff_forall_mem.mp W10_sub op h]

/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages' values

The filter of RefSpec is four stretches, each ending where the program's next call reads: the width differences with
the batch axis brought last; the smoothing along the batch axis with the channel axis brought last; the smoothing along
the channel axis with the height axis brought last; the smoothing along the height axis with the axes back in place. -/

open RefSpec

/-- The width differences, the batch axis brought last. -/
def stB (x : FVec F S32x1x512x1024 .f32) : FVec F S1x512x1024x32 .f32 :=
  transpose S1x512x1024x32 [1, 2, 3, 0] (derivW x) transposes_S32x1x512x1024_S1x512x1024x32_1_2_3_0

/-- Smoothed along the batch axis (last), then the channel axis brought last. -/
def stC (y : FVec F S1x512x1024x32 .f32) : FVec F S32x512x1024x1 .f32 :=
  transpose S32x512x1024x1 [0, 2, 3, 1]
    (transpose S32x1x512x1024 [3, 0, 1, 2] (smoothB y) transposes_S1x512x1024x32_S32x1x512x1024_3_0_1_2)
    transposes_S32x1x512x1024_S32x512x1024x1_0_2_3_1

/-- Smoothed along the channel axis (last), then the height axis brought last. -/
def stD (y : FVec F S32x512x1024x1 .f32) : FVec F S32x1x1024x512 .f32 :=
  transpose S32x1x1024x512 [0, 1, 3, 2]
    (transpose S32x1x512x1024 [0, 3, 1, 2] (smoothC y) transposes_S32x512x1024x1_S32x1x512x1024_0_3_1_2)
    transposes_S32x1x512x1024_S32x1x1024x512_0_1_3_2

/-- Smoothed along the height axis (last), then the axes back in place. -/
def stE (y : FVec F S32x1x1024x512 .f32) : FVec F S32x1x512x1024 .f32 :=
  transpose S32x1x512x1024 [0, 1, 3, 2] (smoothD y) transposes_S32x1x1024x512_S32x1x512x1024_0_1_3_2

/-- The mean of the loss from the masked mean `μ` and the two filtered arrays. -/
def fin (μ : FVec F S_ .f32) (a b : FVec F S32x1x512x1024 .f32) : FVec F S_ .f32 :=
  Host.divf
    (Host.reduceAdd
      (addf
        (mulf (broadcastInDim S32x1x512x1024 ![] bcast_S_S32x1x512x1024 (constant S_ .f32 0x3E99999A#32)) (subf a b))
        (broadcastInDim S32x1x512x1024 ![] bcast_S_S32x1x512x1024 (mulf (constant S_ .f32 0x3F333333#32) μ)))
      zeroS reducesTo_S32x1x512x1024_S_d0_1_2_3 h_S_)
    (constant S_ .f32 0x4B800000#32)

/-- RefSpec's result is these stretches composed: its definitions unfolded. -/
theorem out_fin (p t : FVec F S32x1x512x1024 .f32) :
    out p t = fin (mae p t) (stE (stD (stC (stB t)))) (stE (stD (stC (stB p)))) := rfl

/-! ## The fold, stage by stage

Each stage is read from ANY contents `V`: at the array it hands on, the fold unrolled and each operation's result
rewritten at its own buffer to its function's value and at any other to what was there; what is left is RefSpec's
stretch over `V` at the stage's operand, up to the identity casts a call's typed references carry. And the arrays a
later stage still reads are not written by it. The shape operations and the sums stay folded meanwhile: the equation
never looks inside them. -/

/-- Two lists run one after the other fold as the second over the first's fold. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduce Host.reduceAdd concatenate transpose extractStridedSlice Host.reverse broadcastInDim

/-- Stage 1: the masked mean of squares of the two arguments. -/
theorem W1_read (V : Valuation τ sig (Elt F)) :
    after W1 V (main_v9 : DevRef τ sig) = mae (V (main_arg0 : DevRef τ sig)) (V (main_arg1 : DevRef τ sig))
    ∧ after W1 V (main_arg0 : DevRef τ sig) = V (main_arg0 : DevRef τ sig)
    ∧ after W1 V (main_arg1 : DevRef τ sig) = V (main_arg1 : DevRef τ sig) := by
  refine ⟨?_, ?_, ?_⟩ <;> simp only [W1] <;> after_results_simp <;> rfl

/-- Stage 2: the target's width differences, batch axis last. -/
theorem W2_read (V : Valuation τ sig (Elt F)) :
    after W2 V (main_v14 : DevRef τ sig) = stB (V (main_arg1 : DevRef τ sig))
    ∧ after W2 V (main_arg0 : DevRef τ sig) = V (main_arg0 : DevRef τ sig)
    ∧ after W2 V (main_arg1 : DevRef τ sig) = V (main_arg1 : DevRef τ sig)
    ∧ after W2 V (main_v9 : DevRef τ sig) = V (main_v9 : DevRef τ sig) := by
  refine ⟨?_, ?_, ?_, ?_⟩ <;> simp only [W2] <;> after_results_simp <;> rfl

/-- Stage 3: smoothed along the batch axis. -/
theorem W3_read (V : Valuation τ sig (Elt F)) :
    after W3 V (main_v24 : DevRef τ sig) = stC (V (main_v14 : DevRef τ sig))
    ∧ after W3 V (main_arg0 : DevRef τ sig) = V (main_arg0 : DevRef τ sig)
    ∧ after W3 V (main_arg1 : DevRef τ sig) = V (main_arg1 : DevRef τ sig)
    ∧ after W3 V (main_v9 : DevRef τ sig) = V (main_v9 : DevRef τ sig) := by
  refine ⟨?_, ?_, ?_, ?_⟩ <;> simp only [W3] <;> after_results_simp <;> rfl

/-- Stage 4: smoothed along the channel axis. -/
theorem W4_read (V : Valuation τ sig (Elt F)) :
    after W4 V (main_v34 : DevRef τ sig) = stD (V (main_v24 : DevRef τ sig))
    ∧ after W4 V (main_arg0 : DevRef τ sig) = V (main_arg0 : DevRef τ sig)
    ∧ after W4 V (main_arg1 : DevRef τ sig) = V (main_arg1 : DevRef τ sig)
    ∧ after W4 V (main_v9 : DevRef τ sig) = V (main_v9 : DevRef τ sig) := by
  refine ⟨?_, ?_, ?_, ?_⟩ <;> simp only [W4] <;> after_results_simp <;> rfl

/-- Stage 5: smoothed along the height axis, the target's filter. -/
theorem W5_read (V : Valuation τ sig (Elt F)) :
    after W5 V (main_v43 : DevRef τ sig) = stE (V (main_v34 : DevRef τ sig))
    ∧ after W5 V (main_arg0 : DevRef τ sig) = V (main_arg0 : DevRef τ sig)
    ∧ after W5 V (main_arg1 : DevRef τ sig) = V (main_arg1 : DevRef τ sig)
    ∧ after W5 V (main_v9 : DevRef τ sig) = V (main_v9 : DevRef τ sig) := by
  refine ⟨?_, ?_, ?_, ?_⟩ <;> simp only [W5] <;> after_results_simp <;> rfl

/-- Stage 6: the prediction's width differences. -/
theorem W6_read (V : Valuation τ sig (Elt F)) :
    after W6 V (main_v47 : DevRef τ sig) = derivW (V (main_arg0 : DevRef τ sig))
    ∧ after W6 V (main_arg0 : DevRef τ sig) = V (main_arg0 : DevRef τ sig)
    ∧ after W6 V (main_arg1 : DevRef τ sig) = V (main_arg1 : DevRef τ sig)
    ∧ after W6 V (main_v9 : DevRef τ sig) = V (main_v9 : DevRef τ sig)
    ∧ after W6 V (main_v43 : DevRef τ sig) = V (main_v43 : DevRef τ sig) := by
  refine ⟨?_, ?_, ?_, ?_, ?_⟩ <;> simp only [W6] <;> after_results_simp <;> rfl

/-- Stage 7: the batch axis brought last, smoothed along it. -/
theorem W7_read (V : Valuation τ sig (Elt F)) :
    after W7 V (main_v58 : DevRef τ sig) = stC (transpose S1x512x1024x32 [1, 2, 3, 0] (V (main_v47 : DevRef τ sig)) transposes_S32x1x512x1024_S1x512x1024x32_1_2_3_0)
    ∧ after W7 V (main_arg0 : DevRef τ sig) = V (main_arg0 : DevRef τ sig)
    ∧ after W7 V (main_arg1 : DevRef τ sig) = V (main_arg1 : DevRef τ sig)
    ∧ after W7 V (main_v9 : DevRef τ sig) = V (main_v9 : DevRef τ sig)
    ∧ after W7 V (main_v43 : DevRef τ sig) = V (main_v43 : DevRef τ sig) := by
  refine ⟨?_, ?_, ?_, ?_, ?_⟩ <;> simp only [W7] <;> after_results_simp <;> rfl

/-- Stage 8: smoothed along the channel axis. -/
theorem W8_read (V : Valuation τ sig (Elt F)) :
    after W8 V (main_v68 : DevRef τ sig) = stD (V (main_v58 : DevRef τ sig))
    ∧ after W8 V (main_arg0 : DevRef τ sig) = V (main_arg0 : DevRef τ sig)
    ∧ after W8 V (main_arg1 : DevRef τ sig) = V (main_arg1 : DevRef τ sig)
    ∧ after W8 V (main_v9 : DevRef τ sig) = V (main_v9 : DevRef τ sig)
    ∧ after W8 V (main_v43 : DevRef τ sig) = V (main_v43 : DevRef τ sig) := by
  refine ⟨?_, ?_, ?_, ?_, ?_⟩ <;> simp only [W8] <;> after_results_simp <;> rfl

/-- Stage 9: smoothed along the height axis, the prediction's filter. -/
theorem W9_read (V : Valuation τ sig (Elt F)) :
    after W9 V (main_v77 : DevRef τ sig) = stE (V (main_v68 : DevRef τ sig))
    ∧ after W9 V (main_arg0 : DevRef τ sig) = V (main_arg0 : DevRef τ sig)
    ∧ after W9 V (main_arg1 : DevRef τ sig) = V (main_arg1 : DevRef τ sig)
    ∧ after W9 V (main_v9 : DevRef τ sig) = V (main_v9 : DevRef τ sig)
    ∧ after W9 V (main_v43 : DevRef τ sig) = V (main_v43 : DevRef τ sig) := by
  refine ⟨?_, ?_, ?_, ?_, ?_⟩ <;> simp only [W9] <;> after_results_simp <;> rfl

/-- Stage 10: the mean of the loss. -/
theorem W10_read (V : Valuation τ sig (Elt F)) :
    after W10 V (main_v85 : DevRef τ sig) = fin (V (main_v9 : DevRef τ sig)) (V (main_v43 : DevRef τ sig)) (V (main_v77 : DevRef τ sig))
    ∧ after W10 V (main_arg0 : DevRef τ sig) = V (main_arg0 : DevRef τ sig)
    ∧ after W10 V (main_arg1 : DevRef τ sig) = V (main_arg1 : DevRef τ sig) := by
  refine ⟨?_, ?_, ?_⟩ <;> simp only [W10] <;> after_results_simp <;> rfl

/-! ## The stages composed

`valK V` is the contents after the first K stages from `V`. Read at the array stage K hands on and at the arrays still
needed, by the stage's own reading over the contents before it and the reading of those. -/

def val1 (V : Valuation τ sig (Elt F)) : Valuation τ sig (Elt F) := after W1 V
def val2 (V : Valuation τ sig (Elt F)) : Valuation τ sig (Elt F) := after W2 (val1 V)
def val3 (V : Valuation τ sig (Elt F)) : Valuation τ sig (Elt F) := after W3 (val2 V)
def val4 (V : Valuation τ sig (Elt F)) : Valuation τ sig (Elt F) := after W4 (val3 V)
def val5 (V : Valuation τ sig (Elt F)) : Valuation τ sig (Elt F) := after W5 (val4 V)
def val6 (V : Valuation τ sig (Elt F)) : Valuation τ sig (Elt F) := after W6 (val5 V)
def val7 (V : Valuation τ sig (Elt F)) : Valuation τ sig (Elt F) := after W7 (val6 V)
def val8 (V : Valuation τ sig (Elt F)) : Valuation τ sig (Elt F) := after W8 (val7 V)
def val9 (V : Valuation τ sig (Elt F)) : Valuation τ sig (Elt F) := after W9 (val8 V)
def val10 (V : Valuation τ sig (Elt F)) : Valuation τ sig (Elt F) := after W10 (val9 V)

/-- The whole list's fold is the ten stages' folds in order. -/
theorem after_ops (V : Valuation τ sig (Elt F)) : after ops V = val10 V := by
  simp only [ops, ops0, ops1, after_app]
  rfl

theorem val1_read (V : Valuation τ sig (Elt F)) :
    val1 V (main_v9 : DevRef τ sig) = mae (V (main_arg0 : DevRef τ sig)) (V (main_arg1 : DevRef τ sig))
    ∧ val1 V (main_arg0 : DevRef τ sig) = V (main_arg0 : DevRef τ sig) ∧ val1 V (main_arg1 : DevRef τ sig) = V (main_arg1 : DevRef τ sig) := W1_read V

theorem val2_read (V : Valuation τ sig (Elt F)) :
    val2 V (main_v14 : DevRef τ sig) = stB (V (main_arg1 : DevRef τ sig))
    ∧ val2 V (main_arg0 : DevRef τ sig) = V (main_arg0 : DevRef τ sig) ∧ val2 V (main_arg1 : DevRef τ sig) = V (main_arg1 : DevRef τ sig)
    ∧ val2 V (main_v9 : DevRef τ sig) = mae (V (main_arg0 : DevRef τ sig)) (V (main_arg1 : DevRef τ sig)) :=
  have h := W2_read (val1 V); have g := val1_read V
  ⟨h.1.trans (by rw [g.2.2]), h.2.1.trans g.2.1, h.2.2.1.trans g.2.2, h.2.2.2.trans g.1⟩

theorem val3_read (V : Valuation τ sig (Elt F)) :
    val3 V (main_v24 : DevRef τ sig) = stC (stB (V (main_arg1 : DevRef τ sig)))
    ∧ val3 V (main_arg0 : DevRef τ sig) = V (main_arg0 : DevRef τ sig) ∧ val3 V (main_arg1 : DevRef τ sig) = V (main_arg1 : DevRef τ sig)
    ∧ val3 V (main_v9 : DevRef τ sig) = mae (V (main_arg0 : DevRef τ sig)) (V (main_arg1 : DevRef τ sig)) :=
  have h := W3_read (val2 V); have g := val2_read V
  ⟨h.1.trans (by rw [g.1]), h.2.1.trans g.2.1, h.2.2.1.trans g.2.2.1, h.2.2.2.trans g.2.2.2⟩

theorem val4_read (V : Valuation τ sig (Elt F)) :
    val4 V (main_v34 : DevRef τ sig) = stD (stC (stB (V (main_arg1 : DevRef τ sig))))
    ∧ val4 V (main_arg0 : DevRef τ sig) = V (main_arg0 : DevRef τ sig) ∧ val4 V (main_arg1 : DevRef τ sig) = V (main_arg1 : DevRef τ sig)
    ∧ val4 V (main_v9 : DevRef τ sig) = mae (V (main_arg0 : DevRef τ sig)) (V (main_arg1 : DevRef τ sig)) :=
  have h := W4_read (val3 V); have g := val3_read V
  ⟨h.1.trans (by rw [g.1]), h.2.1.trans g.2.1, h.2.2.1.trans g.2.2.1, h.2.2.2.trans g.2.2.2⟩

theorem val5_read (V : Valuation τ sig (Elt F)) :
    val5 V (main_v43 : DevRef τ sig) = stE (stD (stC (stB (V (main_arg1 : DevRef τ sig)))))
    ∧ val5 V (main_arg0 : DevRef τ sig) = V (main_arg0 : DevRef τ sig) ∧ val5 V (main_arg1 : DevRef τ sig) = V (main_arg1 : DevRef τ sig)
    ∧ val5 V (main_v9 : DevRef τ sig) = mae (V (main_arg0 : DevRef τ sig)) (V (main_arg1 : DevRef τ sig)) :=
  have h := W5_read (val4 V); have g := val4_read V
  ⟨h.1.trans (by rw [g.1]), h.2.1.trans g.2.1, h.2.2.1.trans g.2.2.1, h.2.2.2.trans g.2.2.2⟩

theorem val6_read (V : Valuation τ sig (Elt F)) :
    val6 V (main_v47 : DevRef τ sig) = derivW (V (main_arg0 : DevRef τ sig))
    ∧ val6 V (main_arg0 : DevRef τ sig) = V (main_arg0 : DevRef τ sig) ∧ val6 V (main_arg1 : DevRef τ sig) = V (main_arg1 : DevRef τ sig)
    ∧ val6 V (main_v9 : DevRef τ sig) = mae (V (main_arg0 : DevRef τ sig)) (V (main_arg1 : DevRef τ sig))
    ∧ val6 V (main_v43 : DevRef τ sig) = stE (stD (stC (stB (V (main_arg1 : DevRef τ sig))))) :=
  have h := W6_read (val5 V); have g := val5_read V
  ⟨h.1.trans (by rw [g.2.1]), h.2.1.trans g.2.1, h.2.2.1.trans g.2.2.1, h.2.2.2.1.trans g.2.2.2, h.2.2.2.2.trans g.1⟩

theorem val7_read (V : Valuation τ sig (Elt F)) :
    val7 V (main_v58 : DevRef τ sig) = stC (stB (V (main_arg0 : DevRef τ sig)))
    ∧ val7 V (main_arg0 : DevRef τ sig) = V (main_arg0 : DevRef τ sig) ∧ val7 V (main_arg1 : DevRef τ sig) = V (main_arg1 : DevRef τ sig)
    ∧ val7 V (main_v9 : DevRef τ sig) = mae (V (main_arg0 : DevRef τ sig)) (V (main_arg1 : DevRef τ sig))
    ∧ val7 V (main_v43 : DevRef τ sig) = stE (stD (stC (stB (V (main_arg1 : DevRef τ sig))))) :=
  have h := W7_read (val6 V); have g := val6_read V
  ⟨h.1.trans (by rw [g.1]; rfl), h.2.1.trans g.2.1, h.2.2.1.trans g.2.2.1, h.2.2.2.1.trans g.2.2.2.1, h.2.2.2.2.trans g.2.2.2.2⟩

theorem val8_read (V : Valuation τ sig (Elt F)) :
    val8 V (main_v68 : DevRef τ sig) = stD (stC (stB (V (main_arg0 : DevRef τ sig))))
    ∧ val8 V (main_arg0 : DevRef τ sig) = V (main_arg0 : DevRef τ sig) ∧ val8 V (main_arg1 : DevRef τ sig) = V (main_arg1 : DevRef τ sig)
    ∧ val8 V (main_v9 : DevRef τ sig) = mae (V (main_arg0 : DevRef τ sig)) (V (main_arg1 : DevRef τ sig))
    ∧ val8 V (main_v43 : DevRef τ sig) = stE (stD (stC (stB (V (main_arg1 : DevRef τ sig))))) :=
  have h := W8_read (val7 V); have g := val7_read V
  ⟨h.1.trans (by rw [g.1]), h.2.1.trans g.2.1, h.2.2.1.trans g.2.2.1, h.2.2.2.1.trans g.2.2.2.1, h.2.2.2.2.trans g.2.2.2.2⟩

theorem val9_read (V : Valuation τ sig (Elt F)) :
    val9 V (main_v77 : DevRef τ sig) = stE (stD (stC (stB (V (main_arg0 : DevRef τ sig)))))
    ∧ val9 V (main_arg0 : DevRef τ sig) = V (main_arg0 : DevRef τ sig) ∧ val9 V (main_arg1 : DevRef τ sig) = V (main_arg1 : DevRef τ sig)
    ∧ val9 V (main_v9 : DevRef τ sig) = mae (V (main_arg0 : DevRef τ sig)) (V (main_arg1 : DevRef τ sig))
    ∧ val9 V (main_v43 : DevRef τ sig) = stE (stD (stC (stB (V (main_arg1 : DevRef τ sig))))) :=
  have h := W9_read (val8 V); have g := val8_read V
  ⟨h.1.trans (by rw [g.1]), h.2.1.trans g.2.1, h.2.2.1.trans g.2.2.1, h.2.2.2.1.trans g.2.2.2.1, h.2.2.2.2.trans g.2.2.2.2⟩

theorem val10_read (V : Valuation τ sig (Elt F)) :
    val10 V (main_v85 : DevRef τ sig) = fin (mae (V (main_arg0 : DevRef τ sig)) (V (main_arg1 : DevRef τ sig))) (stE (stD (stC (stB (V (main_arg1 : DevRef τ sig)))))) (stE (stD (stC (stB (V (main_arg0 : DevRef τ sig))))))
    ∧ val10 V (main_arg0 : DevRef τ sig) = V (main_arg0 : DevRef τ sig) ∧ val10 V (main_arg1 : DevRef τ sig) = V (main_arg1 : DevRef τ sig) :=
  have h := W10_read (val9 V); have g := val9_read V
  ⟨h.1.trans (by rw [g.1, g.2.2.2.1, g.2.2.2.2]), h.2.1.trans g.2.1, h.2.2.trans g.2.2.1⟩

/-! ## The run -/

/-- The fold at the result buffer is RefSpec's result of the two arguments' contents. -/
theorem out_eq (V : Valuation τ sig (Elt F)) :
    after ops V (main_v85 : DevRef τ sig) = out (V (main_arg0 : DevRef τ sig)) (V (main_arg1 : DevRef τ sig)) := by
  rw [after_ops, out_fin]
  exact (val10_read V).1

/-- No operation writes an argument. -/
theorem arg0_eq (V : Valuation τ sig (Elt F)) : after ops V (main_arg0 : DevRef τ sig) = V (main_arg0 : DevRef τ sig) := by
  rw [after_ops]
  exact (val10_read V).2.1

theorem arg1_eq (V : Valuation τ sig (Elt F)) : after ops V (main_arg1 : DevRef τ sig) = V (main_arg1 : DevRef τ sig) := by
  rw [after_ops]
  exact (val10_read V).2.2

/-- On every device, for any float values, from any memory with zero counters: every weakly fair execution of @main
    terminates with the result buffer at RefSpec's result of the two argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = RefSpec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v85).trans (out_eq (launchContents m c)),
      (h c main_arg0).trans (arg0_eq (launchContents m c)),
      (h c main_arg1).trans (arg1_eq (launchContents m c))⟩)
    (run_main m ρ)

/-- The run without its value: every weakly fair execution terminates and the two argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.RefRun

end
-- ==== Proof.FiniteInputs.lean ====
/-
  The precondition read back: where the printed predicate is 1 at its one index, every entry of both argument arrays
  is a real number.

  The predicate is the conjunction of two `all`s, each a reduction by `and` from 1 over all four axes of the
  comparison |x| < +∞ entry by entry. A conjunction of bits is 1 only if both are; a reduction by `and` into one
  index is 1 only if every entry is; and an extended real whose absolute value is below +∞ is neither infinity.
-/
import proofs.«163007_j23742579212666_1_alg».proof.Pre_finite_inputs
import proofs.«163007_j23742579212666_1_alg».proof.Proof.Gen.Pre_finite_inputs
import Idealize.ShloMosaic.Lib.ReduceAll
import Idealize.ShloMosaic.Lib.ValueIdx

namespace Cert.FiniteInputs

open Idealize.ShloMosaic Cert.Pre_finite_inputs Cert.Pre_finite_inputs.Gen

/-- The scalar shape has one index. -/
instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real number: at either infinity the absolute
    value is +∞, which is not below itself. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One `all`: if the reduction by `and` of |x| < +∞ over every axis is 1, every entry of `x` is real. -/
theorem real_of_all (x : FVec Ideal S32x1x512x1024 .f32)
    (h : Host.reduce IntOp.andi
        (cmpf .olt (Host.absf x) (broadcastInDim S32x1x512x1024 ![] bcast_S_S32x1x512x1024 (constant (F := Ideal) S_ .f32 0x7F800000#32)))
        (constantI S_ 1 1#1) reducesTo_S32x1x512x1024_S_d0_1_2_3 h_S_ ValueIdx.ix0 = 1#1) (i : S32x1x512x1024.Idx) :
    ∃ r : ℝ, x i = (r : EReal) :=
  real_of_abs_lt (x i) (Host.reduce_andi_all _ _ _ _ _ h i)

/-- Under the precondition both argument arrays are real at every index. -/
theorem real_of_pre (p t : FVec Ideal S32x1x512x1024 .f32) (h : Cert.Pre_finite_inputs.fn (F := Ideal) p t = fun _ => 1#1) :
    (∀ i, ∃ r : ℝ, p i = (r : EReal)) ∧ (∀ i, ∃ r : ℝ, t i = (r : EReal)) := by
  have h0 := congrFun h ValueIdx.ix0
  dsimp only [Cert.Pre_finite_inputs.fn] at h0
  obtain ⟨hp, ht⟩ := IntOp.andi_eq_one.1 h0
  exact ⟨real_of_all p hp, real_of_all t ht⟩

end Cert.FiniteInputs
-- ==== Proof.LibLastAxis.lean ====
/-
  Rank-four arrays read along their LAST axis at an index given by coordinates.

  A unit-stride slice along the last axis, the reversal of a last axis of extent one, and a two-piece concatenation
  along the last axis, each read at `ix4 a b c j`; then the extension of the last axis by its own end entries
  (the first entry repeated in front, the last entry repeated behind), read at `ix4 a b c j`: position `j` of the
  extended axis holds entry `min (j - 1) (n - 1)` of the axis. Everything is stated for any element type and any
  extents, so one reading serves arrays of extended reals, of reals and of words.
-/
import Idealize.ShloMosaic.Lib.Pipeline.Value
import Idealize.ShloMosaic.Lib.ValueIdx

namespace Cert.LibLastAxis

open Idealize.ShloMosaic Idealize.ShloMosaic.ValueIdx

variable {α : Type}

/-- A rank-4 array cut along axis 3 from `o` reads, at `(a, b, c, j)`, the source at `(a, b, c, k)` with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- Reversing a last axis of extent one changes nothing. -/
theorem reverse4_axis3_unit_apply {n0 n1 n2 : Nat} (X : (⟨4, ![n0, n1, n2, 1]⟩ : Shape).Idx → α)
    (a : Fin n0) (b : Fin n1) (c : Fin n2) (j : Fin 1) :
    Host.reverse (s := ⟨4, ![n0, n1, n2, 1]⟩) [3] X (ix4 a b c j) = X (ix4 a b c j) := by
  unfold Host.reverse
  refine congrArg X (funext fun e => ?_)
  match e with
  | ⟨0, _⟩ => exact if_neg fun hm => absurd (congrArg Fin.val (List.mem_singleton.1 hm)) (show ¬ (0 : ℕ) = 3 by decide)
  | ⟨1, _⟩ => exact if_neg fun hm => absurd (congrArg Fin.val (List.mem_singleton.1 hm)) (show ¬ (1 : ℕ) = 3 by decide)
  | ⟨2, _⟩ => exact if_neg fun hm => absurd (congrArg Fin.val (List.mem_singleton.1 hm)) (show ¬ (2 : ℕ) = 3 by decide)
  | ⟨3, _⟩ => exact (if_pos (List.mem_singleton.2 (Fin.ext rfl))).trans (Subsingleton.elim (α := Fin 1) _ _)

/-- Two arrays laid end to end along axis 3, read in the first piece. -/
theorem concat4_axis3_left {n0 n1 n2 m1 m2 m : Nat} (X1 : (⟨4, ![n0, n1, n2, m1]⟩ : Shape).Idx → α)
    (X2 : (⟨4, ![n0, n1, n2, m2]⟩ : Shape).Idx → α)
    (h : Shape.Concatenates [⟨4, ![n0, n1, n2, m1]⟩, ⟨4, ![n0, n1, n2, m2]⟩] ⟨4, ![n0, n1, n2, m]⟩ 3)
    (a : Fin n0) (b : Fin n1) (c : Fin n2) (j : Fin m) (k : Fin m1) (hk : k.val = j.val) :
    concatenate ⟨4, ![n0, n1, n2, m]⟩ 3 [⟨⟨4, ![n0, n1, n2, m1]⟩, X1⟩, ⟨⟨4, ![n0, n1, n2, m2]⟩, X2⟩] h (ix4 a b c j)
      = X1 (ix4 a b c k) :=
  concatenate_pair_apply_left 3 X1 X2 h (ix4 a b c j) rfl (ix4 a b c k) (fun e => by
    match e with
    | ⟨0, _⟩ => rfl
    | ⟨1, _⟩ => rfl
    | ⟨2, _⟩ => rfl
    | ⟨3, _⟩ => exact hk)

/-- Two arrays laid end to end along axis 3, read in the second piece: the position less the first piece's extent. -/
theorem concat4_axis3_right {n0 n1 n2 m1 m2 m : Nat} (X1 : (⟨4, ![n0, n1, n2, m1]⟩ : Shape).Idx → α)
    (X2 : (⟨4, ![n0, n1, n2, m2]⟩ : Shape).Idx → α)
    (h : Shape.Concatenates [⟨4, ![n0, n1, n2, m1]⟩, ⟨4, ![n0, n1, n2, m2]⟩] ⟨4, ![n0, n1, n2, m]⟩ 3)
    (a : Fin n0) (b : Fin n1) (c : Fin n2) (j : Fin m) (k : Fin m2) (hk : k.val + m1 = j.val) :
    concatenate ⟨4, ![n0, n1, n2, m]⟩ 3 [⟨⟨4, ![n0, n1, n2, m1]⟩, X1⟩, ⟨⟨4, ![n0, n1, n2, m2]⟩, X2⟩] h (ix4 a b c j)
      = X2 (ix4 a b c k) :=
  concatenate_pair_apply_right 3 X1 X2 h (ix4 a b c j) rfl rfl (ix4 a b c k) (fun e he => by
    match e with
    | ⟨0, _⟩ => rfl
    | ⟨1, _⟩ => rfl
    | ⟨2, _⟩ => rfl
    | ⟨3, _⟩ => exact absurd rfl he) hk

/-! ## The last axis extended by its own end entries -/

section SymPad
variable {n0 n1 n2 n : Nat}

/-- The array with the first entry of its last axis repeated in front. -/
def padFront (X : (⟨4, ![n0, n1, n2, n]⟩ : Shape).Idx → α)
    (h0 : (⟨4, ![n0, n1, n2, n]⟩ : Shape).Slices ![0, 0, 0, 0] ⟨4, ![n0, n1, n2, 1]⟩)
    (hc : Shape.Concatenates [⟨4, ![n0, n1, n2, 1]⟩, ⟨4, ![n0, n1, n2, n]⟩] ⟨4, ![n0, n1, n2, n + 1]⟩ 3) :
    (⟨4, ![n0, n1, n2, n + 1]⟩ : Shape).Idx → α :=
  concatenate ⟨4, ![n0, n1, n2, n + 1]⟩ 3
    [⟨⟨4, ![n0, n1, n2, 1]⟩, Host.reverse (s := ⟨4, ![n0, n1, n2, 1]⟩) [3]
        (extractStridedSlice ⟨4, ![n0, n1, n2, 1]⟩ ![0, 0, 0, 0] X h0)⟩,
      ⟨⟨4, ![n0, n1, n2, n]⟩, X⟩] hc

/-- The array with the first entry of its last axis repeated in front and the last entry repeated behind. -/
def symPad (X : (⟨4, ![n0, n1, n2, n]⟩ : Shape).Idx → α)
    (h0 : (⟨4, ![n0, n1, n2, n]⟩ : Shape).Slices ![0, 0, 0, 0] ⟨4, ![n0, n1, n2, 1]⟩)
    (hc : Shape.Concatenates [⟨4, ![n0, n1, n2, 1]⟩, ⟨4, ![n0, n1, n2, n]⟩] ⟨4, ![n0, n1, n2, n + 1]⟩ 3)
    (hN : (⟨4, ![n0, n1, n2, n + 1]⟩ : Shape).Slices ![0, 0, 0, n] ⟨4, ![n0, n1, n2, 1]⟩)
    (hc' : Shape.Concatenates [⟨4, ![n0, n1, n2, n + 1]⟩, ⟨4, ![n0, n1, n2, 1]⟩] ⟨4, ![n0, n1, n2, n + 2]⟩ 3) :
    (⟨4, ![n0, n1, n2, n + 2]⟩ : Shape).Idx → α :=
  concatenate ⟨4, ![n0, n1, n2, n + 2]⟩ 3
    [⟨⟨4, ![n0, n1, n2, n + 1]⟩, padFront X h0 hc⟩,
      ⟨⟨4, ![n0, n1, n2, 1]⟩, Host.reverse (s := ⟨4, ![n0, n1, n2, 1]⟩) [3]
        (extractStridedSlice ⟨4, ![n0, n1, n2, 1]⟩ ![0, 0, 0, n] (padFront X h0 hc) hN)⟩] hc'

/-- Position `j` of the front-extended axis holds entry `j - 1` (entry `0` at position `0`). -/
theorem padFront_apply (X : (⟨4, ![n0, n1, n2, n]⟩ : Shape).Idx → α)
    (h0 : (⟨4, ![n0, n1, n2, n]⟩ : Shape).Slices ![0, 0, 0, 0] ⟨4, ![n0, n1, n2, 1]⟩)
    (hc : Shape.Concatenates [⟨4, ![n0, n1, n2, 1]⟩, ⟨4, ![n0, n1, n2, n]⟩] ⟨4, ![n0, n1, n2, n + 1]⟩ 3)
    (a : Fin n0) (b : Fin n1) (c : Fin n2) (j : Fin (n + 1)) (k : Fin n) (hk : k.val = j.val - 1) :
    padFront X h0 hc (ix4 a b c j) = X (ix4 a b c k) := by
  unfold padFront
  by_cases hj : j.val = 0
  · rw [concat4_axis3_left _ _ hc a b c j (⟨0, Nat.one_pos⟩ : Fin 1) hj.symm, reverse4_axis3_unit_apply]
    exact slice4_axis3_apply 0 X h0 a b c _ k (by rw [hk, hj]; rfl)
  · exact concat4_axis3_right _ _ hc a b c j k (by omega)

/-- Position `j` of the extended axis holds entry `min (j - 1) (n - 1)`. -/
theorem symPad_apply (X : (⟨4, ![n0, n1, n2, n]⟩ : Shape).Idx → α)
    (h0 : (⟨4, ![n0, n1, n2, n]⟩ : Shape).Slices ![0, 0, 0, 0] ⟨4, ![n0, n1, n2, 1]⟩)
    (hc : Shape.Concatenates [⟨4, ![n0, n1, n2, 1]⟩, ⟨4, ![n0, n1, n2, n]⟩] ⟨4, ![n0, n1, n2, n + 1]⟩ 3)
    (hN : (⟨4, ![n0, n1, n2, n + 1]⟩ : Shape).Slices ![0, 0, 0, n] ⟨4, ![n0, n1, n2, 1]⟩)
    (hc' : Shape.Concatenates [⟨4, ![n0, n1, n2, n + 1]⟩, ⟨4, ![n0, n1, n2, 1]⟩] ⟨4, ![n0, n1, n2, n + 2]⟩ 3)
    (a : Fin n0) (b : Fin n1) (c : Fin n2) (j : Fin (n + 2)) (k : Fin n) (hk : k.val = min (j.val - 1) (n - 1)) :
    symPad X h0 hc hN hc' (ix4 a b c j) = X (ix4 a b c k) := by
  unfold symPad
  have hkn := k.isLt
  by_cases hj : j.val < n + 1
  · rw [concat4_axis3_left _ _ hc' a b c j (⟨j.val, hj⟩ : Fin (n + 1)) rfl]
    exact padFront_apply X h0 hc a b c _ k (by rw [hk]; show min (j.val - 1) (n - 1) = j.val - 1; omega)
  · have hjn : j.val = n + 1 := by have := j.isLt; omega
    rw [concat4_axis3_right _ _ hc' a b c j (⟨0, Nat.one_pos⟩ : Fin 1) (by show 0 + (n + 1) = j.val; omega),
      reverse4_axis3_unit_apply,
      slice4_axis3_apply n (padFront X h0 hc) hN a b c _ (⟨n, Nat.lt_succ_self n⟩ : Fin (n + 1)) rfl]
    exact padFront_apply X h0 hc a b c _ k (by rw [hk, hjn]; show min (n + 1 - 1) (n - 1) = n - 1; omega)

end SymPad

/-! ## Sums over a rank-four index set, and the transpositions -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

section Transposes
variable {n0 n1 n2 n3 : Nat} (X : (⟨4, ![n0, n1, n2, n3]⟩ : Shape).Idx → α)

/-- Axes (0,1,2,3) → (1,2,3,0): the first axis taken last. -/
theorem transpose4_1230_apply (h : (⟨4, ![n0, n1, n2, n3]⟩ : Shape).Transposes [1, 2, 3, 0] ⟨4, ![n1, n2, n3, n0]⟩)
    (a : Fin n0) (b : Fin n1) (c : Fin n2) (d : Fin n3) :
    transpose ⟨4, ![n1, n2, n3, n0]⟩ [1, 2, 3, 0] X h (ix4 b c d a) = X (ix4 a b c d) :=
  transpose_apply _ X h _ _ fun e => match e with | ⟨0, _⟩ => rfl | ⟨1, _⟩ => rfl | ⟨2, _⟩ => rfl | ⟨3, _⟩ => rfl

/-- Axes (0,1,2,3) → (3,0,1,2): the last axis taken first. -/
theorem transpose4_3012_apply (h : (⟨4, ![n0, n1, n2, n3]⟩ : Shape).Transposes [3, 0, 1, 2] ⟨4, ![n3, n0, n1, n2]⟩)
    (a : Fin n0) (b : Fin n1) (c : Fin n2) (d : Fin n3) :
    transpose ⟨4, ![n3, n0, n1, n2]⟩ [3, 0, 1, 2] X h (ix4 d a b c) = X (ix4 a b c d) :=
  transpose_apply _ X h _ _ fun e => match e with | ⟨0, _⟩ => rfl | ⟨1, _⟩ => rfl | ⟨2, _⟩ => rfl | ⟨3, _⟩ => rfl

/-- Axes (0,1,2,3) → (0,2,3,1): the second axis taken last. -/
theorem transpose4_0231_apply (h : (⟨4, ![n0, n1, n2, n3]⟩ : Shape).Transposes [0, 2, 3, 1] ⟨4, ![n0, n2, n3, n1]⟩)
    (a : Fin n0) (b : Fin n1) (c : Fin n2) (d : Fin n3) :
    transpose ⟨4, ![n0, n2, n3, n1]⟩ [0, 2, 3, 1] X h (ix4 a c d b) = X (ix4 a b c d) :=
  transpose_apply _ X h _ _ fun e => match e with | ⟨0, _⟩ => rfl | ⟨1, _⟩ => rfl | ⟨2, _⟩ => rfl | ⟨3, _⟩ => rfl

/-- Axes (0,1,2,3) → (0,3,1,2): the last axis taken second. -/
theorem transpose4_0312_apply (h : (⟨4, ![n0, n1, n2, n3]⟩ : Shape).Transposes [0, 3, 1, 2] ⟨4, ![n0, n3, n1, n2]⟩)
    (a : Fin n0) (b : Fin n1) (c : Fin n2) (d : Fin n3) :
    transpose ⟨4, ![n0, n3, n1, n2]⟩ [0, 3, 1, 2] X h (ix4 a d b c) = X (ix4 a b c d) :=
  transpose_apply _ X h _ _ fun e => match e with | ⟨0, _⟩ => rfl | ⟨1, _⟩ => rfl | ⟨2, _⟩ => rfl | ⟨3, _⟩ => rfl

/-- Axes (0,1,2,3) → (0,1,3,2): the last two axes exchanged. -/
theorem transpose4_0132_apply (h : (⟨4, ![n0, n1, n2, n3]⟩ : Shape).Transposes [0, 1, 3, 2] ⟨4, ![n0, n1, n3, n2]⟩)
    (a : Fin n0) (b : Fin n1) (c : Fin n2) (d : Fin n3) :
    transpose ⟨4, ![n0, n1, n3, n2]⟩ [0, 1, 3, 2] X h (ix4 a b d c) = X (ix4 a b c d) :=
  transpose_apply _ X h _ _ fun e => match e with | ⟨0, _⟩ => rfl | ⟨1, _⟩ => rfl | ⟨2, _⟩ => rfl | ⟨3, _⟩ => rfl

end Transposes

/-! ## One row: the two filters summed over a row extended by its end entries

A row of `m + 1` entries `r 0 … r m`; position `k` of its extension holds `r (min (k - 1) m)`. -/

section Rows
variable {R : Type*} [CommRing R]

private theorem row_mid (r : ℕ → R) (m : ℕ) :
    ∑ j ∈ Finset.range (m + 1), r (min (j + 1 - 1) m) = ∑ j ∈ Finset.range (m + 1), r j :=
  Finset.sum_congr rfl fun j hj => by
    have := Finset.mem_range.1 hj
    congr 1; omega

private theorem row_lo (r : ℕ → R) (m : ℕ) :
    ∑ j ∈ Finset.range (m + 1), r (min (j - 1) m) = ∑ j ∈ Finset.range m, r j + r 0 := by
  rw [Finset.sum_range_succ']
  congr 1
  exact Finset.sum_congr rfl fun j hj => by
    have := Finset.mem_range.1 hj
    congr 1; omega

private theorem row_hi (r : ℕ → R) (m : ℕ) :
    ∑ j ∈ Finset.range (m + 1), r (min (j + 2 - 1) m) = ∑ j ∈ Finset.range m, r (j + 1) + r m := by
  rw [Finset.sum_range_succ]
  congr 1
  · exact Finset.sum_congr rfl fun j hj => by
      have := Finset.mem_range.1 hj
      congr 1; omega
  · congr 1; omega

/-- The smoothing filter `e (j) + 2 e (j + 1) + e (j + 2)` summed over a row is four times the row's sum: the two
    repeated end entries make up exactly for the two entries each outer tap misses. -/
theorem smooth_row_sum (r : ℕ → R) (m : ℕ) :
    ∑ j ∈ Finset.range (m + 1), (r (min (j - 1) m) + 2 * r (min (j + 1 - 1) m) + r (min (j + 2 - 1) m))
      = 4 * ∑ j ∈ Finset.range (m + 1), r j := by
  have ha : ∑ j ∈ Finset.range (m + 1), r j = ∑ j ∈ Finset.range m, r j + r m := Finset.sum_range_succ _ _
  have hb : ∑ j ∈ Finset.range (m + 1), r j = ∑ j ∈ Finset.range m, r (j + 1) + r 0 := Finset.sum_range_succ' _ _
  rw [Finset.sum_add_distrib, Finset.sum_add_distrib, ← Finset.mul_sum, row_lo, row_mid, row_hi]
  linear_combination (-1 : R) * ha + (-1 : R) * hb

/-- The difference filter `e (j + 2) - e (j)` summed over a row telescopes to twice the last entry less the first. -/
theorem deriv_row_sum (r : ℕ → R) (m : ℕ) :
    ∑ j ∈ Finset.range (m + 1), (r (min (j + 2 - 1) m) - r (min (j - 1) m)) = 2 * (r m - r 0) := by
  have ha : ∑ j ∈ Finset.range (m + 1), r j = ∑ j ∈ Finset.range m, r j + r m := Finset.sum_range_succ _ _
  have hb : ∑ j ∈ Finset.range (m + 1), r j = ∑ j ∈ Finset.range m, r (j + 1) + r 0 := Finset.sum_range_succ' _ _
  rw [Finset.sum_sub_distrib, row_lo, row_hi]
  linear_combination ha - hb

end Rows

end Cert.LibLastAxis
-- ==== Proof.LibBitCount.lean ====
/-
  Counting one-bit words with 32-bit wrapping addition.

  A word of one bit widened to 32 bits is the word of the number 0 or 1. Wrapping addition of words of numbers is the
  word of the numbers' sum; so the fold of wrapping addition from the zero word over a finite family of widened bits
  is the word of the number of ones. With fewer than 2³¹ members that number is below 2³¹, so the word read as a
  SIGNED integer is the number itself: the wrapping sum, read signed, is the number of ones — and, cast to the reals
  and on to the extended reals, the sum of the members' own signed readings.
-/
import Idealize.ShloMosaic.PureOps.Reduce
import Idealize.ShloMosaic.PureOps.Ideal

open scoped BigOperators

namespace Cert.LibBitCount

open Idealize.ShloMosaic

variable {ι : Type}

/-- The coercion of the reals into the extended reals carries a finite sum to the sum of the coercions. -/
theorem coe_sum (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- Wrapping addition folded from the zero word over the words of natural numbers is the word of their sum. -/
theorem fold_addi_ofNat (S : Finset ι) (k : ι → ℕ) :
    S.fold IntOp.addi 0#32 (fun i => BitVec.ofNat 32 (k i)) = BitVec.ofNat 32 (∑ i ∈ S, k i) := by
  induction S using Finset.cons_induction with
  | empty => rfl
  | cons a S ha ih =>
    rw [Finset.fold_cons, Finset.sum_cons, ih]
    exact (BitVec.ofNat_add _ _).symm

/-- The 32-bit word of a number below 2³¹, read as a signed integer, is the number. -/
theorem toInt_ofNat_of_lt (n : ℕ) (h : n < 2 ^ 31) : (BitVec.ofNat 32 n).toInt = (n : ℤ) := by
  rw [BitVec.toInt_eq_toNat_cond, BitVec.toNat_ofNat]
  have h32 : n % 2 ^ 32 = n := Nat.mod_eq_of_lt (by omega)
  rw [h32, if_pos (by omega)]

/-- A bit widened to 32 bits is the word of the bit's number. -/
theorem setWidth_eq_ofNat (b : BitVec 1) : b.setWidth 32 = BitVec.ofNat 32 b.toNat :=
  (BitVec.ofNat_toNat 32 b).symm

/-- A widened bit, read as a signed integer, is the bit's number (0 or 1). -/
theorem toInt_setWidth (b : BitVec 1) : (b.setWidth 32).toInt = (b.toNat : ℤ) := by
  rw [setWidth_eq_ofNat]
  exact toInt_ofNat_of_lt _ (by have := b.isLt; omega)

/-- The 32-bit wrapping sum of fewer than 2³¹ widened bits, read as a signed integer, is the number of ones. -/
theorem toInt_fold_bits (S : Finset ι) (x : ι → BitVec 1) (hS : S.card < 2 ^ 31) :
    (S.fold IntOp.addi 0#32 (fun i => (x i).setWidth 32)).toInt = ((∑ i ∈ S, (x i).toNat : ℕ) : ℤ) := by
  have e : (fun i => (x i).setWidth 32) = fun i => BitVec.ofNat 32 (x i).toNat :=
    funext fun i => setWidth_eq_ofNat (x i)
  rw [e, fold_addi_ofNat]
  refine toInt_ofNat_of_lt _ (lt_of_le_of_lt ?_ hS)
  calc ∑ i ∈ S, (x i).toNat ≤ ∑ _i ∈ S, 1 := Finset.sum_le_sum fun i _ => by have := (x i).isLt; omega
    _ = S.card := by simp

/-- The same on the extended reals: the wrapping sum read signed and cast is the sum of the members' own readings. -/
theorem count_bits (S : Finset ι) (x : ι → BitVec 1) (hS : S.card < 2 ^ 31) :
    ((((S.fold IntOp.addi 0#32 (fun i => (x i).setWidth 32)).toInt : ℤ) : ℝ) : EReal)
      = ∑ i ∈ S, (((((x i).setWidth 32).toInt : ℤ) : ℝ) : EReal) := by
  rw [toInt_fold_bits S x hS, ← coe_sum]
  congr 1
  rw [Int.cast_natCast, Nat.cast_sum]
  exact Finset.sum_congr rfl fun i _ => by rw [toInt_setWidth, Int.cast_natCast]

end Cert.LibBitCount
-- ==== Proof.MaeBridge.lean ====
/-
  The masked mean of squares, two ways: RefSpec's host operations, and the closed sums of the kernel's value.

  At the ideal values the host's float sum from the zero word over every axis is 0 plus the sum of all entries, and a
  sum over the rank-four index set is the fourfold sum over its coordinates, the channel axis having one coordinate;
  entry by entry the masked square is the kernel's summand. The host's integer sum of the widened validity bits is a
  fold of 32-bit wrapping addition from the zero word over all entries: fewer than 2³¹ of them, so read as a signed
  integer and cast it is the sum of the entries' own readings, the kernel's count. The quotient of the two is the claim.
-/
import proofs.«163007_j23742579212666_1_alg».proof.Proof.RefSpec
import proofs.«163007_j23742579212666_1_alg».proof.Proof.KSpec
import proofs.«163007_j23742579212666_1_alg».proof.Proof.LibLastAxis
import proofs.«163007_j23742579212666_1_alg».proof.Proof.LibBitCount
import Idealize.ShloMosaic.Lib.IdealHost
import Idealize.ShloMosaic.PureOps.Reduce

open scoped BigOperators

namespace Cert.MaeBridge

open Idealize.ShloMosaic Idealize.ShloMosaic.ValueIdx Cert.ReferenceIdeal Cert.ReferenceIdeal.Gen Cert.ReferenceIdeal.RefSpec
  Cert.KernelIdeal.KValue

/-- The scalar shape has one index. -/
instance : Subsingleton S_.Idx := ⟨fun a b => funext fun d => d.elim0⟩

/-- The float sum: the host's sum of the masked squares from the zero word, at its one index, is the kernel's sum of
    squares over the valid entries. -/
theorem sum_eq (p t : FVec Ideal S32x1x512x1024 .f32) (j : S_.Idx) :
    Host.reduceAdd (masked p t) (zeroS (F := Ideal)) reducesTo_S32x1x512x1024_S_d0_1_2_3 h_S_ j = sumsq p t := by
  rw [hostReduceAdd_apply, Ideal.hostReduceAdd_total _ (fun b => b.elim0)]
  have hz : (zeroS (F := Ideal)) (Shape.Idx.first h_S_) = 0 := Ideal.ofBits_zero_f32
  rw [hz, zero_add]
  refine (Cert.LibLastAxis.sum_idx4 _).trans ?_
  unfold sumsq
  refine Finset.sum_congr rfl fun b _ => ?_
  rw [Fin.sum_univ_one]
  exact Finset.sum_congr rfl fun h _ => Finset.sum_congr rfl fun w _ => rfl

/-- The number of entries of an argument array: 2²⁴. -/
theorem card_idx : (Finset.univ : Finset S32x1x512x1024.Idx).card = 2 ^ 24 := by
  rw [Finset.card_univ, Fintype.card_congr (Cert.LibLastAxis.idxEquiv4 (n0 := 32) (n1 := 1) (n2 := 512) (n3 := 1024))]
  simp only [Fintype.card_prod, Fintype.card_fin]
  norm_num

/-- The count: the host's integer sum of the widened validity bits, converted to a float, at its one index, is the
    kernel's number of valid entries. -/
theorem count_eq (p t : FVec Ideal S32x1x512x1024 .f32) (j : S_.Idx) :
    (sitofp .f32 (RefSpec.count (F := Ideal) t) : FVec Ideal S_ .f32) j = nvalid p t := by
  show ((((RefSpec.count (F := Ideal) t j).toInt : ℤ) : ℝ) : EReal) = nvalid p t
  unfold RefSpec.count
  rw [Host.reduce_eq_fold, Finset.filter_true_of_mem fun i _ => Subsingleton.elim _ _]
  refine (Cert.LibBitCount.count_bits Finset.univ (fun i => valid (F := Ideal) t i) (by rw [card_idx]; norm_num)).trans ?_
  refine (Cert.LibLastAxis.sum_idx4 _).trans ?_
  unfold nvalid
  refine Finset.sum_congr rfl fun b _ => ?_
  rw [Fin.sum_univ_one]
  exact Finset.sum_congr rfl fun h _ => Finset.sum_congr rfl fun w _ => rfl

/-- RefSpec's masked mean is the kernel's sum of squares over its count, at every index of the scalar. -/
theorem mae_eq (p t : FVec Ideal S32x1x512x1024 .f32) :
    Cert.ReferenceIdeal.RefSpec.mae (F := Ideal) p t
      = fun _ => Ideal.div (Cert.KernelIdeal.KValue.sumsq p t) (Cert.KernelIdeal.KValue.nvalid p t) := by
  funext j
  unfold mae
  rw [hostDivf_apply, sum_eq, count_eq p t]

end Cert.MaeBridge
-- ==== Proof.Consts.lean ====
/-
  The float constants the two programs spell, as the extended reals their patterns denote: the smoothing filter's
  centre weight `2`, the kernel's factor `128 = 4 · 4 · 4 · 2`, the number of entries `2²⁴ = 32 · 1 · 512 · 1024`, and
  the loss weight `0.3`, of which only that it is a real number matters.
-/
import Idealize.ShloMosaic.PureOps.Ideal

noncomputable section

namespace Cert.Consts

open Idealize.ShloMosaic

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_2p24 : Ideal.ofBits .f32 0x4B800000#32 = ((16777216 : ℝ) : EReal) := by
  simp [Ideal.ofBits, Ideal.ieee, -EReal.coe_mul]; norm_num

/-- The weight `0.3` (the nearest single-precision number to it) is a real number. -/
theorem ofBits_w03 : Ideal.ofBits .f32 0x3E99999A#32 = ((10066330 / 33554432 : ℝ) : EReal) := by
  simp [Ideal.ofBits, Ideal.ieee, -EReal.coe_mul]; norm_num

end Cert.Consts

end
-- ==== Proof.RefReal.lean ====
/-
  The reference's filters on arrays of REAL numbers.

  An array whose every entry is a real number stays so through each stage of `sobel`, and the reals it holds are
  computed by the same filter on real numbers: the difference filter `f (w + 1) - f (w - 1)` and the smoothing filter
  `f (k - 1) + 2 f (k) + f (k + 1)` along a last axis extended by its end entries, and the transpositions that carry
  an axis to the last place and back. Summed over all entries, a smoothing filter multiplies the total by `4`
  (the repeated end entries make up for what the outer taps miss), a transposition leaves it alone, and the
  difference filter telescopes to twice (last column less first column): so the total of `sobel` is
  `4 · 4 · 4 · 2 = 128` times the sum over rows of (last entry less first entry).
-/
import proofs.«163007_j23742579212666_1_alg».proof.Proof.RefSpec
import proofs.«163007_j23742579212666_1_alg».proof.Proof.LibLastAxis
import proofs.«163007_j23742579212666_1_alg».proof.Proof.Consts
import Idealize.ShloMosaic.PureOps.Ideal

noncomputable section

namespace Cert.ReferenceIdeal.RefReal

open Idealize.ShloMosaic Idealize.ShloMosaic.ValueIdx Cert.LibLastAxis

/-! ## Rows of reals and the two filters on them -/

/-- A row read at any natural position: zero past its end. -/
def ext {n : ℕ} (v : Fin n → ℝ) (k : ℕ) : ℝ := if h : k < n then v ⟨k, h⟩ else 0

theorem ext_of_lt {n : ℕ} (v : Fin n → ℝ) {k : ℕ} (h : k < n) : ext v k = v ⟨k, h⟩ := dif_pos h

variable {A B C n : ℕ}

/-- The difference filter along the last axis: `f (j + 1) - f (j - 1)`, end entries repeated. -/
def dR (f : Fin A → Fin B → Fin C → Fin n → ℝ) : Fin A → Fin B → Fin C → Fin n → ℝ :=
  fun a b c j => ext (f a b c) (min (j.val + 2 - 1) (n - 1)) - ext (f a b c) (min (j.val - 1) (n - 1))

/-- The smoothing filter along the last axis: `f (j - 1) + 2 f (j) + f (j + 1)`, end entries repeated. -/
def sR (f : Fin A → Fin B → Fin C → Fin n → ℝ) : Fin A → Fin B → Fin C → Fin n → ℝ :=
  fun a b c j => ext (f a b c) (min (j.val - 1) (n - 1)) + 2 * ext (f a b c) (min (j.val + 1 - 1) (n - 1))
    + ext (f a b c) (min (j.val + 2 - 1) (n - 1))

theorem sum_ext (v : Fin n → ℝ) : ∑ j ∈ Finset.range n, ext v j = ∑ j : Fin n, v j := by
  rw [← Fin.sum_univ_eq_sum_range]
  exact Finset.sum_congr rfl fun j _ => ext_of_lt v j.isLt

/-- Summed along the row, the smoothing filter is four times the row's sum. -/
theorem sum_sR (hn : 0 < n) (f : Fin A → Fin B → Fin C → Fin n → ℝ) (a : Fin A) (b : Fin B) (c : Fin C) :
    ∑ j : Fin n, sR f a b c j = 4 * ∑ j : Fin n, f a b c j := by
  obtain ⟨m, rfl⟩ : ∃ m, n = m + 1 := ⟨n - 1, by omega⟩
  unfold sR
  rw [show m + 1 - 1 = m from Nat.add_sub_cancel m 1]
  rw [Fin.sum_univ_eq_sum_range (fun k => ext (f a b c) (min (k - 1) m) + 2 * ext (f a b c) (min (k + 1 - 1) m)
        + ext (f a b c) (min (k + 2 - 1) m)) (m + 1), smooth_row_sum, sum_ext]

/-- Summed along the row, the difference filter is twice (last entry less first entry). -/
theorem sum_dR (hn : 0 < n) (f : Fin A → Fin B → Fin C → Fin n → ℝ) (a : Fin A) (b : Fin B) (c : Fin C)
    (last first : Fin n) (hl : last.val = n - 1) (hf : first.val = 0) :
    ∑ j : Fin n, dR f a b c j = 2 * (f a b c last - f a b c first) := by
  obtain ⟨m, rfl⟩ : ∃ m, n = m + 1 := ⟨n - 1, by omega⟩
  have hm : m + 1 - 1 = m := Nat.add_sub_cancel m 1
  have e1 : (⟨m, Nat.lt_succ_self m⟩ : Fin (m + 1)) = last := Fin.ext (by rw [hl, hm])
  have e2 : (⟨0, Nat.succ_pos m⟩ : Fin (m + 1)) = first := Fin.ext hf.symm
  unfold dR
  rw [hm, Fin.sum_univ_eq_sum_range (fun k => ext (f a b c) (min (k + 2 - 1) m) - ext (f a b c) (min (k - 1) m)) (m + 1),
    deriv_row_sum, ext_of_lt _ (Nat.lt_succ_self m), ext_of_lt _ (Nat.succ_pos m), e1, e2]

/-! ## Arrays of extended reals that hold reals -/

/-- Every entry of `X` is the real number `f` gives at its coordinates. -/
def Holds (X : (⟨4, ![A, B, C, n]⟩ : Shape).Idx → EReal) (f : Fin A → Fin B → Fin C → Fin n → ℝ) : Prop :=
  ∀ a b c d, X (ix4 a b c d) = ((f a b c d : ℝ) : EReal)

section Transpositions
variable {X : (⟨4, ![A, B, C, n]⟩ : Shape).Idx → EReal} {f : Fin A → Fin B → Fin C → Fin n → ℝ}

theorem holds_1230 (h : (⟨4, ![A, B, C, n]⟩ : Shape).Transposes [1, 2, 3, 0] ⟨4, ![B, C, n, A]⟩) (hX : Holds X f) :
    Holds (transpose ⟨4, ![B, C, n, A]⟩ [1, 2, 3, 0] X h) (fun b c d a => f a b c d) :=
  fun b c d a => (transpose4_1230_apply X h a b c d).trans (hX a b c d)

theorem holds_3012 (h : (⟨4, ![A, B, C, n]⟩ : Shape).Transposes [3, 0, 1, 2] ⟨4, ![n, A, B, C]⟩) (hX : Holds X f) :
    Holds (transpose ⟨4, ![n, A, B, C]⟩ [3, 0, 1, 2] X h) (fun d a b c => f a b c d) :=
  fun d a b c => (transpose4_3012_apply X h a b c d).trans (hX a b c d)

theorem holds_0231 (h : (⟨4, ![A, B, C, n]⟩ : Shape).Transposes [0, 2, 3, 1] ⟨4, ![A, C, n, B]⟩) (hX : Holds X f) :
    Holds (transpose ⟨4, ![A, C, n, B]⟩ [0, 2, 3, 1] X h) (fun a c d b => f a b c d) :=
  fun a c d b => (transpose4_0231_apply X h a b c d).trans (hX a b c d)

theorem holds_0312 (h : (⟨4, ![A, B, C, n]⟩ : Shape).Transposes [0, 3, 1, 2] ⟨4, ![A, n, B, C]⟩) (hX : Holds X f) :
    Holds (transpose ⟨4, ![A, n, B, C]⟩ [0, 3, 1, 2] X h) (fun a d b c => f a b c d) :=
  fun a d b c => (transpose4_0312_apply X h a b c d).trans (hX a b c d)

theorem holds_0132 (h : (⟨4, ![A, B, C, n]⟩ : Shape).Transposes [0, 1, 3, 2] ⟨4, ![A, B, n, C]⟩) (hX : Holds X f) :
    Holds (transpose ⟨4, ![A, B, n, C]⟩ [0, 1, 3, 2] X h) (fun a b d c => f a b c d) :=
  fun a b d c => (transpose4_0132_apply X h a b c d).trans (hX a b c d)

end Transpositions

/-! ## The two filters on extended reals, for any extents -/

section Filters
variable (X : (⟨4, ![A, B, C, n]⟩ : Shape).Idx → EReal)
  (h0 : (⟨4, ![A, B, C, n]⟩ : Shape).Slices ![0, 0, 0, 0] ⟨4, ![A, B, C, 1]⟩)
  (hc : Shape.Concatenates [⟨4, ![A, B, C, 1]⟩, ⟨4, ![A, B, C, n]⟩] ⟨4, ![A, B, C, n + 1]⟩ 3)
  (hN : (⟨4, ![A, B, C, n + 1]⟩ : Shape).Slices ![0, 0, 0, n] ⟨4, ![A, B, C, 1]⟩)
  (hc' : Shape.Concatenates [⟨4, ![A, B, C, n + 1]⟩, ⟨4, ![A, B, C, 1]⟩] ⟨4, ![A, B, C, n + 2]⟩ 3)
  (s0 : (⟨4, ![A, B, C, n + 2]⟩ : Shape).Slices ![0, 0, 0, 0] ⟨4, ![A, B, C, n]⟩)
  (s1 : (⟨4, ![A, B, C, n + 2]⟩ : Shape).Slices ![0, 0, 0, 1] ⟨4, ![A, B, C, n]⟩)
  (s2 : (⟨4, ![A, B, C, n + 2]⟩ : Shape).Slices ![0, 0, 0, 2] ⟨4, ![A, B, C, n]⟩)
  (hb : (⟨0, ![]⟩ : Shape).BroadcastsInDim ⟨4, ![A, B, C, n]⟩ (![] : Fin 0 → Fin 4))

/-- The difference filter as the reference spells it: two slices of the extended array, subtracted. -/
def derivG : (⟨4, ![A, B, C, n]⟩ : Shape).Idx → EReal :=
  subf (F := Ideal) (φ := .f32)
    (extractStridedSlice ⟨4, ![A, B, C, n]⟩ ![0, 0, 0, 2] (symPad X h0 hc hN hc') s2)
    (extractStridedSlice ⟨4, ![A, B, C, n]⟩ ![0, 0, 0, 0] (symPad X h0 hc hN hc') s0)

/-- The smoothing filter as the reference spells it: three slices of the extended array, the middle one doubled. -/
def smoothG : (⟨4, ![A, B, C, n]⟩ : Shape).Idx → EReal :=
  addf (F := Ideal) (φ := .f32)
    (addf (F := Ideal) (φ := .f32) (extractStridedSlice ⟨4, ![A, B, C, n]⟩ ![0, 0, 0, 0] (symPad X h0 hc hN hc') s0)
      (mulf (F := Ideal) (φ := .f32)
        (broadcastInDim ⟨4, ![A, B, C, n]⟩ ![] hb (constant (F := Ideal) ⟨0, ![]⟩ .f32 0x40000000#32))
        (extractStridedSlice ⟨4, ![A, B, C, n]⟩ ![0, 0, 0, 1] (symPad X h0 hc hN hc') s1)))
    (extractStridedSlice ⟨4, ![A, B, C, n]⟩ ![0, 0, 0, 2] (symPad X h0 hc hN hc') s2)

variable {X} {f : Fin A → Fin B → Fin C → Fin n → ℝ}

/-- Position `k` of the extended axis, read where the array holds reals. -/
theorem symPad_holds (hn : 0 < n) (hX : Holds X f) (a : Fin A) (b : Fin B) (c : Fin C) (k : Fin (n + 2)) :
    symPad X h0 hc hN hc' (ix4 a b c k) = ((ext (f a b c) (min (k.val - 1) (n - 1)) : ℝ) : EReal) := by
  have hlt : min (k.val - 1) (n - 1) < n := by omega
  rw [symPad_apply X h0 hc hN hc' a b c k ⟨min (k.val - 1) (n - 1), hlt⟩ rfl, hX, ext_of_lt _ hlt]

theorem derivG_holds (hn : 0 < n) (hX : Holds X f) : Holds (derivG X h0 hc hN hc' s0 s2) (dR f) := by
  intro a b c j
  show extractStridedSlice ⟨4, ![A, B, C, n]⟩ ![0, 0, 0, 2] (symPad X h0 hc hN hc') s2 (ix4 a b c j)
      - extractStridedSlice ⟨4, ![A, B, C, n]⟩ ![0, 0, 0, 0] (symPad X h0 hc hN hc') s0 (ix4 a b c j) = _
  rw [slice4_axis3_apply 2 _ s2 a b c j (⟨j.val + 2, by omega⟩ : Fin (n + 2)) (Nat.add_comm _ _),
    slice4_axis3_apply 0 _ s0 a b c j (⟨j.val, by omega⟩ : Fin (n + 2)) (Nat.zero_add _).symm,
    symPad_holds h0 hc hN hc' hn hX, symPad_holds h0 hc hN hc' hn hX, ← EReal.coe_sub]
  rfl

theorem smoothG_holds (hn : 0 < n) (hX : Holds X f) : Holds (smoothG X h0 hc hN hc' s0 s1 s2 hb) (sR f) := by
  intro a b c j
  show extractStridedSlice ⟨4, ![A, B, C, n]⟩ ![0, 0, 0, 0] (symPad X h0 hc hN hc') s0 (ix4 a b c j)
      + Ideal.ofBits .f32 0x40000000#32
        * extractStridedSlice ⟨4, ![A, B, C, n]⟩ ![0, 0, 0, 1] (symPad X h0 hc hN hc') s1 (ix4 a b c j)
      + extractStridedSlice ⟨4, ![A, B, C, n]⟩ ![0, 0, 0, 2] (symPad X h0 hc hN hc') s2 (ix4 a b c j) = _
  rw [slice4_axis3_apply 0 _ s0 a b c j (⟨j.val, by omega⟩ : Fin (n + 2)) (Nat.zero_add _).symm,
    slice4_axis3_apply 1 _ s1 a b c j (⟨j.val + 1, by omega⟩ : Fin (n + 2)) (Nat.add_comm _ _),
    slice4_axis3_apply 2 _ s2 a b c j (⟨j.val + 2, by omega⟩ : Fin (n + 2)) (Nat.add_comm _ _),
    symPad_holds h0 hc hN hc' hn hX, symPad_holds h0 hc hN hc' hn hX, symPad_holds h0 hc hN hc' hn hX,
    Cert.Consts.ofBits_two, ← EReal.coe_mul, ← EReal.coe_add, ← EReal.coe_add]
  rfl

end Filters

end Cert.ReferenceIdeal.RefReal

end
-- ==== Proof.SobelReal.lean ====
/-
  `sobel` on an array that holds reals, and its total.

  The stages of `sobel` at the reference's shapes — the difference filter on [32, 1, 512, 1024], the batch axis
  carried last ([1, 512, 1024, 32]) and smoothed, carried back and the channel axis carried last ([32, 512, 1024, 1])
  and smoothed, carried back and the height carried last ([32, 1, 1024, 512]) and smoothed, carried back — keep an
  array of reals an array of reals, holding `sobelR f`. Its total over all entries is `128` times the sum over batch
  and height of (last column less first column): `4` from each smoothing, `2` from the telescoping difference.
-/
import proofs.«163007_j23742579212666_1_alg».proof.Proof.RefReal

noncomputable section

namespace Cert.ReferenceIdeal.SobelReal

open Idealize.ShloMosaic Idealize.ShloMosaic.ValueIdx Cert.LibLastAxis
open Cert.ReferenceIdeal Cert.ReferenceIdeal.Gen Cert.ReferenceIdeal.RefSpec Cert.ReferenceIdeal.RefReal

/-- A four-axis table of reals. -/
abbrev R4 (A B C n : ℕ) : Type := Fin A → Fin B → Fin C → Fin n → ℝ

/-! ## The total of a table, under the filters and the transpositions -/

/-- The sum of all entries. -/
def tot {A B C n : ℕ} (f : R4 A B C n) : ℝ := ∑ a, ∑ b, ∑ c, ∑ d, f a b c d

section Totals
variable {A B C n : ℕ}

theorem tot_sR (hn : 0 < n) (f : R4 A B C n) : tot (sR f) = 4 * tot f := by
  unfold tot
  simp only [sum_sR hn f, ← Finset.mul_sum]

theorem tot_dR (hn : 0 < n) (f : R4 A B C n) (last first : Fin n) (hl : last.val = n - 1) (hf : first.val = 0) :
    tot (dR f) = 2 * ∑ a, ∑ b, ∑ c, (f a b c last - f a b c first) := by
  unfold tot
  simp only [sum_dR hn f _ _ _ last first hl hf, ← Finset.mul_sum]

theorem tot_1230 (f : R4 A B C n) : tot (fun b c d a => f a b c d) = tot f := by
  unfold tot
  calc ∑ b, ∑ c, ∑ d, ∑ a, f a b c d
      = ∑ b, ∑ c, ∑ a, ∑ d, f a b c d :=
        Finset.sum_congr rfl fun b _ => Finset.sum_congr rfl fun c _ => Finset.sum_comm
    _ = ∑ b, ∑ a, ∑ c, ∑ d, f a b c d := Finset.sum_congr rfl fun b _ => Finset.sum_comm
    _ = ∑ a, ∑ b, ∑ c, ∑ d, f a b c d := Finset.sum_comm

theorem tot_3012 (f : R4 A B C n) : tot (fun d a b c => f a b c d) = tot f := by
  unfold tot
  calc ∑ d, ∑ a, ∑ b, ∑ c, f a b c d
      = ∑ a, ∑ d, ∑ b, ∑ c, f a b c d := Finset.sum_comm
    _ = ∑ a, ∑ b, ∑ d, ∑ c, f a b c d := Finset.sum_congr rfl fun a _ => Finset.sum_comm
    _ = ∑ a, ∑ b, ∑ c, ∑ d, f a b c d :=
        Finset.sum_congr rfl fun a _ => Finset.sum_congr rfl fun b _ => Finset.sum_comm

theorem tot_0231 (f : R4 A B C n) : tot (fun a c d b => f a b c d) = tot f := by
  unfold tot
  calc ∑ a, ∑ c, ∑ d, ∑ b, f a b c d
      = ∑ a, ∑ c, ∑ b, ∑ d, f a b c d :=
        Finset.sum_congr rfl fun a _ => Finset.sum_congr rfl fun c _ => Finset.sum_comm
    _ = ∑ a, ∑ b, ∑ c, ∑ d, f a b c d := Finset.sum_congr rfl fun a _ => Finset.sum_comm

theorem tot_0312 (f : R4 A B C n) : tot (fun a d b c => f a b c d) = tot f := by
  unfold tot
  calc ∑ a, ∑ d, ∑ b, ∑ c, f a b c d
      = ∑ a, ∑ b, ∑ d, ∑ c, f a b c d := Finset.sum_congr rfl fun a _ => Finset.sum_comm
    _ = ∑ a, ∑ b, ∑ c, ∑ d, f a b c d :=
        Finset.sum_congr rfl fun a _ => Finset.sum_congr rfl fun b _ => Finset.sum_comm

theorem tot_0132 (f : R4 A B C n) : tot (fun a b d c => f a b c d) = tot f := by
  unfold tot
  exact Finset.sum_congr rfl fun a _ => Finset.sum_congr rfl fun b _ => Finset.sum_comm

end Totals

/-! ## `sobel` on reals, stage by stage -/

def st0 (f : R4 32 1 512 1024) : R4 32 1 512 1024 := dR f
def st1 (f : R4 32 1 512 1024) : R4 1 512 1024 32 := fun b c d a => st0 f a b c d
def st2 (f : R4 32 1 512 1024) : R4 1 512 1024 32 := sR (st1 f)
def st3 (f : R4 32 1 512 1024) : R4 32 1 512 1024 := fun d a b c => st2 f a b c d
def st4 (f : R4 32 1 512 1024) : R4 32 512 1024 1 := fun a c d b => st3 f a b c d
def st5 (f : R4 32 1 512 1024) : R4 32 512 1024 1 := sR (st4 f)
def st6 (f : R4 32 1 512 1024) : R4 32 1 512 1024 := fun a d b c => st5 f a b c d
def st7 (f : R4 32 1 512 1024) : R4 32 1 1024 512 := fun a b d c => st6 f a b c d
def st8 (f : R4 32 1 512 1024) : R4 32 1 1024 512 := sR (st7 f)
/-- The difference filter along the width, then the smoothing filter along batch, channel and height. -/
def sobelR (f : R4 32 1 512 1024) : R4 32 1 512 1024 := fun a b d c => st8 f a b c d

/-- The total of `sobel`: `128` times the sum over batch and height of (last column less first column). -/
theorem tot_sobelR (f : R4 32 1 512 1024) :
    tot (sobelR f) = 128 * ∑ a : Fin 32, ∑ c : Fin 512, (f a 0 c 1023 - f a 0 c 0) := by
  unfold sobelR
  rw [tot_0132 (st8 f)]
  unfold st8
  rw [tot_sR (by decide)]
  unfold st7
  rw [tot_0132 (st6 f)]
  unfold st6
  rw [tot_0312 (st5 f)]
  unfold st5
  rw [tot_sR (by decide)]
  unfold st4
  rw [tot_0231 (st3 f)]
  unfold st3
  rw [tot_3012 (st2 f)]
  unfold st2
  rw [tot_sR (by decide)]
  unfold st1
  rw [tot_1230 (st0 f)]
  unfold st0
  rw [tot_dR (by decide) f (1023 : Fin 1024) (0 : Fin 1024) rfl rfl]
  simp only [Fin.sum_univ_one]
  ring

/-! ## The reference's stages keep an array of reals an array of reals -/

theorem derivW_holds {x : FVec Ideal S32x1x512x1024 .f32} {f : R4 32 1 512 1024} (hx : Holds x f) :
    Holds (derivW (F := Ideal) x) (dR f) :=
  derivG_holds (A := 32) (B := 1) (C := 512) (n := 1024)
    slices_S32x1x512x1024_S32x1x512x1_0_0_0_0 concatenates_S32x1x512x1_S32x1x512x1024_S32x1x512x1025_d3
    slices_S32x1x512x1025_S32x1x512x1_0_0_0_1024 concatenates_S32x1x512x1025_S32x1x512x1_S32x1x512x1026_d3
    slices_S32x1x512x1026_S32x1x512x1024_0_0_0_0 slices_S32x1x512x1026_S32x1x512x1024_0_0_0_2 (by decide) hx

theorem smoothB_holds {x : FVec Ideal S1x512x1024x32 .f32} {f : R4 1 512 1024 32} (hx : Holds x f) :
    Holds (smoothB (F := Ideal) x) (sR f) :=
  smoothG_holds (A := 1) (B := 512) (C := 1024) (n := 32)
    slices_S1x512x1024x32_S1x512x1024x1_0_0_0_0 concatenates_S1x512x1024x1_S1x512x1024x32_S1x512x1024x33_d3
    slices_S1x512x1024x33_S1x512x1024x1_0_0_0_32 concatenates_S1x512x1024x33_S1x512x1024x1_S1x512x1024x34_d3
    slices_S1x512x1024x34_S1x512x1024x32_0_0_0_0 slices_S1x512x1024x34_S1x512x1024x32_0_0_0_1
    slices_S1x512x1024x34_S1x512x1024x32_0_0_0_2 bcast_S_S1x512x1024x32 (by decide) hx

theorem smoothC_holds {x : FVec Ideal S32x512x1024x1 .f32} {f : R4 32 512 1024 1} (hx : Holds x f) :
    Holds (smoothC (F := Ideal) x) (sR f) :=
  smoothG_holds (A := 32) (B := 512) (C := 1024) (n := 1)
    slices_S32x512x1024x1_S32x512x1024x1_0_0_0_0 concatenates_S32x512x1024x1_S32x512x1024x1_S32x512x1024x2_d3
    slices_S32x512x1024x2_S32x512x1024x1_0_0_0_1 concatenates_S32x512x1024x2_S32x512x1024x1_S32x512x1024x3_d3
    slices_S32x512x1024x3_S32x512x1024x1_0_0_0_0 slices_S32x512x1024x3_S32x512x1024x1_0_0_0_1
    slices_S32x512x1024x3_S32x512x1024x1_0_0_0_2 bcast_S_S32x512x1024x1 (by decide) hx

theorem smoothD_holds {x : FVec Ideal S32x1x1024x512 .f32} {f : R4 32 1 1024 512} (hx : Holds x f) :
    Holds (smoothD (F := Ideal) x) (sR f) :=
  smoothG_holds (A := 32) (B := 1) (C := 1024) (n := 512)
    slices_S32x1x1024x512_S32x1x1024x1_0_0_0_0 concatenates_S32x1x1024x1_S32x1x1024x512_S32x1x1024x513_d3
    slices_S32x1x1024x513_S32x1x1024x1_0_0_0_512 concatenates_S32x1x1024x513_S32x1x1024x1_S32x1x1024x514_d3
    slices_S32x1x1024x514_S32x1x1024x512_0_0_0_0 slices_S32x1x1024x514_S32x1x1024x512_0_0_0_1
    slices_S32x1x1024x514_S32x1x1024x512_0_0_0_2 bcast_S_S32x1x1024x512 (by decide) hx

/-- `sobel` of an array that holds the reals `f` holds the reals `sobelR f`. -/
theorem sobel_holds {x : FVec Ideal S32x1x512x1024 .f32} {f : R4 32 1 512 1024} (hx : Holds x f) :
    Holds (sobel (F := Ideal) x) (sobelR f) :=
  holds_0132 transposes_S32x1x1024x512_S32x1x512x1024_0_1_3_2
    (smoothD_holds
      (holds_0132 transposes_S32x1x512x1024_S32x1x1024x512_0_1_3_2
        (holds_0312 transposes_S32x512x1024x1_S32x1x512x1024_0_3_1_2
          (smoothC_holds
            (holds_0231 transposes_S32x1x512x1024_S32x512x1024x1_0_2_3_1
              (holds_3012 transposes_S1x512x1024x32_S32x1x512x1024_3_0_1_2
                (smoothB_holds
                  (holds_1230 transposes_S32x1x512x1024_S1x512x1024x32_1_2_3_0 (derivW_holds hx)))))))))

end Cert.ReferenceIdeal.SobelReal

end
-- ==== Proof.Bridge.lean ====
/-
  The reference's result is the kernel's closed form, for inputs that are real numbers.

  With `g = sobel t - sobel p` and `c = 0.7 · mae`, the reference averages `0.3 · g + c` over the `N = 2²⁴` entries:
  `(0 + Σ (0.3 · gᵢ + c)) / N`. The entries `gᵢ` are real numbers when the inputs are, so the sum is the real number
  `0.3 · Σ gᵢ` plus `N` copies of `c`, and dividing by `N` gives `0.3 · (Σ gᵢ) / N + c` WHATEVER extended real `c` is:
  for a real `c` this is arithmetic, and an infinite `c` swallows both sides alike (this is the case of no positive
  target, where `mae` is the quotient `0 / 0`). The total `Σ gᵢ` is `128` times the sum over batch and height of the
  difference's last column less its first column, which is the kernel's third total.
-/
import proofs.«163007_j23742579212666_1_alg».proof.Proof.SobelReal
import proofs.«163007_j23742579212666_1_alg».proof.Proof.KSpec
import Idealize.ShloMosaic.Lib.IdealHost
import Idealize.ShloMosaic.PureOps.Ideal.Laws

noncomputable section

namespace Cert.Bridge

open Idealize.ShloMosaic Idealize.ShloMosaic.ValueIdx Cert.LibLastAxis
open Cert.ReferenceIdeal Cert.ReferenceIdeal.Gen Cert.ReferenceIdeal.RefSpec Cert.ReferenceIdeal.RefReal
open Cert.ReferenceIdeal.SobelReal
open Cert.KernelIdeal.KValue (nvalid sumsq bdiff result tail tail_apply)

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real total `G` plus `N` copies of any extended real `c`, divided by `N`, is `G / N + c`. -/
theorem avg (N : ℕ) (hN : 0 < N) (G : ℝ) (c : EReal) :
    Ideal.div (0 + ((G : EReal) + N • c)) ((N : ℝ) : EReal) = ((G / N : ℝ) : EReal) + c := by
  have hN0 : (0 : ℝ) < N := Nat.cast_pos.2 hN
  have hN' : (N : ℝ) ≠ 0 := ne_of_gt hN0
  have hpos : (0 : ℝ) < 1 / N := by positivity
  rw [zero_add, Ideal.div_coe hN', EReal.nsmul_eq_mul, ← EReal.coe_natCast]
  induction c using EReal.rec with
  | bot => rw [EReal.coe_mul_bot_of_pos hN0, EReal.add_bot, EReal.add_bot, EReal.bot_mul_coe_of_pos hpos]
  | coe r =>
    rw [← EReal.coe_mul, ← EReal.coe_add, ← EReal.coe_mul, ← EReal.coe_add]
    congr 1
    field_simp
  | top => rw [EReal.coe_mul_top_of_pos hN0, EReal.coe_add_top, EReal.coe_add_top, EReal.top_mul_coe_of_pos hpos]

/-- A fourfold sum of (a real entry plus a constant): the real total plus as many copies of the constant. -/
theorem sum4_add_const {A B C n : ℕ} (g : R4 A B C n) (c : EReal) :
    ∑ a, ∑ b, ∑ c', ∑ d, (((g a b c' d : ℝ) : EReal) + c) = ((tot g : ℝ) : EReal) + (A * B * C * n) • c := by
  unfold tot
  simp only [Finset.sum_add_distrib, ← coe_sum, Finset.sum_const, Finset.card_univ, Fintype.card_fin]
  rw [← mul_nsmul', ← mul_nsmul', ← mul_nsmul']

/-- For inputs that are real numbers, and `mae` the kernel's quotient, the reference's result is the kernel's. -/
theorem out_eq_result (p t : FVec Ideal S32x1x512x1024 .f32)
    (hp : ∀ i, ∃ r : ℝ, p i = (r : EReal)) (ht : ∀ i, ∃ r : ℝ, t i = (r : EReal))
    (hmae : mae (F := Ideal) p t = fun _ => Ideal.div (sumsq p t) (nvalid p t)) :
    out (F := Ideal) p t = result p t := by
  choose P hP using fun a b c d => hp (ix4 a b c d)
  choose T hT using fun a b c d => ht (ix4 a b c d)
  have HP : Holds p P := hP
  have HT : Holds t T := hT
  have HSP := sobel_holds HP
  have HST := sobel_holds HT
  -- the loss entry by entry
  have hloss : ∀ a b c d, loss (F := Ideal) p t (ix4 a b c d)
      = (((10066330 / 33554432 : ℝ) * (sobelR T a b c d - sobelR P a b c d) : ℝ) : EReal)
        + Ideal.ofBits .f32 0x3F333333#32 * Ideal.div (sumsq p t) (nvalid p t) := by
    intro a b c d
    show Ideal.ofBits .f32 0x3E99999A#32 * (sobel (F := Ideal) t (ix4 a b c d) - sobel (F := Ideal) p (ix4 a b c d))
        + Ideal.ofBits .f32 0x3F333333#32 * mae (F := Ideal) p t _ = _
    rw [hmae, HST a b c d, HSP a b c d, Cert.Consts.ofBits_w03, ← EReal.coe_sub, ← EReal.coe_mul]
  -- the kernel's third total is a real number
  have hbd : bdiff p t = ((∑ b : Fin 32, ∑ h : Fin 512,
      ((T b 0 h 1023 - P b 0 h 1023) - (T b 0 h 0 - P b 0 h 0)) : ℝ) : EReal) := by
    unfold bdiff
    simp only [hT, hP, ← EReal.coe_sub, ← coe_sum]
  -- the total of the real part of the loss
  have htot : tot (fun a b c d => (10066330 / 33554432 : ℝ) * (sobelR T a b c d - sobelR P a b c d))
      = (10066330 / 33554432 : ℝ) * (128 * ∑ b : Fin 32, ∑ h : Fin 512,
          ((T b 0 h 1023 - P b 0 h 1023) - (T b 0 h 0 - P b 0 h 0))) := by
    have e : tot (fun a b c d => (10066330 / 33554432 : ℝ) * (sobelR T a b c d - sobelR P a b c d))
        = (10066330 / 33554432 : ℝ) * (tot (sobelR T) - tot (sobelR P)) := by
      unfold tot
      simp only [← Finset.mul_sum, Finset.sum_sub_distrib]
    rw [e, tot_sobelR, tot_sobelR, ← mul_sub, ← Finset.sum_sub_distrib]
    congr 2
    refine Finset.sum_congr rfl fun b _ => ?_
    rw [← Finset.sum_sub_distrib]
    exact Finset.sum_congr rfl fun h _ => by ring
  funext i
  rw [show result p t i = _ from tail_apply _ _ _ i]
  show Ideal.div (Host.reduceAdd (loss (F := Ideal) p t) zeroS reducesTo_S32x1x512x1024_S_d0_1_2_3 h_S_ i)
      (Ideal.ofBits .f32 0x4B800000#32) = _
  rw [hostReduceAdd_apply, Ideal.hostReduceAdd_total _ (fun b => b.elim0)]
  show Ideal.div (Ideal.ofBits .f32 0x00000000#32 + ∑ j, loss (F := Ideal) p t j) _ = _
  rw [Ideal.ofBits_zero_f32, sum_idx4]
  simp only [hloss]
  rw [sum4_add_const, htot, hbd, Cert.Consts.ofBits_2p24, Cert.Consts.ofBits_128, Cert.Consts.ofBits_w03]
  have hN : (32 * 1 * 512 * 1024 : ℕ) = 16777216 := by norm_num
  have h := avg 16777216 (by norm_num)
    ((10066330 / 33554432 : ℝ) * (128 * ∑ b : Fin 32, ∑ h : Fin 512,
      ((T b 0 h 1023 - P b 0 h 1023) - (T b 0 h 0 - P b 0 h 0))))
    (Ideal.ofBits .f32 0x3F333333#32 * Ideal.div (sumsq p t) (nvalid p t))
  simp only [Nat.cast_ofNat] at h
  rw [hN, h, Ideal.div_coe (by norm_num : (16777216 : ℝ) ≠ 0), ← EReal.coe_mul, ← EReal.coe_mul, ← EReal.coe_mul]
  congr 2
  ring

end Cert.Bridge

end
-- ==== Proof.lean ====
/-
  The kernel and its reference compute one extended real from a prediction `p` and a target `t`, both
  [32, 1, 512, 1024] and, by the precondition, made of real numbers.

  The reference takes `d = t - p`, the masked mean `mae = (Σ over t > 0 of d²) / #{t > 0}`, the filtered difference
  `g = sobel t - sobel p` (a difference filter along the width, then a smoothing filter `(1, 2, 1)` along each of the
  other three axes, every filter on the axis extended by its own end entries), and returns the mean over all
  `2²⁴` entries of `0.3 · g + 0.7 · mae`.

  The kernel never forms `g`. Summed along its axis, a smoothing filter on an axis extended by its end entries gives
  exactly four times the axis's sum, and the difference filter telescopes to twice (last entry less first entry);
  the filters being linear and acting along different axes, the total of `g` is `4 · 4 · 4 · 2 = 128` times the sum
  over batch and height of `d`'s last column less its first column. The kernel accumulates that column difference,
  the masked sum of squares and the count of positive targets over the 32 blocks of its grid, and ends with
  `0.3 · ((128 · bdiff) / 2²⁴) + 0.7 · (sumsq / nvalid)`.

  The proof: the kernel's run ends at that closed form of its two arguments (read off its frame run: the three
  accumulators after block `b` hold the sums over blocks `0 … b`); the reference's run ends at the composition of its
  host operations; the reference's count of positive targets, a 32-bit sum of at most `2²⁴` ones, is the kernel's
  count, and its masked sum is the kernel's, so the two `mae` are one extended real `c` (possibly the junk quotient
  `0 / 0` when no target is positive); the entries of `g` are real numbers because the inputs are, so the mean of
  `0.3 · g + c` is `0.3 · (Σ g) / 2²⁴ + c` for ANY extended real `c`; and `Σ g` is the `128`-fold column difference.
  The three frames are the two generated frame runs and the reference's run with its result dropped; the
  idealized kernel is the kernel's own text read at the ideal values, so nothing is owed for it.
-/
import proofs.«163007_j23742579212666_1_alg».proof.Defs
import proofs.«163007_j23742579212666_1_alg».proof.Proof.Gen.Kernel
import proofs.«163007_j23742579212666_1_alg».proof.Proof.Gen.Kernel.Frame
import proofs.«163007_j23742579212666_1_alg».proof.Proof.Gen.KernelIdeal
import proofs.«163007_j23742579212666_1_alg».proof.Proof.Gen.KernelIdeal.Frame
import proofs.«163007_j23742579212666_1_alg».proof.Proof.Gen.ReferenceIdeal
import proofs.«163007_j23742579212666_1_alg».proof.Proof.Gen.Pre_finite_inputs
import proofs.«163007_j23742579212666_1_alg».proof.Proof.KValue
import proofs.«163007_j23742579212666_1_alg».proof.Proof.RefRun
import proofs.«163007_j23742579212666_1_alg».proof.Proof.FiniteInputs
import proofs.«163007_j23742579212666_1_alg».proof.Proof.MaeBridge
import proofs.«163007_j23742579212666_1_alg».proof.Proof.Bridge

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, its result dropped. -/
theorem frame_referenceIdeal : Cert.frame_ReferenceIdeal := fun m ρ _ => Cert.ReferenceIdeal.RefRun.frame m ρ

/-- No operation was rewritten on the way to the ideal values. -/
theorem preserves : Cert.preserves_Kernel_KernelIdeal := trivial

/-- From arguments that agree and are real numbers, both runs end at the kernel's closed form. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hp, ht⟩ := Cert.FiniteInputs.real_of_pre _ _ (hpre c)
  exact Cert.Bridge.out_eq_result _ _ hp ht (Cert.MaeBridge.mae_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
